-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x8192 : Shape := ⟨2, ![8192, 8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x1024 .f32) (main_arg1 : FVec F S8192x8192 .f32) (main_arg2 : FVec F S8192x8192 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  main_v13
-- ==== Kernel.lean ====
abbrev S8192x1024 : Shape := ⟨2, ![8192, 1024]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x2 : Shape := ⟨2, ![8192, 2]⟩
abbrev S1024x1024 : Shape := ⟨2, ![1024, 1024]⟩

abbrev nBuf : Space → Nat
  | .hbm => 55
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x8192, .f32⟩
  | .hbm, ⟨2, _⟩ => ⟨S8192x8192, .f32⟩
  | .hbm, ⟨3, _⟩ => ⟨S8192x8192, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .i1⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S1x8192, .f32⟩
  | .hbm, ⟨27, _⟩ => ⟨S8192x8192, .f32⟩
  | .hbm, ⟨28, _⟩ => ⟨S8192x8192, .f32⟩
  | .hbm, ⟨29, _⟩ => ⟨S8192, .i32⟩
  | .hbm, ⟨30, _⟩ => ⟨S8192, .f32⟩
  | .hbm, ⟨31, _⟩ => ⟨S_, .i32⟩
  | .hbm, ⟨32, _⟩ => ⟨S8192, .i32⟩
  | .hbm, ⟨33, _⟩ => ⟨S8192, .i1⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192, .i32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S8192x1, .i32⟩
  | .hbm, ⟨46, _⟩ => ⟨S8192x1, .i32⟩
  | .hbm, ⟨47, _⟩ => ⟨S8192x2, .i32⟩
  | .hbm, ⟨48, _⟩ => ⟨S8192x8192, .f32⟩
  | .hbm, ⟨49, _⟩ => ⟨S8192x8192, .bf16⟩
  | .hbm, ⟨50, _⟩ => ⟨S8192x1024, .bf16⟩
  | .hbm, ⟨51, _⟩ => ⟨S8192x8192, .bf16⟩
  | .hbm, ⟨52, _⟩ => ⟨S8192x1024, .f32⟩
  | .hbm, ⟨53, _⟩ => ⟨S8192x1024, .bf16⟩
  | .hbm, ⟨54, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_6 : Ref sig .tc := ⟨.hbm, 38, rfl⟩
abbrev main_v25 : Ref sig .tc := ⟨.hbm, 39, rfl⟩
abbrev main_v26 : Ref sig .tc := ⟨.hbm, 40, rfl⟩
abbrev main_c_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![8, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  transposes_S8192x8192_S8192x8192_1_0 : S8192x8192.Transposes [1, 0] S8192x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  concatenates_S8192x1_S8192x1_S8192x2_d1 : Shape.Concatenates [S8192x1, S8192x1] S8192x2 1
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  scatter_S8192x8192_S8192x2_S8192_n_01_01_1_wf : ScatterDims.WF S8192x8192 S8192x2 S8192 [] [0, 1] [0, 1] 1
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .bf16 = 32 ∨ (Rect.block (s := S8192x8192) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x1024.size a
  hwx0_2 : ∀ i : grid0.Coords, EltTy.bits .f32 = 32 ∨ (Rect.block (s := S8192x1024) S1024x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .bf16 = 32 ∨ (Rect.block (s := S8192x8192) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x1024.size a
  hwx1_1 : ∀ i : grid1.Coords, EltTy.bits .bf16 = 32 ∨ (Rect.block (s := S8192x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x1024.size a
  hwx1_2 : ∀ i : grid1.Coords, EltTy.bits .f32 = 32 ∨ (Rect.block (s := S8192x1024) S1024x1024.size (cc1_transform_2 i) (hinb1_2 i)).WholeWords (EltTy.packing .f32)

variable [Facts₀]

def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v34) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v36) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x8192, .f32⟩
  | .hbm, ⟨2, _⟩ => ⟨S8192x8192, .f32⟩
  | .hbm, ⟨3, _⟩ => ⟨S8192x8192, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .i32⟩
  | .hbm, ⟨9, _⟩ => ⟨S8192x8192, .i32⟩
  | .hbm, ⟨10, _⟩ => ⟨S_, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .i1⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192x1, .f32⟩
  | .hbm, ⟨29, _⟩ => ⟨S8192x8192, .f32⟩
  | .hbm, ⟨30, _⟩ => ⟨S8192x8192, .f32⟩
  | .hbm, ⟨31, _⟩ => ⟨S1x8192, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  transposes_S8192x8192_S8192x8192_1_0 : S8192x8192.Transposes [1, 0] S8192x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S8192x8192_S8192x8192_S8192x8192_1_0_0_1_n_n_wf : DotDims.WF S8192x8192 S8192x8192 S8192x8192 [1] [0] [0] [1] [] []
  dot_S8192x8192_S8192x1024_S8192x1024_1_0_0_1_n_n_wf : DotDims.WF S8192x8192 S8192x1024 S8192x1024 [1] [0] [0] [1] [] []

variable [Facts₀]

def dot_S8192x8192_S8192x8192_S8192x8192_1_0_0_1_n_n : DotDims S8192x8192 S8192x8192 S8192x8192 where
  lhsContracting := [1]
  rhsContracting := [0]
  lhsNonContracting := [0]
  rhsNonContracting := [1]
  lhsBatch := []
  rhsBatch := []
  wf := dot_S8192x8192_S8192x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.Kernel.Body0.lean ====
/-
  The body of the first blocked matrix product, run on any staging buffers: its two branch conditions as
  arithmetic on the grid point, where its windows are idle, and its three control cases — the first reduction
  step (the accumulator is cleared, then gains the first product), a middle step (it gains one more product) and
  the last step (it gains the last product and is copied to the output block).
-/
import proofs.«103546_j7430293422438_2_alg».proof.Proof.Gen.Kernel.Launch
import proofs.«103546_j7430293422438_2_alg».proof.Proof.Gen.Kernel.Skeleton
import proofs.«103546_j7430293422438_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, in closed form over the grid

The grid is 8 × 1 × 8 in row-major order: point `t` is row block `t / 8` at reduction step `t % 8`. The
accumulator is cleared at the first reduction step and copied to the output block at the last. -/

/-- The first `if` of the body: the reduction step is the first. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second `if` of the body: the reduction step is the last. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last reduction step the output block is not stored into, -/
theorem idleAt0_2 : ∀ t : Fin cfg0.N, ¬cond0_1 (grid0.coords t) → cfg0.idle 2 (grid0.coords t) = true := by decide +kernel
/-- nor written back; -/
theorem noFlush0_2 : ∀ t : Fin cfg0.N, ¬cond0_1 (grid0.coords t) → (cfg0.win 2).flush t = false := by decide +kernel
/-- at the last step it is stored into. -/
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0_2 : View sig .tc .vmem S1024x1024 .f32 := (Memref.whole cc0_stg2_0 : Memref sig .tc .vmem S1024x1024 .f32).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x1024 .f32 := Memref.whole cc0_scratch0
abbrev VS0_0 : View sig .tc .vmem S1024x1024 .f32 := scM0_0.view

/-! ## The body on any staging memrefs, case by case

Each run is a pair of piece lists (what the stores leave in the output block and in the accumulator, last store
first) with the proof that from the inputs' buffers at their blocks the body runs to a continuation holding
those pieces written. -/

set_option maxHeartbeats 1000000 in
/-- First reduction step (not the last): the accumulator, found at anything, is cleared and then holds the first
    product; the output block is handed back untouched. -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- A middle reduction step: the accumulator, found at what the step before left, gains this step's product; the
    output block is handed back untouched. -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- The last reduction step (not the first): the accumulator gains this step's product and is copied into the
    output block, found at anything. -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.Kernel.Region0.lean ====
/-
  Region 0 of the kernel program (the first blocked matrix product): the proof data of its pipeline on one core
  — the arrays as the region finds them, what the body leaves in each staging buffer after each grid point, and
  the invariant carrying the accumulator from one grid point to the next — with the body obligation at every
  grid point and the invariant's entry and exit.
-/
import proofs.«103546_j7430293422438_2_alg».proof.Proof.Kernel.Body0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The three cases at a grid point, and what each leaves -/

/-- The first reduction step's run at point `t`'s memrefs. -/
abbrev runA0 (c : Dev nD) (t : Fin cfg0.N) (h0 : t.val % 8 = 0) (x0 x1 : Vec F S1024x1024 .bf16) :=
  kernelRun0_A (F := F) c (grid0.coords t) (ms0_0 t) (hs0_0 t) (ms0_1 t) (hs0_1 t) (ms0_2 t) (hs0_2 t) scM0_0 (Memref.isWhole_whole _) ((hcond0_0 t).mpr h0) (fun h => by have := (hcond0_1 t).mp h; omega) x0 x1
/-- A middle step's. -/
abbrev runB0 (c : Dev nD) (t : Fin cfg0.N) (h0 : ¬t.val % 8 = 0) (h1 : ¬t.val % 8 = 7) (x0 x1 : Vec F S1024x1024 .bf16) (xs0 : Vec F S1024x1024 .f32) :=
  kernelRun0_B (F := F) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) x0 x1 xs0
/-- The last step's. -/
abbrev runC0 (c : Dev nD) (t : Fin cfg0.N) (h0 : ¬t.val % 8 = 0) (h1 : t.val % 8 = 7) (x0 x1 : Vec F S1024x1024 .bf16) (xs0 : Vec F S1024x1024 .f32) :=
  kernelRun0_C (F := F) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) x0 x1 xs0

/-- The accumulator's pieces cover it, in each case. -/
theorem scoverA0 (c : Dev nD) (t : Fin cfg0.N) (h0 : t.val % 8 = 0) (x0 x1 : Vec F S1024x1024 .bf16) (y : S1024x1024.Idx) :
    ∃ pc ∈ (runA0 c t h0 x0 x1).2.1, y ∈ pc.1.set :=
  View.cover_of_tiledL (runA0 c t h0 x0 x1).2.1 S1024x1024.size (by sl_kernel_rfl) y
theorem scoverB0 (c : Dev nD) (t : Fin cfg0.N) (h0 : ¬t.val % 8 = 0) (h1 : ¬t.val % 8 = 7) (x0 x1 : Vec F S1024x1024 .bf16) (xs0 : Vec F S1024x1024 .f32) (y : S1024x1024.Idx) :
    ∃ pc ∈ (runB0 c t h0 h1 x0 x1 xs0).2.1, y ∈ pc.1.set :=
  View.cover_of_tiledL (runB0 c t h0 h1 x0 x1 xs0).2.1 S1024x1024.size (by sl_kernel_rfl) y
theorem scoverC0 (c : Dev nD) (t : Fin cfg0.N) (h0 : ¬t.val % 8 = 0) (h1 : t.val % 8 = 7) (x0 x1 : Vec F S1024x1024 .bf16) (xs0 : Vec F S1024x1024 .f32) (y : S1024x1024.Idx) :
    ∃ pc ∈ (runC0 c t h0 h1 x0 x1 xs0).2.1, y ∈ pc.1.set :=
  View.cover_of_tiledL (runC0 c t h0 h1 x0 x1 xs0).2.1 S1024x1024.size (by sl_kernel_rfl) y
/-- At the last step the output block's pieces cover it. -/
theorem coverC0 (c : Dev nD) (t : Fin cfg0.N) (h0 : ¬t.val % 8 = 0) (h1 : t.val % 8 = 7) (x0 x1 : Vec F S1024x1024 .bf16) (xs0 : Vec F S1024x1024 .f32) (y : S1024x1024.Idx) :
    ∃ pc ∈ (runC0 c t h0 h1 x0 x1 xs0).1, y ∈ pc.1.set :=
  View.cover_of_tiledL (runC0 c t h0 h1 x0 x1 xs0).1 S1024x1024.size (by sl_kernel_rfl) y

/-- What each case leaves in the accumulator: its pieces read back. -/
def accA0 (c : Dev nD) (t : Fin cfg0.N) (h0 : t.val % 8 = 0) (x0 x1 : Vec F S1024x1024 .bf16) : Vec F S1024x1024 .f32 :=
  VS0_0.read (Elt F) (VS0_0.writes (Elt F) VS0_0.junk (runA0 c t h0 x0 x1).2.1)
def accB0 (c : Dev nD) (t : Fin cfg0.N) (h0 : ¬t.val % 8 = 0) (h1 : ¬t.val % 8 = 7) (x0 x1 : Vec F S1024x1024 .bf16) (xs0 : Vec F S1024x1024 .f32) : Vec F S1024x1024 .f32 :=
  VS0_0.read (Elt F) (VS0_0.writes (Elt F) VS0_0.junk (runB0 c t h0 h1 x0 x1 xs0).2.1)
def accC0 (c : Dev nD) (t : Fin cfg0.N) (h0 : ¬t.val % 8 = 0) (h1 : t.val % 8 = 7) (x0 x1 : Vec F S1024x1024 .bf16) (xs0 : Vec F S1024x1024 .f32) : Vec F S1024x1024 .f32 :=
  VS0_0.read (Elt F) (VS0_0.writes (Elt F) VS0_0.junk (runC0 c t h0 h1 x0 x1 xs0).2.1)
/-- What the last step leaves in the output block. -/
def outC0 (c : Dev nD) (t : Fin cfg0.N) (h0 : ¬t.val % 8 = 0) (h1 : t.val % 8 = 7) (x0 x1 : Vec F S1024x1024 .bf16) (xs0 : Vec F S1024x1024 .f32) : Vec F S1024x1024 .f32 :=
  VO0_2.read (Elt F) (VO0_2.writes (Elt F) VO0_2.junk (runC0 c t h0 h1 x0 x1 xs0).1)
/-- At the other steps the output block is not stored into: a placeholder nothing consults. -/
def idleOut0 : Vec F S1024x1024 .f32 := VO0_2.read (Elt F) VO0_2.junk

/-! ## What the output block and the accumulator hold after each point -/

/-- One point's step: the pair (output block, accumulator) after point `t`, from the accumulator before it. -/
def step0 (c : Dev nD) (t : Fin cfg0.N) (prev : Vec F S1024x1024 .f32) : Vec F S1024x1024 .f32 × Vec F S1024x1024 .f32 :=
  if h0 : t.val % 8 = 0 then (idleOut0, accA0 c t h0 (iblk0 V c 0 t) (iblk0 V c 1 t))
  else if h1 : t.val % 8 = 7 then (outC0 c t h0 h1 (iblk0 V c 0 t) (iblk0 V c 1 t) prev, accC0 c t h0 h1 (iblk0 V c 0 t) (iblk0 V c 1 t) prev)
  else (idleOut0, accB0 c t h0 h1 (iblk0 V c 0 t) (iblk0 V c 1 t) prev)

/-- The accumulation over the grid points in order. -/
def outsAt0 (c : Dev nD) : (n : ℕ) → n < cfg0.N → Vec F S1024x1024 .f32 × Vec F S1024x1024 .f32
  | 0, hn => step0 V c ⟨0, hn⟩ idleOut0
  | n + 1, hn => step0 V c ⟨n + 1, hn⟩ (outsAt0 c n (Nat.lt_of_succ_lt hn)).2

theorem outsAt0_eq (c : Dev nD) (t : Fin cfg0.N) (hz : t.val ≠ 0) :
    outsAt0 V c t.val t.isLt = step0 V c t (outsAt0 V c (t.val - 1) (Nat.lt_of_le_of_lt (Nat.sub_le _ _) t.isLt)).2 := by
  obtain ⟨n, hn⟩ := t
  cases n with
  | zero => exact absurd rfl hz
  | succ n => rfl

theorem outsAt0_step (c : Dev nD) (t : Fin cfg0.N) : ∃ prev, outsAt0 V c t.val t.isLt = step0 V c t prev := by
  obtain ⟨n, hn⟩ := t
  cases n with
  | zero => exact ⟨_, rfl⟩
  | succ n => exact ⟨_, rfl⟩

theorem outsAt0_A (c : Dev nD) (t : Fin cfg0.N) (h0 : t.val % 8 = 0) :
    outsAt0 V c t.val t.isLt = (idleOut0, accA0 c t h0 (iblk0 V c 0 t) (iblk0 V c 1 t)) := by
  obtain ⟨prev, e⟩ := outsAt0_step V c t
  rw [e]; unfold step0; rw [dif_pos h0]

theorem outsAt0_B (c : Dev nD) (t : Fin cfg0.N) (h0 : ¬t.val % 8 = 0) (h1 : ¬t.val % 8 = 7) :
    outsAt0 V c t.val t.isLt = (idleOut0, accB0 c t h0 h1 (iblk0 V c 0 t) (iblk0 V c 1 t) (outsAt0 V c (t.val - 1) (Nat.lt_of_le_of_lt (Nat.sub_le _ _) t.isLt)).2) := by
  rw [outsAt0_eq V c t (fun e => h0 (by rw [e]))]
  unfold step0; rw [dif_neg h0, dif_neg h1]

theorem outsAt0_C (c : Dev nD) (t : Fin cfg0.N) (h0 : ¬t.val % 8 = 0) (h1 : t.val % 8 = 7) :
    outsAt0 V c t.val t.isLt = (outC0 c t h0 h1 (iblk0 V c 0 t) (iblk0 V c 1 t) (outsAt0 V c (t.val - 1) (Nat.lt_of_le_of_lt (Nat.sub_le _ _) t.isLt)).2, accC0 c t h0 h1 (iblk0 V c 0 t) (iblk0 V c 1 t) (outsAt0 V c (t.val - 1) (Nat.lt_of_le_of_lt (Nat.sub_le _ _) t.isLt)).2) := by
  rw [outsAt0_eq V c t (fun e => h0 (by rw [e]))]
  unfold step0; rw [dif_neg h0, dif_pos h1]

/-! ## The invariant -/

/-- The scoped buffers of the other region, each whole at some contents: they ride along untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The region invariant before position `n`: before the first point the accumulator at anything; afterwards at
    what the point before left in it; beside it the other region's scoped buffers and the generator register. -/
def Phi0 (c : Dev nD) : (n : ℕ) → n ≤ cfg0.N → sProp 𝕄
  | 0, _ => iprop((∃ d, owns (c : Thread nD τ) scM0_0 fullShare d) ∗ others0 (F := F) c ∗ (∃ r, prngReg c r))
  | n + 1, hn => iprop(owns (c : Thread nD τ) scM0_0 fullShare ((outsAt0 V c n hn).2) ∗ others0 (F := F) c ∗ (∃ r, prngReg c r))

theorem Phi0_zero (c : Dev nD) (n : ℕ) (h : n ≤ cfg0.N) (hz : n = 0) :
    Phi0 V c n h = iprop((∃ d, owns (c : Thread nD τ) scM0_0 fullShare d) ∗ others0 (F := F) c ∗ (∃ r, prngReg c r)) := by
  subst hz; rfl
theorem Phi0_succ (c : Dev nD) (n : ℕ) (hn : n < cfg0.N) :
    Phi0 V c (n + 1) hn = iprop(owns (c : Thread nD τ) scM0_0 fullShare ((outsAt0 V c n hn).2) ∗ others0 (F := F) c ∗ (∃ r, prngReg c r)) := rfl
theorem Phi0_pos (c : Dev nD) (n : ℕ) (h : n ≤ cfg0.N) (hz : n ≠ 0) :
    Phi0 V c n h = iprop(owns (c : Thread nD τ) scM0_0 fullShare ((outsAt0 V c (n - 1) (by omega)).2) ∗ others0 (F := F) c ∗ (∃ r, prngReg c r)) := by
  cases n with
  | zero => exact absurd rfl hz
  | succ n => rfl

/-! ## The proof data -/

/-- What the body leaves in window `w`'s staging buffer after point `t`: an input's block, the output's at `outsAt`. -/
def after0 (c : Dev nD) (w : Fin cfg0.W) (t : Fin cfg0.N) : (cfg0.win w).block.Idx → Elt F (cfg0.win w).elt :=
  match w with
  | ⟨0, _⟩ => iblk0 V c 0 t
  | ⟨1, _⟩ => iblk0 V c 1 t
  | ⟨2, _⟩ => (outsAt0 V c t.val t.isLt).1

def dat0 (c : Dev nD) : Dat τ (Elt F) Unit ℕ (UR sig nD τ) ℕ cfg0 c where
  A w := V c (Pipeline.arrRef spec0 w)
  after w t := after0 V c w t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0, after0]
theorem after0_1 (c : Dev nD) (t : Fin cfg0.N) : (dat0 V c).after 1 t = iblk0 V c 1 t := by dsimp only [dat0, after0]
theorem after0_2 (c : Dev nD) (t : Fin cfg0.N) : (dat0 V c).after 2 t = (outsAt0 V c t.val t.isLt).1 := by dsimp only [dat0, after0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the point's reduction step says which case it is
    in; the invariant hands the body the accumulator (at anything before the very first point, else at what the
    point before left) and takes it back at this point's contents; away from the last step the output block is
    handed back untouched, at the last step it holds the accumulator's copy. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 64 := lt_of_lt_of_eq t.isLt (show cfg0.N = 64 from N_0)
  by_cases h0 : t.val % 8 = 0
  · have h1 : ¬t.val % 8 = 7 := by omega
    rw [Dat.leavesExact_idle (dat0 V c) 2 t (idleAt0_2 t (fun h => h1 ((hcond0_1 t).mp h))) (noFlush0_2 t (fun h => h1 ((hcond0_1 t).mp h)))]
    rw [outsAt0_A V c t h0]
    unfold accA0; (try dsimp only)
    by_cases hz : t.val = 0
    · rw [Phi0_castSucc V c t, Phi0_zero V c _ _ hz]
      iintro ⟨⟨HS0, Hoth, Hg⟩, Ho, ⟨%d0, H0⟩, ⟨%d1, H1⟩, ⟨%d2, H2⟩⟩
      iapply ((runA0 c t h0 (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scoverA0 c t h0 _ _)
        isplitl [Hoth]; · iexact Hoth
        iexact Hg
      isplitl [Ho]; · iexact Ho
      isplitl [H0]; · iexact H0
      isplitl [H1]; · iexact H1
      iexists _; iexact H2
    · rw [Phi0_castSucc V c t, Phi0_pos V c _ _ hz]
      iintro ⟨⟨HS0, Hoth, Hg⟩, Ho, ⟨%d0, H0⟩, ⟨%d1, H1⟩, ⟨%d2, H2⟩⟩
      iapply ((runA0 c t h0 (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scoverA0 c t h0 _ _)
        isplitl [Hoth]; · iexact Hoth
        iexact Hg
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold outC0 accC0; (try dsimp only)
      rw [Phi0_castSucc V c t, Phi0_pos V c _ _ hz]
      iintro ⟨⟨HS0, Hoth, Hg⟩, Ho, ⟨%d0, H0⟩, ⟨%d1, H1⟩, ⟨%d2, H2⟩⟩
      iapply ((runC0 c t h0 h1 (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0]
        · unfold owns; iexists _; isplitr
          swap; · iexact HS0
          ipureintro; exact View.read_writes_of_cover _ _ _ _ _ (scoverC0 c t h0 h1 _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverC0 c t h0 h1 _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold accB0; (try dsimp only)
      rw [Phi0_castSucc V c t, Phi0_pos V c _ _ hz]
      iintro ⟨⟨HS0, Hoth, Hg⟩, Ho, ⟨%d0, H0⟩, ⟨%d1, H1⟩, ⟨%d2, H2⟩⟩
      iapply ((runB0 c t h0 h1 (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scoverB0 c t h0 h1 _ _ _)
        isplitl [Hoth]; · iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant's entry and exit -/

/-- What the launch hands the region — every scoped buffer no window stages at anything, and the generator register —
    is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  unfold Pipeline.ΦA others0; rw [scopedRest0_eq]; simp only [scM0_0, owns_whole]
  iintro ⟨⟨Hs, Hb0, Hb1, Hb2, Hb3, Hb4, Hb5, Hb6⟩, Hg⟩
  isplitl [Hs]; · iexact Hs
  isplitr [Hg]
  swap; · iexact Hg
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  iexact Hb6

/-- After the last point the invariant gives it back: the accumulator's named contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 64 := N_0; omega)]
  unfold Pipeline.ΦA others0; rw [scopedRest0_eq]; simp only [scM0_0, owns_whole]
  iintro ⟨Hs, ⟨Hb0, Hb1, Hb2, Hb3, Hb4, Hb5, Hb6⟩, Hg⟩
  isplitr [Hg]
  swap; · iexact Hg
  isplitl [Hs]; · iexists _; iexact Hs
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  iexact Hb6

end Cert.Kernel.Hand

end
-- ==== Proof.Kernel.Body1.lean ====
/-
  The body of the second blocked matrix product, run on any staging buffers: its two branch conditions as
  arithmetic on the grid point, where its windows are idle, and its three control cases — the first reduction
  step (the accumulator is cleared, then gains the first product), a middle step (it gains one more product) and
  the last step (it gains the last product and is copied to the output block).
-/
import proofs.«103546_j7430293422438_2_alg».proof.Proof.Gen.Kernel.Launch
import proofs.«103546_j7430293422438_2_alg».proof.Proof.Gen.Kernel.Skeleton
import proofs.«103546_j7430293422438_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, in closed form over the grid

The grid is 8 × 1 × 8 in row-major order: point `t` is row block `t / 8` at reduction step `t % 8`. The
accumulator is cleared at the first reduction step and copied to the output block at the last. -/

/-- The first `if` of the body: the reduction step is the first. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second `if` of the body: the reduction step is the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last reduction step the output block is not stored into, -/
theorem idleAt1_2 : ∀ t : Fin cfg1.N, ¬cond1_1 (grid1.coords t) → cfg1.idle 2 (grid1.coords t) = true := by decide +kernel
/-- nor written back; -/
theorem noFlush1_2 : ∀ t : Fin cfg1.N, ¬cond1_1 (grid1.coords t) → (cfg1.win 2).flush t = false := by decide +kernel
/-- at the last step it is stored into. -/
theorem liveAt1_2 : ∀ t : Fin cfg1.N, cond1_1 (grid1.coords t) → cfg1.idle 2 (grid1.coords t) = false := by decide +kernel

/-! ## The memrefs the body is called with -/

/-- One staging buffer of the output window, through which its contents are stated. -/
abbrev VO1_2 : View sig .tc .vmem S1024x1024 .f32 := (Memref.whole cc1_stg2_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S1024x1024 .f32 := Memref.whole cc1_scratch0
abbrev VS1_0 : View sig .tc .vmem S1024x1024 .f32 := scM1_0.view

/-! ## The body on any staging memrefs, case by case

Each run is a pair of piece lists (what the stores leave in the output block and in the accumulator, last store
first) with the proof that from the inputs' buffers at their blocks the body runs to a continuation holding
those pieces written. -/

set_option maxHeartbeats 1000000 in
/-- First reduction step (not the last): the accumulator, found at anything, is cleared and then holds the first
    product; the output block is handed back untouched. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .bf16) (x1 : Vec F S1024x1024 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- A middle reduction step: the accumulator, found at what the step before left, gains this step's product; the
    output block is handed back untouched. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- The last reduction step (not the first): the accumulator gains this step's product and is copied into the
    output block, found at anything. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.Kernel.Region1.lean ====
/-
  Region 1 of the kernel program (the second blocked matrix product): the proof data of its pipeline on one core
  — the arrays as the region finds them, what the body leaves in each staging buffer after each grid point, and
  the invariant carrying the accumulator from one grid point to the next — with the body obligation at every
  grid point and the invariant's entry and exit.
-/
import proofs.«103546_j7430293422438_2_alg».proof.Proof.Kernel.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The three cases at a grid point, and what each leaves -/

/-- The first reduction step's run at point `t`'s memrefs. -/
abbrev runA1 (c : Dev nD) (t : Fin cfg1.N) (h0 : t.val % 8 = 0) (x0 x1 : Vec F S1024x1024 .bf16) :=
  kernelRun1_A (F := F) c (grid1.coords t) (ms1_0 t) (hs1_0 t) (ms1_1 t) (hs1_1 t) (ms1_2 t) (hs1_2 t) scM1_0 (Memref.isWhole_whole _) ((hcond1_0 t).mpr h0) (fun h => by have := (hcond1_1 t).mp h; omega) x0 x1
/-- A middle step's. -/
abbrev runB1 (c : Dev nD) (t : Fin cfg1.N) (h0 : ¬t.val % 8 = 0) (h1 : ¬t.val % 8 = 7) (x0 x1 : Vec F S1024x1024 .bf16) (xs0 : Vec F S1024x1024 .f32) :=
  kernelRun1_B (F := F) c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) x0 x1 xs0
/-- The last step's. -/
abbrev runC1 (c : Dev nD) (t : Fin cfg1.N) (h0 : ¬t.val % 8 = 0) (h1 : t.val % 8 = 7) (x0 x1 : Vec F S1024x1024 .bf16) (xs0 : Vec F S1024x1024 .f32) :=
  kernelRun1_C (F := F) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) x0 x1 xs0

/-- The accumulator's pieces cover it, in each case. -/
theorem scoverA1 (c : Dev nD) (t : Fin cfg1.N) (h0 : t.val % 8 = 0) (x0 x1 : Vec F S1024x1024 .bf16) (y : S1024x1024.Idx) :
    ∃ pc ∈ (runA1 c t h0 x0 x1).2.1, y ∈ pc.1.set :=
  View.cover_of_tiledL (runA1 c t h0 x0 x1).2.1 S1024x1024.size (by sl_kernel_rfl) y
theorem scoverB1 (c : Dev nD) (t : Fin cfg1.N) (h0 : ¬t.val % 8 = 0) (h1 : ¬t.val % 8 = 7) (x0 x1 : Vec F S1024x1024 .bf16) (xs0 : Vec F S1024x1024 .f32) (y : S1024x1024.Idx) :
    ∃ pc ∈ (runB1 c t h0 h1 x0 x1 xs0).2.1, y ∈ pc.1.set :=
  View.cover_of_tiledL (runB1 c t h0 h1 x0 x1 xs0).2.1 S1024x1024.size (by sl_kernel_rfl) y
theorem scoverC1 (c : Dev nD) (t : Fin cfg1.N) (h0 : ¬t.val % 8 = 0) (h1 : t.val % 8 = 7) (x0 x1 : Vec F S1024x1024 .bf16) (xs0 : Vec F S1024x1024 .f32) (y : S1024x1024.Idx) :
    ∃ pc ∈ (runC1 c t h0 h1 x0 x1 xs0).2.1, y ∈ pc.1.set :=
  View.cover_of_tiledL (runC1 c t h0 h1 x0 x1 xs0).2.1 S1024x1024.size (by sl_kernel_rfl) y
/-- At the last step the output block's pieces cover it. -/
theorem coverC1 (c : Dev nD) (t : Fin cfg1.N) (h0 : ¬t.val % 8 = 0) (h1 : t.val % 8 = 7) (x0 x1 : Vec F S1024x1024 .bf16) (xs0 : Vec F S1024x1024 .f32) (y : S1024x1024.Idx) :
    ∃ pc ∈ (runC1 c t h0 h1 x0 x1 xs0).1, y ∈ pc.1.set :=
  View.cover_of_tiledL (runC1 c t h0 h1 x0 x1 xs0).1 S1024x1024.size (by sl_kernel_rfl) y

/-- What each case leaves in the accumulator: its pieces read back. -/
def accA1 (c : Dev nD) (t : Fin cfg1.N) (h0 : t.val % 8 = 0) (x0 x1 : Vec F S1024x1024 .bf16) : Vec F S1024x1024 .f32 :=
  VS1_0.read (Elt F) (VS1_0.writes (Elt F) VS1_0.junk (runA1 c t h0 x0 x1).2.1)
def accB1 (c : Dev nD) (t : Fin cfg1.N) (h0 : ¬t.val % 8 = 0) (h1 : ¬t.val % 8 = 7) (x0 x1 : Vec F S1024x1024 .bf16) (xs0 : Vec F S1024x1024 .f32) : Vec F S1024x1024 .f32 :=
  VS1_0.read (Elt F) (VS1_0.writes (Elt F) VS1_0.junk (runB1 c t h0 h1 x0 x1 xs0).2.1)
def accC1 (c : Dev nD) (t : Fin cfg1.N) (h0 : ¬t.val % 8 = 0) (h1 : t.val % 8 = 7) (x0 x1 : Vec F S1024x1024 .bf16) (xs0 : Vec F S1024x1024 .f32) : Vec F S1024x1024 .f32 :=
  VS1_0.read (Elt F) (VS1_0.writes (Elt F) VS1_0.junk (runC1 c t h0 h1 x0 x1 xs0).2.1)
/-- What the last step leaves in the output block. -/
def outC1 (c : Dev nD) (t : Fin cfg1.N) (h0 : ¬t.val % 8 = 0) (h1 : t.val % 8 = 7) (x0 x1 : Vec F S1024x1024 .bf16) (xs0 : Vec F S1024x1024 .f32) : Vec F S1024x1024 .f32 :=
  VO1_2.read (Elt F) (VO1_2.writes (Elt F) VO1_2.junk (runC1 c t h0 h1 x0 x1 xs0).1)
/-- At the other steps the output block is not stored into: a placeholder nothing consults. -/
def idleOut1 : Vec F S1024x1024 .f32 := VO1_2.read (Elt F) VO1_2.junk

/-! ## What the output block and the accumulator hold after each point -/

/-- One point's step: the pair (output block, accumulator) after point `t`, from the accumulator before it. -/
def step1 (c : Dev nD) (t : Fin cfg1.N) (prev : Vec F S1024x1024 .f32) : Vec F S1024x1024 .f32 × Vec F S1024x1024 .f32 :=
  if h0 : t.val % 8 = 0 then (idleOut1, accA1 c t h0 (iblk1 V c 0 t) (iblk1 V c 1 t))
  else if h1 : t.val % 8 = 7 then (outC1 c t h0 h1 (iblk1 V c 0 t) (iblk1 V c 1 t) prev, accC1 c t h0 h1 (iblk1 V c 0 t) (iblk1 V c 1 t) prev)
  else (idleOut1, accB1 c t h0 h1 (iblk1 V c 0 t) (iblk1 V c 1 t) prev)

/-- The accumulation over the grid points in order. -/
def outsAt1 (c : Dev nD) : (n : ℕ) → n < cfg1.N → Vec F S1024x1024 .f32 × Vec F S1024x1024 .f32
  | 0, hn => step1 V c ⟨0, hn⟩ idleOut1
  | n + 1, hn => step1 V c ⟨n + 1, hn⟩ (outsAt1 c n (Nat.lt_of_succ_lt hn)).2

theorem outsAt1_eq (c : Dev nD) (t : Fin cfg1.N) (hz : t.val ≠ 0) :
    outsAt1 V c t.val t.isLt = step1 V c t (outsAt1 V c (t.val - 1) (Nat.lt_of_le_of_lt (Nat.sub_le _ _) t.isLt)).2 := by
  obtain ⟨n, hn⟩ := t
  cases n with
  | zero => exact absurd rfl hz
  | succ n => rfl

theorem outsAt1_step (c : Dev nD) (t : Fin cfg1.N) : ∃ prev, outsAt1 V c t.val t.isLt = step1 V c t prev := by
  obtain ⟨n, hn⟩ := t
  cases n with
  | zero => exact ⟨_, rfl⟩
  | succ n => exact ⟨_, rfl⟩

theorem outsAt1_A (c : Dev nD) (t : Fin cfg1.N) (h0 : t.val % 8 = 0) :
    outsAt1 V c t.val t.isLt = (idleOut1, accA1 c t h0 (iblk1 V c 0 t) (iblk1 V c 1 t)) := by
  obtain ⟨prev, e⟩ := outsAt1_step V c t
  rw [e]; unfold step1; rw [dif_pos h0]

theorem outsAt1_B (c : Dev nD) (t : Fin cfg1.N) (h0 : ¬t.val % 8 = 0) (h1 : ¬t.val % 8 = 7) :
    outsAt1 V c t.val t.isLt = (idleOut1, accB1 c t h0 h1 (iblk1 V c 0 t) (iblk1 V c 1 t) (outsAt1 V c (t.val - 1) (Nat.lt_of_le_of_lt (Nat.sub_le _ _) t.isLt)).2) := by
  rw [outsAt1_eq V c t (fun e => h0 (by rw [e]))]
  unfold step1; rw [dif_neg h0, dif_neg h1]

theorem outsAt1_C (c : Dev nD) (t : Fin cfg1.N) (h0 : ¬t.val % 8 = 0) (h1 : t.val % 8 = 7) :
    outsAt1 V c t.val t.isLt = (outC1 c t h0 h1 (iblk1 V c 0 t) (iblk1 V c 1 t) (outsAt1 V c (t.val - 1) (Nat.lt_of_le_of_lt (Nat.sub_le _ _) t.isLt)).2, accC1 c t h0 h1 (iblk1 V c 0 t) (iblk1 V c 1 t) (outsAt1 V c (t.val - 1) (Nat.lt_of_le_of_lt (Nat.sub_le _ _) t.isLt)).2) := by
  rw [outsAt1_eq V c t (fun e => h0 (by rw [e]))]
  unfold step1; rw [dif_neg h0, dif_pos h1]

/-! ## The invariant -/

/-- The scoped buffers of the other region, each whole at some contents: they ride along untouched. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The region invariant before position `n`: before the first point the accumulator at anything; afterwards at
    what the point before left in it; beside it the other region's scoped buffers and the generator register. -/
def Phi1 (c : Dev nD) : (n : ℕ) → n ≤ cfg1.N → sProp 𝕄
  | 0, _ => iprop((∃ d, owns (c : Thread nD τ) scM1_0 fullShare d) ∗ others1 (F := F) c ∗ (∃ r, prngReg c r))
  | n + 1, hn => iprop(owns (c : Thread nD τ) scM1_0 fullShare ((outsAt1 V c n hn).2) ∗ others1 (F := F) c ∗ (∃ r, prngReg c r))

theorem Phi1_zero (c : Dev nD) (n : ℕ) (h : n ≤ cfg1.N) (hz : n = 0) :
    Phi1 V c n h = iprop((∃ d, owns (c : Thread nD τ) scM1_0 fullShare d) ∗ others1 (F := F) c ∗ (∃ r, prngReg c r)) := by
  subst hz; rfl
theorem Phi1_succ (c : Dev nD) (n : ℕ) (hn : n < cfg1.N) :
    Phi1 V c (n + 1) hn = iprop(owns (c : Thread nD τ) scM1_0 fullShare ((outsAt1 V c n hn).2) ∗ others1 (F := F) c ∗ (∃ r, prngReg c r)) := rfl
theorem Phi1_pos (c : Dev nD) (n : ℕ) (h : n ≤ cfg1.N) (hz : n ≠ 0) :
    Phi1 V c n h = iprop(owns (c : Thread nD τ) scM1_0 fullShare ((outsAt1 V c (n - 1) (by omega)).2) ∗ others1 (F := F) c ∗ (∃ r, prngReg c r)) := by
  cases n with
  | zero => exact absurd rfl hz
  | succ n => rfl

/-! ## The proof data -/

/-- What the body leaves in window `w`'s staging buffer after point `t`: an input's block, the output's at `outsAt`. -/
def after1 (c : Dev nD) (w : Fin cfg1.W) (t : Fin cfg1.N) : (cfg1.win w).block.Idx → Elt F (cfg1.win w).elt :=
  match w with
  | ⟨0, _⟩ => iblk1 V c 0 t
  | ⟨1, _⟩ => iblk1 V c 1 t
  | ⟨2, _⟩ => (outsAt1 V c t.val t.isLt).1

def dat1 (c : Dev nD) : Dat τ (Elt F) Unit ℕ (UR sig nD τ) ℕ cfg1 c where
  A w := V c (Pipeline.arrRef spec1 w)
  after w t := after1 V c w t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1, after1]
theorem after1_1 (c : Dev nD) (t : Fin cfg1.N) : (dat1 V c).after 1 t = iblk1 V c 1 t := by dsimp only [dat1, after1]
theorem after1_2 (c : Dev nD) (t : Fin cfg1.N) : (dat1 V c).after 2 t = (outsAt1 V c t.val t.isLt).1 := by dsimp only [dat1, after1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the point's reduction step says which case it is
    in; the invariant hands the body the accumulator (at anything before the very first point, else at what the
    point before left) and takes it back at this point's contents; away from the last step the output block is
    handed back untouched, at the last step it holds the accumulator's copy. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 64 := lt_of_lt_of_eq t.isLt (show cfg1.N = 64 from N_1)
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [outsAt1_A V c t h0]
    unfold accA1; (try dsimp only)
    by_cases hz : t.val = 0
    · rw [Phi1_castSucc V c t, Phi1_zero V c _ _ hz]
      iintro ⟨⟨HS0, Hoth, Hg⟩, Ho, ⟨%d0, H0⟩, ⟨%d1, H1⟩, ⟨%d2, H2⟩⟩
      iapply ((runA1 c t h0 (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scoverA1 c t h0 _ _)
        isplitl [Hoth]; · iexact Hoth
        iexact Hg
      isplitl [Ho]; · iexact Ho
      isplitl [H0]; · iexact H0
      isplitl [H1]; · iexact H1
      iexists _; iexact H2
    · rw [Phi1_castSucc V c t, Phi1_pos V c _ _ hz]
      iintro ⟨⟨HS0, Hoth, Hg⟩, Ho, ⟨%d0, H0⟩, ⟨%d1, H1⟩, ⟨%d2, H2⟩⟩
      iapply ((runA1 c t h0 (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scoverA1 c t h0 _ _)
        isplitl [Hoth]; · iexact Hoth
        iexact Hg
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold outC1 accC1; (try dsimp only)
      rw [Phi1_castSucc V c t, Phi1_pos V c _ _ hz]
      iintro ⟨⟨HS0, Hoth, Hg⟩, Ho, ⟨%d0, H0⟩, ⟨%d1, H1⟩, ⟨%d2, H2⟩⟩
      iapply ((runC1 c t h0 h1 (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0]
        · unfold owns; iexists _; isplitr
          swap; · iexact HS0
          ipureintro; exact View.read_writes_of_cover _ _ _ _ _ (scoverC1 c t h0 h1 _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverC1 c t h0 h1 _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold accB1; (try dsimp only)
      rw [Phi1_castSucc V c t, Phi1_pos V c _ _ hz]
      iintro ⟨⟨HS0, Hoth, Hg⟩, Ho, ⟨%d0, H0⟩, ⟨%d1, H1⟩, ⟨%d2, H2⟩⟩
      iapply ((runB1 c t h0 h1 (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scoverB1 c t h0 h1 _ _ _)
        isplitl [Hoth]; · iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's entry and exit -/

/-- What the launch hands the region — every scoped buffer no window stages at anything, and the generator register —
    is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  unfold Pipeline.ΦA others1; rw [scopedRest1_eq]; simp only [scM1_0, owns_whole]
  iintro ⟨⟨Hb0, Hb1, Hb2, Hb3, Hb4, Hb5, Hb6, Hs⟩, Hg⟩
  isplitl [Hs]; · iexact Hs
  isplitr [Hg]
  swap; · iexact Hg
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  iexact Hb6

/-- After the last point the invariant gives it back: the accumulator's named contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 64 := N_1; omega)]
  unfold Pipeline.ΦA others1; rw [scopedRest1_eq]; simp only [scM1_0, owns_whole]
  iintro ⟨Hs, ⟨Hb0, Hb1, Hb2, Hb3, Hb4, Hb5, Hb6⟩, Hg⟩
  isplitr [Hg]
  swap; · iexact Hg
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  iexists _; iexact Hs

end Cert.Kernel.Hand

end
-- ==== Proof.Kernel.Frame.lean ====
/-
  The run of the whole kernel program. Its main function is six segments in order: three stretches of host
  operations, the first blocked matrix product (region 0), one host conversion, the second blocked matrix product
  (region 1). Here are the contents of every unscoped buffer of a core at each boundary between segments — a fold
  from the launch memory: a host stretch rewrites the buffers its operations write, a region leaves its arrays at
  what its write-backs leave and every other buffer as entered —, each region as a segment over the thread state
  "every unscoped buffer whole at the boundary's contents, the generator register at some state, nothing owed",
  and the run itself: every weakly fair execution from a memory with zero counters terminates, and the final
  memory holds every unscoped buffer at the last boundary's contents. The argument arrays are read back through
  the fold to the launch memory, and the result buffers of the regions to what the pipelines leave.
-/
import proofs.«103546_j7430293422438_2_alg».proof.Proof.Kernel.Region0
import proofs.«103546_j7430293422438_2_alg».proof.Proof.Kernel.Region1
import proofs.«103546_j7430293422438_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The buffer contents at each segment boundary -/

/-- The launch memory, read on core `c`. -/
abbrev W0 (m : (ℓ : Loc nD τ sig) → Buf (Elt F) ℓ) (ρ : Dev nD → PrngReg) : Dev nD → Valuation τ sig (Elt F) :=
  fun c => Gen.V0 m c
/-- After the first host stretch. -/
abbrev W1 (m : (ℓ : Loc nD τ sig) → Buf (Elt F) ℓ) (ρ : Dev nD → PrngReg) : Dev nD → Valuation τ sig (Elt F) :=
  fun c => Gen.V1 m c
/-- After the second host stretch (the outlined selection). -/
abbrev W2 (m : (ℓ : Loc nD τ sig) → Buf (Elt F) ℓ) (ρ : Dev nD → PrngReg) : Dev nD → Valuation τ sig (Elt F) :=
  fun c => Gen.V2 m c
/-- After the third host stretch: region 0's entry. -/
abbrev W3 (m : (ℓ : Loc nD τ sig) → Buf (Elt F) ℓ) (ρ : Dev nD → PrngReg) : Dev nD → Valuation τ sig (Elt F) :=
  fun c => Gen.V3 m c

variable (m : (ℓ : Loc nD τ sig) → Buf (Elt F) ℓ) (ρ : Dev nD → PrngReg)

/-- `W3` indexed by the core's own references: the entry contents region 0's proof data are stated at. -/
abbrev V3 : (c : Dev nD) → (b : Ref sig .tc) → Buf (Elt F) ((c : Thread nD τ).loc b) := fun c b => W3 m ρ c b
/-- When region 0 returns: each of its three arrays holds the fold of the pipeline's write-backs over all grid points,
    and no other buffer has moved. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- `W4` indexed by the core's own references. -/
abbrev V4 : (c : Dev nD) → (b : Ref sig .tc) → Buf (Elt F) ((c : Thread nD τ).loc b) := fun c b => W4 m ρ c b
/-- `V4` agrees with the pipeline's final arrays on region 0's arrays (`hF0`) and with `V3` elsewhere (`hrest0`). -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the host conversion between the regions: region 1's entry. -/
abbrev W5 : Dev nD → Valuation τ sig (Elt F) := fun c => StableHlo.after hostOps1 (W4 m ρ c)
/-- `W5` indexed by the core's own references: the entry contents region 1's proof data are stated at. -/
abbrev V5 : (c : Dev nD) → (b : Ref sig .tc) → Buf (Elt F) ((c : Thread nD τ).loc b) := fun c b => W5 m ρ c b
/-- When region 1 returns: each of its three arrays holds the fold of the pipeline's write-backs over all grid points,
    and no other buffer has moved. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- `W6` indexed by the core's own references. -/
abbrev V6 : (c : Dev nD) → (b : Ref sig .tc) → Buf (Elt F) ((c : Thread nD τ).loc b) := fun c b => W6 m ρ c b
/-- `V6` agrees with the pipeline's final arrays on region 1's arrays (`hF1`) and with `V5` elsewhere (`hrest1`). -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- The conversion between the regions leaves every buffer but its result as it was. -/
theorem W5_of (c : Dev nD) (r : Ref sig .tc) (h : r ∉ hostOps1_W) :
    W5 m ρ c (Proc.devRef .tc r) = W4 m ρ c (Proc.devRef .tc r) :=
  StableHlo.after_of_writes_sub hostOps1 _ hostOps1_writes h

/-! ### The reads at the last boundary -/

/-- An argument array is written by no host operation and is no array of either region: the fold at its buffer
    walks back to the launch memory. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := Gen.V3_of m c main_arg0 (by decide)
    _ = W1 m ρ c (Proc.devRef .tc main_arg0) := Gen.V2_of m c main_arg0 (by decide)
    _ = W0 m ρ c (Proc.devRef .tc main_arg0) := Gen.V1_of m c main_arg0 (by decide)
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := Gen.V3_of m c main_arg1 (by decide)
    _ = W1 m ρ c (Proc.devRef .tc main_arg1) := Gen.V2_of m c main_arg1 (by decide)
    _ = W0 m ρ c (Proc.devRef .tc main_arg1) := Gen.V1_of m c main_arg1 (by decide)
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := Gen.V3_of m c main_arg2 (by decide)
    _ = W1 m ρ c (Proc.devRef .tc main_arg2) := Gen.V2_of m c main_arg2 (by decide)
    _ = W0 m ρ c (Proc.devRef .tc main_arg2) := Gen.V1_of m c main_arg2 (by decide)
    _ = m ((c : Thread nD τ).loc main_arg2) := rfl

/-- The program's result buffer ends at what region 1's pipeline leaves in its output array. -/
theorem W6_main_v39 (c : Dev nD) : W6 m ρ c (Proc.devRef .tc main_v39) = (dat1 (V5 m ρ) c).arrAt 2 cfg1.N :=
  W6_arr m ρ c 2
/-- Region 1's second operand is the conversion of region 0's result. -/
theorem W5_v38 (c : Dev nD) : W5 m ρ c (Proc.devRef .tc main_v38)
    = ((truncf .bf16 · bitsLt_bf16_f32) : (⟨S8192x1024, .f32⟩ : BufTy).Contents (Elt F) → (⟨S8192x1024, .bf16⟩ : BufTy).Contents (Elt F))
        (W4 m ρ c (Proc.devRef .tc main_v37)) := by
  show StableHlo.after hostOps1 (W4 m ρ c) (Proc.devRef .tc main_v38) = _
  after_results
/-- Region 0's result buffer is what its pipeline leaves in its output array. -/
theorem W4_v37 (c : Dev nD) : W4 m ρ c (Proc.devRef .tc main_v37) = (dat0 (V3 m ρ) c).arrAt 2 cfg0.N :=
  W4_arr m ρ c 2
/-- Region 1's first operand is as the host prefix left it: neither region 0 nor the conversion writes it. -/
theorem W5_v36 (c : Dev nD) : W5 m ρ c (Proc.devRef .tc main_v36) = Gen.V3 m c (Proc.devRef .tc main_v36) :=
  (W5_of m ρ c main_v36 (by decide)).trans (W4_of_ne m ρ c main_v36 (by decide))

/-! ## The proof data family and the thread state -/

/-- Neither matrix product prefetches a table, so the admissibility witness is the trivial one. -/
abbrev adm : (p : Fin 2) → (pcfgs (F := F) p).Adm := fun p => (cfgs p).toPCfg_adm
/-- The two pipelines' proof data: the first product's at `V3`, the second's at `V5`. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
/-- A single core exchanges nothing with another: the set of levelled pairs is empty. -/
abbrev L : GSem nD τ sig → Finset Unit := fun _ => ∅
abbrev lv : GSem nD τ sig → Unit → ℕ := fun _ _ => 0
/-- The part of the thread state no segment reads: the random-number register in whatever state, and a zero tally of
    debts. -/
abbrev R (c : Dev nD) : sProp 𝕄 := iprop((∃ r, prngReg c r) ∗ ∃ W, owes (c : Thread nD τ) (0 : CellTallies nD τ sig Unit) W)
/-- A stretch of host operations started with the unscoped buffers at `W`; it ends with them at the operations' fold
    over `W`, and `R` is untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Membership of a reference in the set of unscoped buffers, from its not being scoped. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The final thread state apart from the zero tally: the unscoped buffers at `W6` and the random-number register. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W3`, left at `W4`. Its arrays are split out
    of the unscoped buffers and put back at the exit contents; the generator register passes into the region's
    invariant and out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V3 m ρ) c)
    unfold Pipeline.ΦA
    iintro ⟨Hp, -, Hr⟩
    isplitl [Hr]; · iexact Hr
    iexact Hp
  hout c := by
    rw [Pipeline.ownSems0_none]
    refine BIBase.Entails.trans (hout0 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6` (what the launch reads
    at the end), in the same way as region 0. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V5 m ρ) c)
    unfold Pipeline.ΦA
    iintro ⟨Hp, -, Hr⟩
    isplitl [Hr]; · iexact Hr
    iexact Hp
  hout c := by
    rw [Pipeline.ownSems0_none]
    refine BIBase.Entails.trans (hout1 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The main function as segments, and the launch -/

/-- The main function's six segments in order: a host segment per stretch from its boundary's contents, a region per
    blocked matrix product. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]
/-- The main function is the run of the segments. -/
theorem main_run (c : Dev nD) : main (F := F) c = Pipeline.Seg.run (segs m ρ) := (main_chain c).trans (by chain_rfl)

set_option backward.isDefEq.respectTransparency.types false in
/-- THE RUN. From any memory with zero counters, every weakly fair execution of the main function on the TensorCores
    terminates, nothing faulting, and the final memory holds every unscoped buffer of every core at the last
    boundary's contents `W6`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: the run terminates and every argument array ends as launched, each read off the last boundary's
    contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩) (run_all m ρ)

end Cert.Kernel.Hand

end
-- ==== Proof.KernelIdeal.Body0.lean ====
/-
  The body of the first blocked matrix product, run on any staging buffers: its two branch conditions as
  arithmetic on the grid point, where its windows are idle, and its three control cases — the first reduction
  step (the accumulator is cleared, then gains the first product), a middle step (it gains one more product) and
  the last step (it gains the last product and is copied to the output block).
-/
import proofs.«103546_j7430293422438_2_alg».proof.Proof.Gen.KernelIdeal.Launch
import proofs.«103546_j7430293422438_2_alg».proof.Proof.Gen.KernelIdeal.Skeleton
import proofs.«103546_j7430293422438_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, in closed form over the grid

The grid is 8 × 1 × 8 in row-major order: point `t` is row block `t / 8` at reduction step `t % 8`. The
accumulator is cleared at the first reduction step and copied to the output block at the last. -/

/-- The first `if` of the body: the reduction step is the first. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second `if` of the body: the reduction step is the last. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last reduction step the output block is not stored into, -/
theorem idleAt0_2 : ∀ t : Fin cfg0.N, ¬cond0_1 (grid0.coords t) → cfg0.idle 2 (grid0.coords t) = true := by decide +kernel
/-- nor written back; -/
theorem noFlush0_2 : ∀ t : Fin cfg0.N, ¬cond0_1 (grid0.coords t) → (cfg0.win 2).flush t = false := by decide +kernel
/-- at the last step it is stored into. -/
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0_2 : View sig .tc .vmem S1024x1024 .f32 := (Memref.whole cc0_stg2_0 : Memref sig .tc .vmem S1024x1024 .f32).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x1024 .f32 := Memref.whole cc0_scratch0
abbrev VS0_0 : View sig .tc .vmem S1024x1024 .f32 := scM0_0.view

/-! ## The body on any staging memrefs, case by case

Each run is a pair of piece lists (what the stores leave in the output block and in the accumulator, last store
first) with the proof that from the inputs' buffers at their blocks the body runs to a continuation holding
those pieces written. -/

set_option maxHeartbeats 1000000 in
/-- First reduction step (not the last): the accumulator, found at anything, is cleared and then holds the first
    product; the output block is handed back untouched. -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- A middle reduction step: the accumulator, found at what the step before left, gains this step's product; the
    output block is handed back untouched. -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- The last reduction step (not the first): the accumulator gains this step's product and is copied into the
    output block, found at anything. -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.KernelIdeal.Region0.lean ====
/-
  Region 0 of the kernel program (the first blocked matrix product): the proof data of its pipeline on one core
  — the arrays as the region finds them, what the body leaves in each staging buffer after each grid point, and
  the invariant carrying the accumulator from one grid point to the next — with the body obligation at every
  grid point and the invariant's entry and exit.
-/
import proofs.«103546_j7430293422438_2_alg».proof.Proof.KernelIdeal.Body0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The three cases at a grid point, and what each leaves -/

/-- The first reduction step's run at point `t`'s memrefs. -/
abbrev runA0 (c : Dev nD) (t : Fin cfg0.N) (h0 : t.val % 8 = 0) (x0 x1 : Vec F S1024x1024 .bf16) :=
  kernelRun0_A (F := F) c (grid0.coords t) (ms0_0 t) (hs0_0 t) (ms0_1 t) (hs0_1 t) (ms0_2 t) (hs0_2 t) scM0_0 (Memref.isWhole_whole _) ((hcond0_0 t).mpr h0) (fun h => by have := (hcond0_1 t).mp h; omega) x0 x1
/-- A middle step's. -/
abbrev runB0 (c : Dev nD) (t : Fin cfg0.N) (h0 : ¬t.val % 8 = 0) (h1 : ¬t.val % 8 = 7) (x0 x1 : Vec F S1024x1024 .bf16) (xs0 : Vec F S1024x1024 .f32) :=
  kernelRun0_B (F := F) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) x0 x1 xs0
/-- The last step's. -/
abbrev runC0 (c : Dev nD) (t : Fin cfg0.N) (h0 : ¬t.val % 8 = 0) (h1 : t.val % 8 = 7) (x0 x1 : Vec F S1024x1024 .bf16) (xs0 : Vec F S1024x1024 .f32) :=
  kernelRun0_C (F := F) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) x0 x1 xs0

/-- The accumulator's pieces cover it, in each case. -/
theorem scoverA0 (c : Dev nD) (t : Fin cfg0.N) (h0 : t.val % 8 = 0) (x0 x1 : Vec F S1024x1024 .bf16) (y : S1024x1024.Idx) :
    ∃ pc ∈ (runA0 c t h0 x0 x1).2.1, y ∈ pc.1.set :=
  View.cover_of_tiledL (runA0 c t h0 x0 x1).2.1 S1024x1024.size (by sl_kernel_rfl) y
theorem scoverB0 (c : Dev nD) (t : Fin cfg0.N) (h0 : ¬t.val % 8 = 0) (h1 : ¬t.val % 8 = 7) (x0 x1 : Vec F S1024x1024 .bf16) (xs0 : Vec F S1024x1024 .f32) (y : S1024x1024.Idx) :
    ∃ pc ∈ (runB0 c t h0 h1 x0 x1 xs0).2.1, y ∈ pc.1.set :=
  View.cover_of_tiledL (runB0 c t h0 h1 x0 x1 xs0).2.1 S1024x1024.size (by sl_kernel_rfl) y
theorem scoverC0 (c : Dev nD) (t : Fin cfg0.N) (h0 : ¬t.val % 8 = 0) (h1 : t.val % 8 = 7) (x0 x1 : Vec F S1024x1024 .bf16) (xs0 : Vec F S1024x1024 .f32) (y : S1024x1024.Idx) :
    ∃ pc ∈ (runC0 c t h0 h1 x0 x1 xs0).2.1, y ∈ pc.1.set :=
  View.cover_of_tiledL (runC0 c t h0 h1 x0 x1 xs0).2.1 S1024x1024.size (by sl_kernel_rfl) y
/-- At the last step the output block's pieces cover it. -/
theorem coverC0 (c : Dev nD) (t : Fin cfg0.N) (h0 : ¬t.val % 8 = 0) (h1 : t.val % 8 = 7) (x0 x1 : Vec F S1024x1024 .bf16) (xs0 : Vec F S1024x1024 .f32) (y : S1024x1024.Idx) :
    ∃ pc ∈ (runC0 c t h0 h1 x0 x1 xs0).1, y ∈ pc.1.set :=
  View.cover_of_tiledL (runC0 c t h0 h1 x0 x1 xs0).1 S1024x1024.size (by sl_kernel_rfl) y

/-- What each case leaves in the accumulator: its pieces read back. -/
def accA0 (c : Dev nD) (t : Fin cfg0.N) (h0 : t.val % 8 = 0) (x0 x1 : Vec F S1024x1024 .bf16) : Vec F S1024x1024 .f32 :=
  VS0_0.read (Elt F) (VS0_0.writes (Elt F) VS0_0.junk (runA0 c t h0 x0 x1).2.1)
def accB0 (c : Dev nD) (t : Fin cfg0.N) (h0 : ¬t.val % 8 = 0) (h1 : ¬t.val % 8 = 7) (x0 x1 : Vec F S1024x1024 .bf16) (xs0 : Vec F S1024x1024 .f32) : Vec F S1024x1024 .f32 :=
  VS0_0.read (Elt F) (VS0_0.writes (Elt F) VS0_0.junk (runB0 c t h0 h1 x0 x1 xs0).2.1)
def accC0 (c : Dev nD) (t : Fin cfg0.N) (h0 : ¬t.val % 8 = 0) (h1 : t.val % 8 = 7) (x0 x1 : Vec F S1024x1024 .bf16) (xs0 : Vec F S1024x1024 .f32) : Vec F S1024x1024 .f32 :=
  VS0_0.read (Elt F) (VS0_0.writes (Elt F) VS0_0.junk (runC0 c t h0 h1 x0 x1 xs0).2.1)
/-- What the last step leaves in the output block. -/
def outC0 (c : Dev nD) (t : Fin cfg0.N) (h0 : ¬t.val % 8 = 0) (h1 : t.val % 8 = 7) (x0 x1 : Vec F S1024x1024 .bf16) (xs0 : Vec F S1024x1024 .f32) : Vec F S1024x1024 .f32 :=
  VO0_2.read (Elt F) (VO0_2.writes (Elt F) VO0_2.junk (runC0 c t h0 h1 x0 x1 xs0).1)
/-- At the other steps the output block is not stored into: a placeholder nothing consults. -/
def idleOut0 : Vec F S1024x1024 .f32 := VO0_2.read (Elt F) VO0_2.junk

/-! ## What the output block and the accumulator hold after each point -/

/-- One point's step: the pair (output block, accumulator) after point `t`, from the accumulator before it. -/
def step0 (c : Dev nD) (t : Fin cfg0.N) (prev : Vec F S1024x1024 .f32) : Vec F S1024x1024 .f32 × Vec F S1024x1024 .f32 :=
  if h0 : t.val % 8 = 0 then (idleOut0, accA0 c t h0 (iblk0 V c 0 t) (iblk0 V c 1 t))
  else if h1 : t.val % 8 = 7 then (outC0 c t h0 h1 (iblk0 V c 0 t) (iblk0 V c 1 t) prev, accC0 c t h0 h1 (iblk0 V c 0 t) (iblk0 V c 1 t) prev)
  else (idleOut0, accB0 c t h0 h1 (iblk0 V c 0 t) (iblk0 V c 1 t) prev)

/-- The accumulation over the grid points in order. -/
def outsAt0 (c : Dev nD) : (n : ℕ) → n < cfg0.N → Vec F S1024x1024 .f32 × Vec F S1024x1024 .f32
  | 0, hn => step0 V c ⟨0, hn⟩ idleOut0
  | n + 1, hn => step0 V c ⟨n + 1, hn⟩ (outsAt0 c n (Nat.lt_of_succ_lt hn)).2

theorem outsAt0_eq (c : Dev nD) (t : Fin cfg0.N) (hz : t.val ≠ 0) :
    outsAt0 V c t.val t.isLt = step0 V c t (outsAt0 V c (t.val - 1) (Nat.lt_of_le_of_lt (Nat.sub_le _ _) t.isLt)).2 := by
  obtain ⟨n, hn⟩ := t
  cases n with
  | zero => exact absurd rfl hz
  | succ n => rfl

theorem outsAt0_step (c : Dev nD) (t : Fin cfg0.N) : ∃ prev, outsAt0 V c t.val t.isLt = step0 V c t prev := by
  obtain ⟨n, hn⟩ := t
  cases n with
  | zero => exact ⟨_, rfl⟩
  | succ n => exact ⟨_, rfl⟩

theorem outsAt0_A (c : Dev nD) (t : Fin cfg0.N) (h0 : t.val % 8 = 0) :
    outsAt0 V c t.val t.isLt = (idleOut0, accA0 c t h0 (iblk0 V c 0 t) (iblk0 V c 1 t)) := by
  obtain ⟨prev, e⟩ := outsAt0_step V c t
  rw [e]; unfold step0; rw [dif_pos h0]

theorem outsAt0_B (c : Dev nD) (t : Fin cfg0.N) (h0 : ¬t.val % 8 = 0) (h1 : ¬t.val % 8 = 7) :
    outsAt0 V c t.val t.isLt = (idleOut0, accB0 c t h0 h1 (iblk0 V c 0 t) (iblk0 V c 1 t) (outsAt0 V c (t.val - 1) (Nat.lt_of_le_of_lt (Nat.sub_le _ _) t.isLt)).2) := by
  rw [outsAt0_eq V c t (fun e => h0 (by rw [e]))]
  unfold step0; rw [dif_neg h0, dif_neg h1]

theorem outsAt0_C (c : Dev nD) (t : Fin cfg0.N) (h0 : ¬t.val % 8 = 0) (h1 : t.val % 8 = 7) :
    outsAt0 V c t.val t.isLt = (outC0 c t h0 h1 (iblk0 V c 0 t) (iblk0 V c 1 t) (outsAt0 V c (t.val - 1) (Nat.lt_of_le_of_lt (Nat.sub_le _ _) t.isLt)).2, accC0 c t h0 h1 (iblk0 V c 0 t) (iblk0 V c 1 t) (outsAt0 V c (t.val - 1) (Nat.lt_of_le_of_lt (Nat.sub_le _ _) t.isLt)).2) := by
  rw [outsAt0_eq V c t (fun e => h0 (by rw [e]))]
  unfold step0; rw [dif_neg h0, dif_pos h1]

/-! ## The invariant -/

/-- The scoped buffers of the other region, each whole at some contents: they ride along untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The region invariant before position `n`: before the first point the accumulator at anything; afterwards at
    what the point before left in it; beside it the other region's scoped buffers and the generator register. -/
def Phi0 (c : Dev nD) : (n : ℕ) → n ≤ cfg0.N → sProp 𝕄
  | 0, _ => iprop((∃ d, owns (c : Thread nD τ) scM0_0 fullShare d) ∗ others0 (F := F) c ∗ (∃ r, prngReg c r))
  | n + 1, hn => iprop(owns (c : Thread nD τ) scM0_0 fullShare ((outsAt0 V c n hn).2) ∗ others0 (F := F) c ∗ (∃ r, prngReg c r))

theorem Phi0_zero (c : Dev nD) (n : ℕ) (h : n ≤ cfg0.N) (hz : n = 0) :
    Phi0 V c n h = iprop((∃ d, owns (c : Thread nD τ) scM0_0 fullShare d) ∗ others0 (F := F) c ∗ (∃ r, prngReg c r)) := by
  subst hz; rfl
theorem Phi0_succ (c : Dev nD) (n : ℕ) (hn : n < cfg0.N) :
    Phi0 V c (n + 1) hn = iprop(owns (c : Thread nD τ) scM0_0 fullShare ((outsAt0 V c n hn).2) ∗ others0 (F := F) c ∗ (∃ r, prngReg c r)) := rfl
theorem Phi0_pos (c : Dev nD) (n : ℕ) (h : n ≤ cfg0.N) (hz : n ≠ 0) :
    Phi0 V c n h = iprop(owns (c : Thread nD τ) scM0_0 fullShare ((outsAt0 V c (n - 1) (by omega)).2) ∗ others0 (F := F) c ∗ (∃ r, prngReg c r)) := by
  cases n with
  | zero => exact absurd rfl hz
  | succ n => rfl

/-! ## The proof data -/

/-- What the body leaves in window `w`'s staging buffer after point `t`: an input's block, the output's at `outsAt`. -/
def after0 (c : Dev nD) (w : Fin cfg0.W) (t : Fin cfg0.N) : (cfg0.win w).block.Idx → Elt F (cfg0.win w).elt :=
  match w with
  | ⟨0, _⟩ => iblk0 V c 0 t
  | ⟨1, _⟩ => iblk0 V c 1 t
  | ⟨2, _⟩ => (outsAt0 V c t.val t.isLt).1

def dat0 (c : Dev nD) : Dat τ (Elt F) Unit ℕ (UR sig nD τ) ℕ cfg0 c where
  A w := V c (Pipeline.arrRef spec0 w)
  after w t := after0 V c w t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0, after0]
theorem after0_1 (c : Dev nD) (t : Fin cfg0.N) : (dat0 V c).after 1 t = iblk0 V c 1 t := by dsimp only [dat0, after0]
theorem after0_2 (c : Dev nD) (t : Fin cfg0.N) : (dat0 V c).after 2 t = (outsAt0 V c t.val t.isLt).1 := by dsimp only [dat0, after0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the point's reduction step says which case it is
    in; the invariant hands the body the accumulator (at anything before the very first point, else at what the
    point before left) and takes it back at this point's contents; away from the last step the output block is
    handed back untouched, at the last step it holds the accumulator's copy. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 64 := lt_of_lt_of_eq t.isLt (show cfg0.N = 64 from N_0)
  by_cases h0 : t.val % 8 = 0
  · have h1 : ¬t.val % 8 = 7 := by omega
    rw [Dat.leavesExact_idle (dat0 V c) 2 t (idleAt0_2 t (fun h => h1 ((hcond0_1 t).mp h))) (noFlush0_2 t (fun h => h1 ((hcond0_1 t).mp h)))]
    rw [outsAt0_A V c t h0]
    unfold accA0; (try dsimp only)
    by_cases hz : t.val = 0
    · rw [Phi0_castSucc V c t, Phi0_zero V c _ _ hz]
      iintro ⟨⟨HS0, Hoth, Hg⟩, Ho, ⟨%d0, H0⟩, ⟨%d1, H1⟩, ⟨%d2, H2⟩⟩
      iapply ((runA0 c t h0 (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scoverA0 c t h0 _ _)
        isplitl [Hoth]; · iexact Hoth
        iexact Hg
      isplitl [Ho]; · iexact Ho
      isplitl [H0]; · iexact H0
      isplitl [H1]; · iexact H1
      iexists _; iexact H2
    · rw [Phi0_castSucc V c t, Phi0_pos V c _ _ hz]
      iintro ⟨⟨HS0, Hoth, Hg⟩, Ho, ⟨%d0, H0⟩, ⟨%d1, H1⟩, ⟨%d2, H2⟩⟩
      iapply ((runA0 c t h0 (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scoverA0 c t h0 _ _)
        isplitl [Hoth]; · iexact Hoth
        iexact Hg
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold outC0 accC0; (try dsimp only)
      rw [Phi0_castSucc V c t, Phi0_pos V c _ _ hz]
      iintro ⟨⟨HS0, Hoth, Hg⟩, Ho, ⟨%d0, H0⟩, ⟨%d1, H1⟩, ⟨%d2, H2⟩⟩
      iapply ((runC0 c t h0 h1 (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0]
        · unfold owns; iexists _; isplitr
          swap; · iexact HS0
          ipureintro; exact View.read_writes_of_cover _ _ _ _ _ (scoverC0 c t h0 h1 _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverC0 c t h0 h1 _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold accB0; (try dsimp only)
      rw [Phi0_castSucc V c t, Phi0_pos V c _ _ hz]
      iintro ⟨⟨HS0, Hoth, Hg⟩, Ho, ⟨%d0, H0⟩, ⟨%d1, H1⟩, ⟨%d2, H2⟩⟩
      iapply ((runB0 c t h0 h1 (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scoverB0 c t h0 h1 _ _ _)
        isplitl [Hoth]; · iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant's entry and exit -/

/-- What the launch hands the region — every scoped buffer no window stages at anything, and the generator register —
    is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  unfold Pipeline.ΦA others0; rw [scopedRest0_eq]; simp only [scM0_0, owns_whole]
  iintro ⟨⟨Hs, Hb0, Hb1, Hb2, Hb3, Hb4, Hb5, Hb6⟩, Hg⟩
  isplitl [Hs]; · iexact Hs
  isplitr [Hg]
  swap; · iexact Hg
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  iexact Hb6

/-- After the last point the invariant gives it back: the accumulator's named contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 64 := N_0; omega)]
  unfold Pipeline.ΦA others0; rw [scopedRest0_eq]; simp only [scM0_0, owns_whole]
  iintro ⟨Hs, ⟨Hb0, Hb1, Hb2, Hb3, Hb4, Hb5, Hb6⟩, Hg⟩
  isplitr [Hg]
  swap; · iexact Hg
  isplitl [Hs]; · iexists _; iexact Hs
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  iexact Hb6

end Cert.KernelIdeal.Hand

end
-- ==== Proof.KernelIdeal.Body1.lean ====
/-
  The body of the second blocked matrix product, run on any staging buffers: its two branch conditions as
  arithmetic on the grid point, where its windows are idle, and its three control cases — the first reduction
  step (the accumulator is cleared, then gains the first product), a middle step (it gains one more product) and
  the last step (it gains the last product and is copied to the output block).
-/
import proofs.«103546_j7430293422438_2_alg».proof.Proof.Gen.KernelIdeal.Launch
import proofs.«103546_j7430293422438_2_alg».proof.Proof.Gen.KernelIdeal.Skeleton
import proofs.«103546_j7430293422438_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, in closed form over the grid

The grid is 8 × 1 × 8 in row-major order: point `t` is row block `t / 8` at reduction step `t % 8`. The
accumulator is cleared at the first reduction step and copied to the output block at the last. -/

/-- The first `if` of the body: the reduction step is the first. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second `if` of the body: the reduction step is the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last reduction step the output block is not stored into, -/
theorem idleAt1_2 : ∀ t : Fin cfg1.N, ¬cond1_1 (grid1.coords t) → cfg1.idle 2 (grid1.coords t) = true := by decide +kernel
/-- nor written back; -/
theorem noFlush1_2 : ∀ t : Fin cfg1.N, ¬cond1_1 (grid1.coords t) → (cfg1.win 2).flush t = false := by decide +kernel
/-- at the last step it is stored into. -/
theorem liveAt1_2 : ∀ t : Fin cfg1.N, cond1_1 (grid1.coords t) → cfg1.idle 2 (grid1.coords t) = false := by decide +kernel

/-! ## The memrefs the body is called with -/

/-- One staging buffer of the output window, through which its contents are stated. -/
abbrev VO1_2 : View sig .tc .vmem S1024x1024 .f32 := (Memref.whole cc1_stg2_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S1024x1024 .f32 := Memref.whole cc1_scratch0
abbrev VS1_0 : View sig .tc .vmem S1024x1024 .f32 := scM1_0.view

/-! ## The body on any staging memrefs, case by case

Each run is a pair of piece lists (what the stores leave in the output block and in the accumulator, last store
first) with the proof that from the inputs' buffers at their blocks the body runs to a continuation holding
those pieces written. -/

set_option maxHeartbeats 1000000 in
/-- First reduction step (not the last): the accumulator, found at anything, is cleared and then holds the first
    product; the output block is handed back untouched. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .bf16) (x1 : Vec F S1024x1024 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- A middle reduction step: the accumulator, found at what the step before left, gains this step's product; the
    output block is handed back untouched. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- The last reduction step (not the first): the accumulator gains this step's product and is copied into the
    output block, found at anything. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.KernelIdeal.Region1.lean ====
/-
  Region 1 of the kernel program (the second blocked matrix product): the proof data of its pipeline on one core
  — the arrays as the region finds them, what the body leaves in each staging buffer after each grid point, and
  the invariant carrying the accumulator from one grid point to the next — with the body obligation at every
  grid point and the invariant's entry and exit.
-/
import proofs.«103546_j7430293422438_2_alg».proof.Proof.KernelIdeal.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The three cases at a grid point, and what each leaves -/

/-- The first reduction step's run at point `t`'s memrefs. -/
abbrev runA1 (c : Dev nD) (t : Fin cfg1.N) (h0 : t.val % 8 = 0) (x0 x1 : Vec F S1024x1024 .bf16) :=
  kernelRun1_A (F := F) c (grid1.coords t) (ms1_0 t) (hs1_0 t) (ms1_1 t) (hs1_1 t) (ms1_2 t) (hs1_2 t) scM1_0 (Memref.isWhole_whole _) ((hcond1_0 t).mpr h0) (fun h => by have := (hcond1_1 t).mp h; omega) x0 x1
/-- A middle step's. -/
abbrev runB1 (c : Dev nD) (t : Fin cfg1.N) (h0 : ¬t.val % 8 = 0) (h1 : ¬t.val % 8 = 7) (x0 x1 : Vec F S1024x1024 .bf16) (xs0 : Vec F S1024x1024 .f32) :=
  kernelRun1_B (F := F) c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) x0 x1 xs0
/-- The last step's. -/
abbrev runC1 (c : Dev nD) (t : Fin cfg1.N) (h0 : ¬t.val % 8 = 0) (h1 : t.val % 8 = 7) (x0 x1 : Vec F S1024x1024 .bf16) (xs0 : Vec F S1024x1024 .f32) :=
  kernelRun1_C (F := F) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) x0 x1 xs0

/-- The accumulator's pieces cover it, in each case. -/
theorem scoverA1 (c : Dev nD) (t : Fin cfg1.N) (h0 : t.val % 8 = 0) (x0 x1 : Vec F S1024x1024 .bf16) (y : S1024x1024.Idx) :
    ∃ pc ∈ (runA1 c t h0 x0 x1).2.1, y ∈ pc.1.set :=
  View.cover_of_tiledL (runA1 c t h0 x0 x1).2.1 S1024x1024.size (by sl_kernel_rfl) y
theorem scoverB1 (c : Dev nD) (t : Fin cfg1.N) (h0 : ¬t.val % 8 = 0) (h1 : ¬t.val % 8 = 7) (x0 x1 : Vec F S1024x1024 .bf16) (xs0 : Vec F S1024x1024 .f32) (y : S1024x1024.Idx) :
    ∃ pc ∈ (runB1 c t h0 h1 x0 x1 xs0).2.1, y ∈ pc.1.set :=
  View.cover_of_tiledL (runB1 c t h0 h1 x0 x1 xs0).2.1 S1024x1024.size (by sl_kernel_rfl) y
theorem scoverC1 (c : Dev nD) (t : Fin cfg1.N) (h0 : ¬t.val % 8 = 0) (h1 : t.val % 8 = 7) (x0 x1 : Vec F S1024x1024 .bf16) (xs0 : Vec F S1024x1024 .f32) (y : S1024x1024.Idx) :
    ∃ pc ∈ (runC1 c t h0 h1 x0 x1 xs0).2.1, y ∈ pc.1.set :=
  View.cover_of_tiledL (runC1 c t h0 h1 x0 x1 xs0).2.1 S1024x1024.size (by sl_kernel_rfl) y
/-- At the last step the output block's pieces cover it. -/
theorem coverC1 (c : Dev nD) (t : Fin cfg1.N) (h0 : ¬t.val % 8 = 0) (h1 : t.val % 8 = 7) (x0 x1 : Vec F S1024x1024 .bf16) (xs0 : Vec F S1024x1024 .f32) (y : S1024x1024.Idx) :
    ∃ pc ∈ (runC1 c t h0 h1 x0 x1 xs0).1, y ∈ pc.1.set :=
  View.cover_of_tiledL (runC1 c t h0 h1 x0 x1 xs0).1 S1024x1024.size (by sl_kernel_rfl) y

/-- What each case leaves in the accumulator: its pieces read back. -/
def accA1 (c : Dev nD) (t : Fin cfg1.N) (h0 : t.val % 8 = 0) (x0 x1 : Vec F S1024x1024 .bf16) : Vec F S1024x1024 .f32 :=
  VS1_0.read (Elt F) (VS1_0.writes (Elt F) VS1_0.junk (runA1 c t h0 x0 x1).2.1)
def accB1 (c : Dev nD) (t : Fin cfg1.N) (h0 : ¬t.val % 8 = 0) (h1 : ¬t.val % 8 = 7) (x0 x1 : Vec F S1024x1024 .bf16) (xs0 : Vec F S1024x1024 .f32) : Vec F S1024x1024 .f32 :=
  VS1_0.read (Elt F) (VS1_0.writes (Elt F) VS1_0.junk (runB1 c t h0 h1 x0 x1 xs0).2.1)
def accC1 (c : Dev nD) (t : Fin cfg1.N) (h0 : ¬t.val % 8 = 0) (h1 : t.val % 8 = 7) (x0 x1 : Vec F S1024x1024 .bf16) (xs0 : Vec F S1024x1024 .f32) : Vec F S1024x1024 .f32 :=
  VS1_0.read (Elt F) (VS1_0.writes (Elt F) VS1_0.junk (runC1 c t h0 h1 x0 x1 xs0).2.1)
/-- What the last step leaves in the output block. -/
def outC1 (c : Dev nD) (t : Fin cfg1.N) (h0 : ¬t.val % 8 = 0) (h1 : t.val % 8 = 7) (x0 x1 : Vec F S1024x1024 .bf16) (xs0 : Vec F S1024x1024 .f32) : Vec F S1024x1024 .f32 :=
  VO1_2.read (Elt F) (VO1_2.writes (Elt F) VO1_2.junk (runC1 c t h0 h1 x0 x1 xs0).1)
/-- At the other steps the output block is not stored into: a placeholder nothing consults. -/
def idleOut1 : Vec F S1024x1024 .f32 := VO1_2.read (Elt F) VO1_2.junk

/-! ## What the output block and the accumulator hold after each point -/

/-- One point's step: the pair (output block, accumulator) after point `t`, from the accumulator before it. -/
def step1 (c : Dev nD) (t : Fin cfg1.N) (prev : Vec F S1024x1024 .f32) : Vec F S1024x1024 .f32 × Vec F S1024x1024 .f32 :=
  if h0 : t.val % 8 = 0 then (idleOut1, accA1 c t h0 (iblk1 V c 0 t) (iblk1 V c 1 t))
  else if h1 : t.val % 8 = 7 then (outC1 c t h0 h1 (iblk1 V c 0 t) (iblk1 V c 1 t) prev, accC1 c t h0 h1 (iblk1 V c 0 t) (iblk1 V c 1 t) prev)
  else (idleOut1, accB1 c t h0 h1 (iblk1 V c 0 t) (iblk1 V c 1 t) prev)

/-- The accumulation over the grid points in order. -/
def outsAt1 (c : Dev nD) : (n : ℕ) → n < cfg1.N → Vec F S1024x1024 .f32 × Vec F S1024x1024 .f32
  | 0, hn => step1 V c ⟨0, hn⟩ idleOut1
  | n + 1, hn => step1 V c ⟨n + 1, hn⟩ (outsAt1 c n (Nat.lt_of_succ_lt hn)).2

theorem outsAt1_eq (c : Dev nD) (t : Fin cfg1.N) (hz : t.val ≠ 0) :
    outsAt1 V c t.val t.isLt = step1 V c t (outsAt1 V c (t.val - 1) (Nat.lt_of_le_of_lt (Nat.sub_le _ _) t.isLt)).2 := by
  obtain ⟨n, hn⟩ := t
  cases n with
  | zero => exact absurd rfl hz
  | succ n => rfl

theorem outsAt1_step (c : Dev nD) (t : Fin cfg1.N) : ∃ prev, outsAt1 V c t.val t.isLt = step1 V c t prev := by
  obtain ⟨n, hn⟩ := t
  cases n with
  | zero => exact ⟨_, rfl⟩
  | succ n => exact ⟨_, rfl⟩

theorem outsAt1_A (c : Dev nD) (t : Fin cfg1.N) (h0 : t.val % 8 = 0) :
    outsAt1 V c t.val t.isLt = (idleOut1, accA1 c t h0 (iblk1 V c 0 t) (iblk1 V c 1 t)) := by
  obtain ⟨prev, e⟩ := outsAt1_step V c t
  rw [e]; unfold step1; rw [dif_pos h0]

theorem outsAt1_B (c : Dev nD) (t : Fin cfg1.N) (h0 : ¬t.val % 8 = 0) (h1 : ¬t.val % 8 = 7) :
    outsAt1 V c t.val t.isLt = (idleOut1, accB1 c t h0 h1 (iblk1 V c 0 t) (iblk1 V c 1 t) (outsAt1 V c (t.val - 1) (Nat.lt_of_le_of_lt (Nat.sub_le _ _) t.isLt)).2) := by
  rw [outsAt1_eq V c t (fun e => h0 (by rw [e]))]
  unfold step1; rw [dif_neg h0, dif_neg h1]

theorem outsAt1_C (c : Dev nD) (t : Fin cfg1.N) (h0 : ¬t.val % 8 = 0) (h1 : t.val % 8 = 7) :
    outsAt1 V c t.val t.isLt = (outC1 c t h0 h1 (iblk1 V c 0 t) (iblk1 V c 1 t) (outsAt1 V c (t.val - 1) (Nat.lt_of_le_of_lt (Nat.sub_le _ _) t.isLt)).2, accC1 c t h0 h1 (iblk1 V c 0 t) (iblk1 V c 1 t) (outsAt1 V c (t.val - 1) (Nat.lt_of_le_of_lt (Nat.sub_le _ _) t.isLt)).2) := by
  rw [outsAt1_eq V c t (fun e => h0 (by rw [e]))]
  unfold step1; rw [dif_neg h0, dif_pos h1]

/-! ## The invariant -/

/-- The scoped buffers of the other region, each whole at some contents: they ride along untouched. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The region invariant before position `n`: before the first point the accumulator at anything; afterwards at
    what the point before left in it; beside it the other region's scoped buffers and the generator register. -/
def Phi1 (c : Dev nD) : (n : ℕ) → n ≤ cfg1.N → sProp 𝕄
  | 0, _ => iprop((∃ d, owns (c : Thread nD τ) scM1_0 fullShare d) ∗ others1 (F := F) c ∗ (∃ r, prngReg c r))
  | n + 1, hn => iprop(owns (c : Thread nD τ) scM1_0 fullShare ((outsAt1 V c n hn).2) ∗ others1 (F := F) c ∗ (∃ r, prngReg c r))

theorem Phi1_zero (c : Dev nD) (n : ℕ) (h : n ≤ cfg1.N) (hz : n = 0) :
    Phi1 V c n h = iprop((∃ d, owns (c : Thread nD τ) scM1_0 fullShare d) ∗ others1 (F := F) c ∗ (∃ r, prngReg c r)) := by
  subst hz; rfl
theorem Phi1_succ (c : Dev nD) (n : ℕ) (hn : n < cfg1.N) :
    Phi1 V c (n + 1) hn = iprop(owns (c : Thread nD τ) scM1_0 fullShare ((outsAt1 V c n hn).2) ∗ others1 (F := F) c ∗ (∃ r, prngReg c r)) := rfl
theorem Phi1_pos (c : Dev nD) (n : ℕ) (h : n ≤ cfg1.N) (hz : n ≠ 0) :
    Phi1 V c n h = iprop(owns (c : Thread nD τ) scM1_0 fullShare ((outsAt1 V c (n - 1) (by omega)).2) ∗ others1 (F := F) c ∗ (∃ r, prngReg c r)) := by
  cases n with
  | zero => exact absurd rfl hz
  | succ n => rfl

/-! ## The proof data -/

/-- What the body leaves in window `w`'s staging buffer after point `t`: an input's block, the output's at `outsAt`. -/
def after1 (c : Dev nD) (w : Fin cfg1.W) (t : Fin cfg1.N) : (cfg1.win w).block.Idx → Elt F (cfg1.win w).elt :=
  match w with
  | ⟨0, _⟩ => iblk1 V c 0 t
  | ⟨1, _⟩ => iblk1 V c 1 t
  | ⟨2, _⟩ => (outsAt1 V c t.val t.isLt).1

def dat1 (c : Dev nD) : Dat τ (Elt F) Unit ℕ (UR sig nD τ) ℕ cfg1 c where
  A w := V c (Pipeline.arrRef spec1 w)
  after w t := after1 V c w t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1, after1]
theorem after1_1 (c : Dev nD) (t : Fin cfg1.N) : (dat1 V c).after 1 t = iblk1 V c 1 t := by dsimp only [dat1, after1]
theorem after1_2 (c : Dev nD) (t : Fin cfg1.N) : (dat1 V c).after 2 t = (outsAt1 V c t.val t.isLt).1 := by dsimp only [dat1, after1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the point's reduction step says which case it is
    in; the invariant hands the body the accumulator (at anything before the very first point, else at what the
    point before left) and takes it back at this point's contents; away from the last step the output block is
    handed back untouched, at the last step it holds the accumulator's copy. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 64 := lt_of_lt_of_eq t.isLt (show cfg1.N = 64 from N_1)
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [outsAt1_A V c t h0]
    unfold accA1; (try dsimp only)
    by_cases hz : t.val = 0
    · rw [Phi1_castSucc V c t, Phi1_zero V c _ _ hz]
      iintro ⟨⟨HS0, Hoth, Hg⟩, Ho, ⟨%d0, H0⟩, ⟨%d1, H1⟩, ⟨%d2, H2⟩⟩
      iapply ((runA1 c t h0 (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scoverA1 c t h0 _ _)
        isplitl [Hoth]; · iexact Hoth
        iexact Hg
      isplitl [Ho]; · iexact Ho
      isplitl [H0]; · iexact H0
      isplitl [H1]; · iexact H1
      iexists _; iexact H2
    · rw [Phi1_castSucc V c t, Phi1_pos V c _ _ hz]
      iintro ⟨⟨HS0, Hoth, Hg⟩, Ho, ⟨%d0, H0⟩, ⟨%d1, H1⟩, ⟨%d2, H2⟩⟩
      iapply ((runA1 c t h0 (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scoverA1 c t h0 _ _)
        isplitl [Hoth]; · iexact Hoth
        iexact Hg
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold outC1 accC1; (try dsimp only)
      rw [Phi1_castSucc V c t, Phi1_pos V c _ _ hz]
      iintro ⟨⟨HS0, Hoth, Hg⟩, Ho, ⟨%d0, H0⟩, ⟨%d1, H1⟩, ⟨%d2, H2⟩⟩
      iapply ((runC1 c t h0 h1 (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0]
        · unfold owns; iexists _; isplitr
          swap; · iexact HS0
          ipureintro; exact View.read_writes_of_cover _ _ _ _ _ (scoverC1 c t h0 h1 _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverC1 c t h0 h1 _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold accB1; (try dsimp only)
      rw [Phi1_castSucc V c t, Phi1_pos V c _ _ hz]
      iintro ⟨⟨HS0, Hoth, Hg⟩, Ho, ⟨%d0, H0⟩, ⟨%d1, H1⟩, ⟨%d2, H2⟩⟩
      iapply ((runB1 c t h0 h1 (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scoverB1 c t h0 h1 _ _ _)
        isplitl [Hoth]; · iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's entry and exit -/

/-- What the launch hands the region — every scoped buffer no window stages at anything, and the generator register —
    is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  unfold Pipeline.ΦA others1; rw [scopedRest1_eq]; simp only [scM1_0, owns_whole]
  iintro ⟨⟨Hb0, Hb1, Hb2, Hb3, Hb4, Hb5, Hb6, Hs⟩, Hg⟩
  isplitl [Hs]; · iexact Hs
  isplitr [Hg]
  swap; · iexact Hg
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  iexact Hb6

/-- After the last point the invariant gives it back: the accumulator's named contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 64 := N_1; omega)]
  unfold Pipeline.ΦA others1; rw [scopedRest1_eq]; simp only [scM1_0, owns_whole]
  iintro ⟨Hs, ⟨Hb0, Hb1, Hb2, Hb3, Hb4, Hb5, Hb6⟩, Hg⟩
  isplitr [Hg]
  swap; · iexact Hg
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  iexists _; iexact Hs

end Cert.KernelIdeal.Hand

end
-- ==== Proof.KernelIdeal.Frame.lean ====
/-
  The run of the whole kernel program. Its main function is six segments in order: three stretches of host
  operations, the first blocked matrix product (region 0), one host conversion, the second blocked matrix product
  (region 1). Here are the contents of every unscoped buffer of a core at each boundary between segments — a fold
  from the launch memory: a host stretch rewrites the buffers its operations write, a region leaves its arrays at
  what its write-backs leave and every other buffer as entered —, each region as a segment over the thread state
  "every unscoped buffer whole at the boundary's contents, the generator register at some state, nothing owed",
  and the run itself: every weakly fair execution from a memory with zero counters terminates, and the final
  memory holds every unscoped buffer at the last boundary's contents. The argument arrays are read back through
  the fold to the launch memory, and the result buffers of the regions to what the pipelines leave.
-/
import proofs.«103546_j7430293422438_2_alg».proof.Proof.KernelIdeal.Region0
import proofs.«103546_j7430293422438_2_alg».proof.Proof.KernelIdeal.Region1
import proofs.«103546_j7430293422438_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The buffer contents at each segment boundary -/

/-- The launch memory, read on core `c`. -/
abbrev W0 (m : (ℓ : Loc nD τ sig) → Buf (Elt F) ℓ) (ρ : Dev nD → PrngReg) : Dev nD → Valuation τ sig (Elt F) :=
  fun c => Gen.V0 m c
/-- After the first host stretch. -/
abbrev W1 (m : (ℓ : Loc nD τ sig) → Buf (Elt F) ℓ) (ρ : Dev nD → PrngReg) : Dev nD → Valuation τ sig (Elt F) :=
  fun c => Gen.V1 m c
/-- After the second host stretch (the outlined selection). -/
abbrev W2 (m : (ℓ : Loc nD τ sig) → Buf (Elt F) ℓ) (ρ : Dev nD → PrngReg) : Dev nD → Valuation τ sig (Elt F) :=
  fun c => Gen.V2 m c
/-- After the third host stretch: region 0's entry. -/
abbrev W3 (m : (ℓ : Loc nD τ sig) → Buf (Elt F) ℓ) (ρ : Dev nD → PrngReg) : Dev nD → Valuation τ sig (Elt F) :=
  fun c => Gen.V3 m c

variable (m : (ℓ : Loc nD τ sig) → Buf (Elt F) ℓ) (ρ : Dev nD → PrngReg)

/-- `W3` indexed by the core's own references: the entry contents region 0's proof data are stated at. -/
abbrev V3 : (c : Dev nD) → (b : Ref sig .tc) → Buf (Elt F) ((c : Thread nD τ).loc b) := fun c b => W3 m ρ c b
/-- When region 0 returns: each of its three arrays holds the fold of the pipeline's write-backs over all grid points,
    and no other buffer has moved. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- `W4` indexed by the core's own references. -/
abbrev V4 : (c : Dev nD) → (b : Ref sig .tc) → Buf (Elt F) ((c : Thread nD τ).loc b) := fun c b => W4 m ρ c b
/-- `V4` agrees with the pipeline's final arrays on region 0's arrays (`hF0`) and with `V3` elsewhere (`hrest0`). -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the host conversion between the regions: region 1's entry. -/
abbrev W5 : Dev nD → Valuation τ sig (Elt F) := fun c => StableHlo.after hostOps1 (W4 m ρ c)
/-- `W5` indexed by the core's own references: the entry contents region 1's proof data are stated at. -/
abbrev V5 : (c : Dev nD) → (b : Ref sig .tc) → Buf (Elt F) ((c : Thread nD τ).loc b) := fun c b => W5 m ρ c b
/-- When region 1 returns: each of its three arrays holds the fold of the pipeline's write-backs over all grid points,
    and no other buffer has moved. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- `W6` indexed by the core's own references. -/
abbrev V6 : (c : Dev nD) → (b : Ref sig .tc) → Buf (Elt F) ((c : Thread nD τ).loc b) := fun c b => W6 m ρ c b
/-- `V6` agrees with the pipeline's final arrays on region 1's arrays (`hF1`) and with `V5` elsewhere (`hrest1`). -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- The conversion between the regions leaves every buffer but its result as it was. -/
theorem W5_of (c : Dev nD) (r : Ref sig .tc) (h : r ∉ hostOps1_W) :
    W5 m ρ c (Proc.devRef .tc r) = W4 m ρ c (Proc.devRef .tc r) :=
  StableHlo.after_of_writes_sub hostOps1 _ hostOps1_writes h

/-! ### The reads at the last boundary -/

/-- An argument array is written by no host operation and is no array of either region: the fold at its buffer
    walks back to the launch memory. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := Gen.V3_of m c main_arg0 (by decide)
    _ = W1 m ρ c (Proc.devRef .tc main_arg0) := Gen.V2_of m c main_arg0 (by decide)
    _ = W0 m ρ c (Proc.devRef .tc main_arg0) := Gen.V1_of m c main_arg0 (by decide)
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := Gen.V3_of m c main_arg1 (by decide)
    _ = W1 m ρ c (Proc.devRef .tc main_arg1) := Gen.V2_of m c main_arg1 (by decide)
    _ = W0 m ρ c (Proc.devRef .tc main_arg1) := Gen.V1_of m c main_arg1 (by decide)
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := Gen.V3_of m c main_arg2 (by decide)
    _ = W1 m ρ c (Proc.devRef .tc main_arg2) := Gen.V2_of m c main_arg2 (by decide)
    _ = W0 m ρ c (Proc.devRef .tc main_arg2) := Gen.V1_of m c main_arg2 (by decide)
    _ = m ((c : Thread nD τ).loc main_arg2) := rfl

/-- The program's result buffer ends at what region 1's pipeline leaves in its output array. -/
theorem W6_main_v39 (c : Dev nD) : W6 m ρ c (Proc.devRef .tc main_v39) = (dat1 (V5 m ρ) c).arrAt 2 cfg1.N :=
  W6_arr m ρ c 2
/-- Region 1's second operand is the conversion of region 0's result. -/
theorem W5_v38 (c : Dev nD) : W5 m ρ c (Proc.devRef .tc main_v38)
    = ((truncf .bf16 · bitsLt_bf16_f32) : (⟨S8192x1024, .f32⟩ : BufTy).Contents (Elt F) → (⟨S8192x1024, .bf16⟩ : BufTy).Contents (Elt F))
        (W4 m ρ c (Proc.devRef .tc main_v37)) := by
  show StableHlo.after hostOps1 (W4 m ρ c) (Proc.devRef .tc main_v38) = _
  after_results
/-- Region 0's result buffer is what its pipeline leaves in its output array. -/
theorem W4_v37 (c : Dev nD) : W4 m ρ c (Proc.devRef .tc main_v37) = (dat0 (V3 m ρ) c).arrAt 2 cfg0.N :=
  W4_arr m ρ c 2
/-- Region 1's first operand is as the host prefix left it: neither region 0 nor the conversion writes it. -/
theorem W5_v36 (c : Dev nD) : W5 m ρ c (Proc.devRef .tc main_v36) = Gen.V3 m c (Proc.devRef .tc main_v36) :=
  (W5_of m ρ c main_v36 (by decide)).trans (W4_of_ne m ρ c main_v36 (by decide))

/-! ## The proof data family and the thread state -/

/-- Neither matrix product prefetches a table, so the admissibility witness is the trivial one. -/
abbrev adm : (p : Fin 2) → (pcfgs (F := F) p).Adm := fun p => (cfgs p).toPCfg_adm
/-- The two pipelines' proof data: the first product's at `V3`, the second's at `V5`. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
/-- A single core exchanges nothing with another: the set of levelled pairs is empty. -/
abbrev L : GSem nD τ sig → Finset Unit := fun _ => ∅
abbrev lv : GSem nD τ sig → Unit → ℕ := fun _ _ => 0
/-- The part of the thread state no segment reads: the random-number register in whatever state, and a zero tally of
    debts. -/
abbrev R (c : Dev nD) : sProp 𝕄 := iprop((∃ r, prngReg c r) ∗ ∃ W, owes (c : Thread nD τ) (0 : CellTallies nD τ sig Unit) W)
/-- A stretch of host operations started with the unscoped buffers at `W`; it ends with them at the operations' fold
    over `W`, and `R` is untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Membership of a reference in the set of unscoped buffers, from its not being scoped. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The final thread state apart from the zero tally: the unscoped buffers at `W6` and the random-number register. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W3`, left at `W4`. Its arrays are split out
    of the unscoped buffers and put back at the exit contents; the generator register passes into the region's
    invariant and out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V3 m ρ) c)
    unfold Pipeline.ΦA
    iintro ⟨Hp, -, Hr⟩
    isplitl [Hr]; · iexact Hr
    iexact Hp
  hout c := by
    rw [Pipeline.ownSems0_none]
    refine BIBase.Entails.trans (hout0 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6` (what the launch reads
    at the end), in the same way as region 0. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V5 m ρ) c)
    unfold Pipeline.ΦA
    iintro ⟨Hp, -, Hr⟩
    isplitl [Hr]; · iexact Hr
    iexact Hp
  hout c := by
    rw [Pipeline.ownSems0_none]
    refine BIBase.Entails.trans (hout1 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The main function as segments, and the launch -/

/-- The main function's six segments in order: a host segment per stretch from its boundary's contents, a region per
    blocked matrix product. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]
/-- The main function is the run of the segments. -/
theorem main_run (c : Dev nD) : main (F := F) c = Pipeline.Seg.run (segs m ρ) := (main_chain c).trans (by chain_rfl)

set_option backward.isDefEq.respectTransparency.types false in
/-- THE RUN. From any memory with zero counters, every weakly fair execution of the main function on the TensorCores
    terminates, nothing faulting, and the final memory holds every unscoped buffer of every core at the last
    boundary's contents `W6`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: the run terminates and every argument array ends as launched, each read off the last boundary's
    contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩) (run_all m ρ)

end Cert.KernelIdeal.Hand

end
-- ==== Proof.MatG.lean ====
/-
  The value of a blocked matrix product of the kernel program: the plain product of an 8192 × 8192 matrix and an
  8192 × 1024 matrix over the extended reals, entry (i, l) being the sum over k of X (i, k) · Y (k, l) — and the
  product of three matrices C · (A · x) read at an entry as a double sum.
-/
import Idealize.ShloMosaic.Lib.ValueIdx
import Idealize.ShloMosaic.PureOps.Ideal
import proofs.«103546_j7430293422438_2_alg».proof.KernelIdeal

noncomputable section

open scoped BigOperators

namespace Cert.MatG

open Idealize.ShloMosaic Idealize.ShloMosaic.ValueIdx
open Cert.KernelIdeal

/-- The matrix product X · Y: at an index, the sum over the contracted coordinate of the products of X's row entry
    and Y's column entry. The index's two coordinates are re-read as numbers below 8192 and below 1024. -/
def matG (X : S8192x8192.Idx → EReal) (Y : S8192x1024.Idx → EReal) : S8192x1024.Idx → EReal :=
  fun idx => ∑ k : Fin 8192, X (ix2 (⟨(idx 0).val, (idx 0).isLt⟩ : Fin 8192) k) * Y (ix2 k (⟨(idx 1).val, (idx 1).isLt⟩ : Fin 1024))

/-- The product at the entry (i, l). -/
theorem matG_ix2 (X : S8192x8192.Idx → EReal) (Y : S8192x1024.Idx → EReal) (i : Fin 8192) (l : Fin 1024) :
    matG X Y (ix2 i l) = ∑ k : Fin 8192, X (ix2 i k) * Y (ix2 k l) := rfl

/-- The product at an entry given by two numbers and their bounds. -/
theorem matG_mk (X : S8192x8192.Idx → EReal) (Y : S8192x1024.Idx → EReal) (n q : ℕ) (hn : n < 8192) (hq : q < 1024) :
    matG X Y (ix2 (⟨n, hn⟩ : Fin 8192) (⟨q, hq⟩ : Fin 1024))
      = ∑ k : Fin 8192, X (ix2 (⟨n, hn⟩ : Fin 8192) k) * Y (ix2 k (⟨q, hq⟩ : Fin 1024)) := rfl

/-- The product at any index, its coordinates re-read as numbers with their bounds. -/
theorem matG_apply (X : S8192x8192.Idx → EReal) (Y : S8192x1024.Idx → EReal) (idx : S8192x1024.Idx) :
    matG X Y idx = ∑ k : Fin 8192, X (ix2 (⟨(idx 0).val, idx2_lt0 idx⟩ : Fin 8192) k) * Y (ix2 k (⟨(idx 1).val, idx2_lt1 idx⟩ : Fin 1024)) := rfl

/-- Two products are equal when their factors are. -/
theorem matG_congr {X X' : S8192x8192.Idx → EReal} {Y Y' : S8192x1024.Idx → EReal} (hX : X = X') (hY : Y = Y') :
    matG X Y = matG X' Y' := by subst hX hY; rfl

/-- C · (A · x) at the entry (i, l): the sum over j of C (i, j) times the sum over k of A (j, k) · x (k, l). -/
theorem matG_matG_ix2 (C A : S8192x8192.Idx → EReal) (x : S8192x1024.Idx → EReal) (i : Fin 8192) (l : Fin 1024) :
    matG C (matG A x) (ix2 i l) = ∑ j : Fin 8192, C (ix2 i j) * ∑ k : Fin 8192, A (ix2 j k) * x (ix2 k l) := rfl

end Cert.MatG

end
-- ==== Proof.LibMatChain.lean ====
/-
  Reassociating a chain of two matrix products over the extended reals.

  `EReal` is not a ring: multiplication does not distribute over addition when infinite
  values are present.  When every entry is a real number, all the sums and products below are
  images of real sums and products under the coercion `ℝ → EReal`, so distributivity and
  associativity of `ℝ` give `(c · a) · b = c · (a · b)` entry by entry.
-/
import Mathlib.Data.EReal.Inv
import Mathlib.Algebra.BigOperators.Ring.Finset

namespace Cert.Lib.MatChain

open scoped BigOperators

/-- The coercion `ℝ → EReal` commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real-valued extended reals is real-valued. -/
theorem exists_real_sum {ι : Type*} (s : Finset ι) (f : ι → EReal)
    (hf : ∀ i, ∃ r : ℝ, f i = (r : EReal)) : ∃ r : ℝ, ∑ i ∈ s, f i = (r : EReal) := by
  choose g hg using hf
  exact ⟨∑ i ∈ s, g i, by rw [coe_sum]; exact Finset.sum_congr rfl fun i _ => hg i⟩

/-- A product of two real-valued extended reals is real-valued. -/
theorem exists_real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- A sum of two real-valued extended reals is real-valued. -/
theorem exists_real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- Associativity of a chain of two matrix products, at one output entry: for a row `c`, a matrix `a`
    and a column `b` whose entries are all real,
    `Σ_k (Σ_j c j * a j k) * b k = Σ_j c j * Σ_k a j k * b k`. -/
theorem sum_sum_mul_assoc {ι κ : Type*} [Fintype ι] [Fintype κ]
    (c : ι → EReal) (a : ι → κ → EReal) (b : κ → EReal)
    (hc : ∀ j, ∃ r : ℝ, c j = (r : EReal)) (ha : ∀ j k, ∃ r : ℝ, a j k = (r : EReal))
    (hb : ∀ k, ∃ r : ℝ, b k = (r : EReal)) :
    ∑ k, (∑ j, c j * a j k) * b k = ∑ j, c j * ∑ k, a j k * b k := by
  choose c' hc' using hc
  choose a' ha' using ha
  choose b' hb' using hb
  have hL : ∑ k, (∑ j, c j * a j k) * b k = ((∑ k, (∑ j, c' j * a' j k) * b' k : ℝ) : EReal) := by
    rw [coe_sum]
    refine Finset.sum_congr rfl fun k _ => ?_
    rw [EReal.coe_mul, coe_sum, hb' k]
    congr 1
    refine Finset.sum_congr rfl fun j _ => ?_
    rw [EReal.coe_mul, hc' j, ha' j k]
  have hR : ∑ j, c j * ∑ k, a j k * b k = ((∑ j, c' j * ∑ k, a' j k * b' k : ℝ) : EReal) := by
    rw [coe_sum]
    refine Finset.sum_congr rfl fun j _ => ?_
    rw [EReal.coe_mul, coe_sum, hc' j]
    congr 1
    refine Finset.sum_congr rfl fun k _ => ?_
    rw [EReal.coe_mul, ha' j k, hb' k]
  rw [hL, hR]
  congr 1
  simp only [Finset.sum_mul, Finset.mul_sum]
  rw [Finset.sum_comm]
  refine Finset.sum_congr rfl fun j _ => Finset.sum_congr rfl fun k _ => ?_
  rw [mul_assoc]

end Cert.Lib.MatChain
-- ==== Proof.Chain.lean ====
/-
  The reference's last two operations are matrix products: `z = C · adjn` and `result = z · x`.
  Read at one output entry, `result i l = Σ_k (Σ_j C i j * adjn j k) * x k l`.  When every entry of
  `C`, `adjn` and `x` is a real number the chain reassociates to
  `Σ_j C i j * Σ_k adjn j k * x k l`, the order in which the kernel multiplies.
-/
import proofs.«103546_j7430293422438_2_alg».proof.Proof.Gen.ReferenceIdeal.Read
import proofs.«103546_j7430293422438_2_alg».proof.Proof.LibMatChain

noncomputable section

namespace Cert.Chain

open Cert.ReferenceIdeal Idealize.ShloMosaic Idealize.ShloMosaic.TcCoe Idealize.SL.Sem
open Idealize.ShloMosaic.ValueIdx (ix2)
open scoped BigOperators

/-- The left operand's index of the second product, at output `(i, l)` and contraction position `k`, is `(i, k)`. -/
theorem lidx24 (i : Fin 8192) (l : Fin 1024) (k : Fin 8192) :
    Read.lidx_main_v24 (ix2 i l) k = ix2 i k :=
  funext fun a => Fin.ext (by match a with | ⟨0, _⟩ => rfl | ⟨1, _⟩ => rfl)

/-- The right operand's index of the second product, at output `(i, l)` and contraction position `k`, is `(k, l)`. -/
theorem ridx24 (i : Fin 8192) (l : Fin 1024) (k : Fin 8192) :
    Read.ridx_main_v24 (ix2 i l) k = ix2 k l :=
  funext fun a => Fin.ext (by match a with | ⟨0, _⟩ => rfl | ⟨1, _⟩ => rfl)

/-- The left operand's index of the first product, at output `(i, k)` and contraction position `j`, is `(i, j)`. -/
theorem lidx23 (i k j : Fin 8192) :
    Read.lidx_main_v23 (ix2 i k) j = ix2 i j :=
  funext fun a => Fin.ext (by match a with | ⟨0, _⟩ => rfl | ⟨1, _⟩ => rfl)

/-- The right operand's index of the first product, at output `(i, k)` and contraction position `j`, is `(j, k)`. -/
theorem ridx23 (i k j : Fin 8192) :
    Read.ridx_main_v23 (ix2 i k) j = ix2 j k :=
  funext fun a => Fin.ext (by match a with | ⟨0, _⟩ => rfl | ⟨1, _⟩ => rfl)

/-- The reference's result at `(i, l)` is `Σ_j C i j * Σ_k M j k * x k l`, where `M` is the normalized
    adjacency the reference computes, as soon as `x`, `C` and `M` have real entries. -/
theorem ref_eq_chain (x0 : (⟨S8192x1024, .f32⟩ : BufTy).Contents (Elt Ideal))
    (x1 x2 : (⟨S8192x8192, .f32⟩ : BufTy).Contents (Elt Ideal))
    (M : S8192x8192.Idx → EReal) (hM : Cert.ReferenceIdeal.Read.val_main_v22 (F := Ideal) x2 = M)
    (h0 : ∀ i, ∃ r : ℝ, x0 i = (r : EReal)) (h1 : ∀ i, ∃ r : ℝ, x1 i = (r : EReal))
    (hMr : ∀ i, ∃ r : ℝ, M i = (r : EReal))
    (i : Fin 8192) (l : Fin 1024) :
    Cert.ReferenceIdeal.Read.val_main_v24 (F := Ideal) x0 x1 x2 (ix2 i l)
      = ∑ j : Fin 8192, x1 (ix2 i j) * ∑ k : Fin 8192, M (ix2 j k) * x0 (ix2 k l) := by
  rw [Read.val_main_v24_apply]
  simp only [Read.val_main_v23_apply, hM, lidx24, ridx24, lidx23, ridx23]
  exact Cert.Lib.MatChain.sum_sum_mul_assoc (fun j => x1 (ix2 i j)) (fun j k => M (ix2 j k))
    (fun k => x0 (ix2 k l)) (fun j => h1 _) (fun j k => hMr _) (fun k => h0 _)

end Cert.Chain
-- ==== Proof.Finite.lean ====
/-
  The precondition `finite_inputs` says, for each of the three argument arrays, that every entry `x`
  satisfies `|x| < +∞` (an `and`-reduction over all indices of the comparison `|x| < +∞`, the three
  results joined by `and`).  Over the extended reals `|x| = max x (-x)`, and `max x (-x) < ⊤` excludes
  both `x = ⊤` and `x = ⊥`: every entry is then a real number.
-/
import proofs.«103546_j7430293422438_2_alg».proof.Defs
import Idealize.ShloMosaic.Lib.ReduceAll

noncomputable section

namespace Cert.Finite

open Idealize.ShloMosaic Idealize.ShloMosaic.TcCoe Idealize.SL.Sem

/-- The shape with no axes has exactly one index. -/
instance : Subsingleton Cert.Pre_finite_inputs.S_.Idx := ⟨fun a b => funext fun d => d.elim0⟩

/-- The one-bit word of a Boolean is 1 exactly when the Boolean is true. -/
theorem ofBool_eq_one (b : Bool) : BitVec.ofBool b = 1#1 ↔ b = true := by cases b <;> decide

/-- An extended real whose absolute value compares below the f32 pattern of `+∞` is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  rw [ofBool_eq_one, decide_eq_true_eq] at h
  induction x using EReal.rec with
  | bot => exact absurd h (not_lt.2 (by rw [EReal.neg_bot]; exact le_max_right _ _))
  | coe r => exact ⟨r, rfl⟩
  | top => exact absurd h (not_lt.2 (le_max_left _ _))

/-- Under `finite_inputs` every entry of every argument array is a real number. -/
theorem real_of_pre [Cert.Pre_finite_inputs.Facts]
    (a0 : (⟨Cert.Pre_finite_inputs.S8192x1024, .f32⟩ : BufTy).Contents (Elt Ideal))
    (a1 a2 : (⟨Cert.Pre_finite_inputs.S8192x8192, .f32⟩ : BufTy).Contents (Elt Ideal))
    (h : Cert.Pre_finite_inputs.fn (F := Ideal) a0 a1 a2 = (fun _ => 1#1)) :
    (∀ i, ∃ r : ℝ, a0 i = (r : EReal)) ∧ (∀ i, ∃ r : ℝ, a1 i = (r : EReal))
      ∧ (∀ i, ∃ r : ℝ, a2 i = (r : EReal)) := by
  have e := congrFun h (fun a => a.elim0)
  dsimp only [Cert.Pre_finite_inputs.fn, andi] at e
  rw [IntOp.andi_eq_one, IntOp.andi_eq_one] at e
  obtain ⟨⟨e0, e1⟩, e2⟩ := e
  refine ⟨fun i => ?_, fun i => ?_, fun i => ?_⟩
  · exact real_of_abs_lt_inf (a0 i) (Host.reduce_andi_all _ _ _ _ _ e0 i)
  · exact real_of_abs_lt_inf (a1 i) (Host.reduce_andi_all _ _ _ _ _ e1 i)
  · exact real_of_abs_lt_inf (a2 i) (Host.reduce_andi_all _ _ _ _ _ e2 i)

end Cert.Finite
-- ==== Proof.AdjacencyKernel.lean ====
/-
  The kernel's host prefix, read as values: the symmetrised matrix, its row sums plus one, the inverse square
  roots of the positive ones, the doubly scaled matrix, and the diagonal scatter-add that adds the square of
  each scale on the diagonal — as functions of the matrix argument — and what the unscoped buffers the first
  region reads hold after the three host stretches.
-/
import proofs.«103546_j7430293422438_2_alg».proof.Proof.Gen.KernelIdeal.Regions
import Idealize.ShloMosaic.Lib.Pipeline.Value
import Idealize.ShloMosaic.Lib.ValueIdx
import Idealize.ShloMosaic.PureOps.Ideal.Laws

noncomputable section

namespace Cert.Adjacency

open Idealize.ShloMosaic Idealize.ShloMosaic.TcCoe Idealize.SL.Sem Idealize.ShloMosaic.StableHlo
open Cert.KernelIdeal Cert.KernelIdeal.Gen

/-! ## The values of the host prefix -/

/-- S = (A + Aᵀ) · ½. -/
def symK (A : (⟨S8192x8192, .f32⟩ : BufTy).Contents (Elt Ideal)) : (⟨S8192x8192, .f32⟩ : BufTy).Contents (Elt Ideal) :=
  mulf (addf A (transpose S8192x8192 [1, 0] A transposes_S8192x8192_S8192x8192_1_0))
    (broadcastInDim S8192x8192 ![] bcast_S_S8192x8192 (constant (F := Ideal) S_ .f32 0x3F000000#32))

/-- deg = (0 + Σⱼ S) + 1. -/
def degK (A : (⟨S8192x8192, .f32⟩ : BufTy).Contents (Elt Ideal)) : (⟨S8192, .f32⟩ : BufTy).Contents (Elt Ideal) :=
  addf (Host.reduceAdd (symK A) (constant (F := Ideal) S_ .f32 0x00000000#32) reducesTo_S8192x8192_S8192_d1 h_S_)
    (broadcastInDim S8192 ![] bcast_S_S8192 (constant (F := Ideal) S_ .f32 0x3F800000#32))

/-- The mask deg > 0. -/
def posK (A : (⟨S8192x8192, .f32⟩ : BufTy).Contents (Elt Ideal)) : (⟨S8192, .i1⟩ : BufTy).Contents (Elt Ideal) :=
  cmpf .ogt (degK A) (broadcastInDim S8192 ![] bcast_S_S8192 (constant (F := Ideal) S_ .f32 0x00000000#32))

/-- deg ^ (−½). -/
def powK (A : (⟨S8192x8192, .f32⟩ : BufTy).Contents (Elt Ideal)) : (⟨S8192, .f32⟩ : BufTy).Contents (Elt Ideal) :=
  Host.powf (degK A) (broadcastInDim S8192 ![] bcast_S_S8192 (constant (F := Ideal) S_ .f32 0xBF000000#32))

/-- The scale of a row from the mask, the power and the scalar zero. -/
def dinvOf (c : (⟨S8192, .i1⟩ : BufTy).Contents (Elt Ideal)) (p : (⟨S8192, .f32⟩ : BufTy).Contents (Elt Ideal))
    (z : (⟨S_, .f32⟩ : BufTy).Contents (Elt Ideal)) : (⟨S8192, .f32⟩ : BufTy).Contents (Elt Ideal) :=
  select c p (broadcastInDim S8192 ![] bcast_S_S8192 (id z))

/-- dinv = deg > 0 ? deg ^ (−½) : 0. -/
def dinvK (A : (⟨S8192x8192, .f32⟩ : BufTy).Contents (Elt Ideal)) : (⟨S8192, .f32⟩ : BufTy).Contents (Elt Ideal) :=
  dinvOf (posK A) (powK A) (constant (F := Ideal) S_ .f32 0x00000000#32)

/-- The row numbers as words, after the normalisation of negative ones. -/
def rowK : (⟨S8192, .i32⟩ : BufTy).Contents (Elt Ideal) :=
  select (cmpi .slt (iotaInDim S8192 32 0) (broadcastInDim S8192 ![] bcast_S_S8192 (constantI S_ 32 0#32)))
    (addi (iotaInDim S8192 32 0) (broadcastInDim S8192 ![] bcast_S_S8192 (constantI S_ 32 8192#32)))
    (iotaInDim S8192 32 0)

/-- The scatter indices: row r holds (r, r). -/
def idxK : (⟨S8192x2, .i32⟩ : BufTy).Contents (Elt Ideal) :=
  concatenate S8192x2 1 [⟨S8192x1, broadcastInDim S8192x1 ![0] bcast_S8192_S8192x1_0 rowK⟩,
    ⟨S8192x1, broadcastInDim S8192x1 ![0] bcast_S8192_S8192x1_0 rowK⟩] concatenates_S8192x1_S8192x1_S8192x2_d1

/-- (dᵢ · Sᵢⱼ) · dⱼ. -/
def baseOf (d : (⟨S8192, .f32⟩ : BufTy).Contents (Elt Ideal)) (S : (⟨S8192x8192, .f32⟩ : BufTy).Contents (Elt Ideal)) :
    (⟨S8192x8192, .f32⟩ : BufTy).Contents (Elt Ideal) :=
  mulf (F := Ideal) (φ := .f32)
    (mulf (F := Ideal) (φ := .f32)
      (broadcastInDim S8192x8192 ![0, 1] bcast_S8192x1_S8192x8192_0_1 (broadcastInDim S8192x1 ![0] bcast_S8192_S8192x1_0 d)) S)
    (broadcastInDim S8192x8192 ![0, 1] bcast_S1x8192_S8192x8192_0_1 (broadcastInDim S1x8192 ![1] bcast_S8192_S1x8192_1 d))

/-- The scaled matrix with d · d added on the diagonal. -/
def adjOf (d : (⟨S8192, .f32⟩ : BufTy).Contents (Elt Ideal)) (S : (⟨S8192x8192, .f32⟩ : BufTy).Contents (Elt Ideal)) :
    (⟨S8192x8192, .f32⟩ : BufTy).Contents (Elt Ideal) :=
  Host.scatterAdd (F := Ideal) (φ := .f32) scatter_S8192x8192_S8192x2_S8192_n_01_01_1 (baseOf d S) idxK
    (mulf (F := Ideal) (φ := .f32) d d)

/-- The kernel's normalised adjacency matrix, as a function of the matrix argument. -/
def adjK (A : (⟨S8192x8192, .f32⟩ : BufTy).Contents (Elt Ideal)) : (⟨S8192x8192, .f32⟩ : BufTy).Contents (Elt Ideal) :=
  adjOf (dinvK A) (symK A)

/-! ## The three host stretches over any contents before them -/

section Stages
variable (W : Valuation τ sig (Elt Ideal))

theorem after0_v3 :
    (StableHlo.after (Gen.hostOps0 (F := Ideal)) W (Proc.devRef .tc main_v3) : (⟨S8192x8192, .f32⟩ : BufTy).Contents (Elt Ideal))
      = symK (W (Proc.devRef .tc main_arg2)) := by
  simp only [Gen.hostOps0]
  after_results_simp
  rfl

theorem after0_v8 :
    (StableHlo.after (Gen.hostOps0 (F := Ideal)) W (Proc.devRef .tc main_v8) : (⟨S8192, .i1⟩ : BufTy).Contents (Elt Ideal))
      = posK (W (Proc.devRef .tc main_arg2)) := by
  simp only [Gen.hostOps0]
  after_results_simp
  rfl

theorem after0_v10 :
    (StableHlo.after (Gen.hostOps0 (F := Ideal)) W (Proc.devRef .tc main_v10) : (⟨S8192, .f32⟩ : BufTy).Contents (Elt Ideal))
      = powK (W (Proc.devRef .tc main_arg2)) := by
  simp only [Gen.hostOps0]
  after_results_simp
  rfl

theorem after0_cst_4 :
    (StableHlo.after (Gen.hostOps0 (F := Ideal)) W (Proc.devRef .tc main_cst_4) : (⟨S_, .f32⟩ : BufTy).Contents (Elt Ideal))
      = constant (F := Ideal) S_ .f32 0x00000000#32 := by
  simp only [Gen.hostOps0]
  after_results_simp

theorem after1_v11 :
    (StableHlo.after (Gen.hostOps0_1 (F := Ideal)) W (Proc.devRef .tc main_v11) : (⟨S8192, .f32⟩ : BufTy).Contents (Elt Ideal))
      = dinvOf (W (Proc.devRef .tc main_v8)) (W (Proc.devRef .tc main_v10)) (W (Proc.devRef .tc main_cst_4)) := by
  simp only [Gen.hostOps0_1]
  after_results_simp
  rfl

theorem after2_v34 :
    (StableHlo.after (Gen.hostOps0_2 (F := Ideal)) W (Proc.devRef .tc main_v34) : (⟨S8192x8192, .bf16⟩ : BufTy).Contents (Elt Ideal))
      = truncf (F := Ideal) (φ := .f32) .bf16 (adjOf (W (Proc.devRef .tc main_v11)) (W (Proc.devRef .tc main_v3))) bitsLt_bf16_f32 := by
  simp only [Gen.hostOps0_2]
  after_results_simp
  rfl

theorem after2_v35 :
    (StableHlo.after (Gen.hostOps0_2 (F := Ideal)) W (Proc.devRef .tc main_v35) : (⟨S8192x1024, .bf16⟩ : BufTy).Contents (Elt Ideal))
      = truncf (F := Ideal) (s := S8192x1024) (φ := .f32) .bf16 (W (Proc.devRef .tc main_arg0)) bitsLt_bf16_f32 := by
  simp only [Gen.hostOps0_2]
  after_results_simp

theorem after2_v36 :
    (StableHlo.after (Gen.hostOps0_2 (F := Ideal)) W (Proc.devRef .tc main_v36) : (⟨S8192x8192, .bf16⟩ : BufTy).Contents (Elt Ideal))
      = truncf (F := Ideal) (s := S8192x8192) (φ := .f32) .bf16 (W (Proc.devRef .tc main_arg1)) bitsLt_bf16_f32 := by
  simp only [Gen.hostOps0_2]
  after_results_simp

end Stages

/-- At the ideal values a conversion to a narrower format changes nothing. -/
theorem truncf_ideal {s : Shape} {φ ψ : FTy} (h : ψ.bits < φ.bits) (x : FVec Ideal s φ) :
    (truncf (F := Ideal) ψ x h : s.Idx → EReal) = x := rfl

theorem dinvOf_congr {c c' : (⟨S8192, .i1⟩ : BufTy).Contents (Elt Ideal)} {p p' : (⟨S8192, .f32⟩ : BufTy).Contents (Elt Ideal)}
    {z z' : (⟨S_, .f32⟩ : BufTy).Contents (Elt Ideal)} (hc : c = c') (hp : p = p') (hz : z = z') :
    dinvOf c p z = dinvOf c' p' z' := by subst hc hp hz; rfl

/-! ## What the first region's operands hold -/

section Operands
variable (m : (ℓ : Loc nD τ sig) → Buf (Elt Ideal) ℓ)

/-- After the first two stretches the symmetrised matrix is in place. -/
theorem V2_v3 (c : Dev nD) :
    (Gen.V2 (F := Ideal) m c main_v3 : (⟨S8192x8192, .f32⟩ : BufTy).Contents (Elt Ideal))
      = symK (m ((c : Thread nD τ).loc main_arg2)) :=
  (Gen.V2_of m c main_v3 (by decide)).trans (after0_v3 (Gen.V0 m c))

/-- After the first two stretches the row scales are in place. -/
theorem V2_v11 (c : Dev nD) :
    (Gen.V2 (F := Ideal) m c main_v11 : (⟨S8192, .f32⟩ : BufTy).Contents (Elt Ideal))
      = dinvK (m ((c : Thread nD τ).loc main_arg2)) :=
  (after1_v11 (Gen.V1 m c)).trans
    (dinvOf_congr (after0_v8 (Gen.V0 m c)) (after0_v10 (Gen.V0 m c)) (after0_cst_4 (Gen.V0 m c)))

/-- The first region's left operand is the kernel's adjacency matrix. -/
theorem V3_v34 (c : Dev nD) :
    (Gen.V3 (F := Ideal) m c main_v34 : S8192x8192.Idx → EReal) = adjK (m ((c : Thread nD τ).loc main_arg2)) := by
  refine (after2_v34 (Gen.V2 m c)).trans ?_
  show adjOf (Gen.V2 m c main_v11) (Gen.V2 m c main_v3) = adjOf _ _
  rw [V2_v11, V2_v3]

/-- The first region's right operand is the feature matrix as launched. -/
theorem V3_v35 (c : Dev nD) :
    (Gen.V3 (F := Ideal) m c main_v35 : S8192x1024.Idx → EReal) = m ((c : Thread nD τ).loc main_arg0) := by
  refine (after2_v35 (Gen.V2 m c)).trans ?_
  show (Gen.V2 m c main_arg0 : S8192x1024.Idx → EReal) = _
  exact (Gen.V2_of m c main_arg0 (by decide)).trans ((Gen.V1_of m c main_arg0 (by decide)).trans rfl)

/-- The second region's left operand is the matrix C as launched. -/
theorem V3_v36 (c : Dev nD) :
    (Gen.V3 (F := Ideal) m c main_v36 : S8192x8192.Idx → EReal) = m ((c : Thread nD τ).loc main_arg1) := by
  refine (after2_v36 (Gen.V2 m c)).trans ?_
  show (Gen.V2 m c main_arg1 : S8192x8192.Idx → EReal) = _
  exact (Gen.V2_of m c main_arg1 (by decide)).trans ((Gen.V1_of m c main_arg1 (by decide)).trans rfl)

end Operands

end Cert.Adjacency

end
-- ==== Proof.AdjacencyScatter.lean ====
/-
  The diagonal scatter-add read at an index. The scatter indices hold (r, r) in row r — the row numbers as
  words, their normalisation of negative words changing nothing since none is negative — so update r lands on
  the diagonal element (r, r) and nowhere else: the result at (p, q) is the operand's element, plus update p
  when p = q. Also the doubly scaled matrix read at an index.
-/
import proofs.«103546_j7430293422438_2_alg».proof.Proof.AdjacencyKernel
import Idealize.ShloMosaic.Lib.IdealHost

noncomputable section

open scoped BigOperators

namespace Cert.Adjacency

open Idealize.ShloMosaic Idealize.ShloMosaic.ValueIdx Idealize.ShloMosaic.StableHlo
open Cert.KernelIdeal Cert.KernelIdeal.Gen

/-! ## Words of small naturals -/

/-- A natural below 8192, as a 32-bit word read signed, is itself. -/
theorem toInt_ofNat_small (n : Nat) (h : n < 8192) : (BitVec.ofNat 32 n).toInt = (n : ℤ) := by
  have h1 : (BitVec.ofNat 32 n).toNat = n := by rw [BitVec.toNat_ofNat]; exact Nat.mod_eq_of_lt (by omega)
  rw [BitVec.toInt_eq_toNat_cond, h1, if_pos (by omega)]

/-- A natural below 8192 is not a negative word. -/
theorem slt_zero_ofNat_small (n : Nat) (h : n < 8192) : IntOp.cmpi .slt (BitVec.ofNat 32 n) (0#32) = 0#1 := by
  show BitVec.ofBool ((BitVec.ofNat 32 n).slt 0#32) = 0#1
  have e : (BitVec.ofNat 32 n).slt 0#32 = false := by
    rw [BitVec.slt, toInt_ofNat_small n h]
    simp
  rw [e]; rfl

/-! ## The scatter indices -/

/-- The normalised row numbers are the row numbers. -/
theorem rowK_apply (r : S8192.Idx) : rowK r = BitVec.ofNat 32 (r 0).val := by
  show Scalar.select (IntOp.cmpi .slt (BitVec.ofNat 32 (r 0).val)
      (broadcastInDim S8192 ![] bcast_S_S8192 (constantI S_ 32 0#32) r)) _ (BitVec.ofNat 32 (r 0).val) = _
  rw [broadcastInDim_scalar_apply]
  show Scalar.select (IntOp.cmpi .slt (BitVec.ofNat 32 (r 0).val) 0#32) _ _ = _
  rw [slt_zero_ofNat_small _ (r 0).isLt, select_zero]

/-- Row r of the scatter indices is (r, r). -/
theorem idxK_apply (r : Fin 8192) (c : Fin 2) : idxK (ix2 r c) = BitVec.ofNat 32 r.val := by
  have hb : ∀ i : S8192x1.Idx, (i 0).val = r.val →
      broadcastInDim S8192x1 ![0] bcast_S8192_S8192x1_0 rowK i = BitVec.ofNat 32 r.val := by
    intro i hi
    rw [broadcastInDim_apply _ bcast_S8192_S8192x1_0 rowK i (ix1 r) (fun a => match a with
      | ⟨0, _⟩ => by show r.val = if (8192 : Nat) = 1 then 0 else (i 0).val; rw [if_neg (by decide)]; exact hi.symm)]
    rw [rowK_apply]
  unfold idxK
  match c with
  | ⟨0, _⟩ =>
    rw [concatenate_pair_apply_left (1 : Fin S8192x2.rank) _ _ concatenates_S8192x1_S8192x1_S8192x2_d1 _ rfl
      (ix2 r (0 : Fin 1)) (fun b => match b with
        | ⟨0, _⟩ => rfl
        | ⟨1, _⟩ => rfl)]
    exact hb _ rfl
  | ⟨1, _⟩ =>
    rw [concatenate_pair_apply_right (1 : Fin S8192x2.rank) _ _ concatenates_S8192x1_S8192x1_S8192x2_d1 _ rfl rfl
      (ix2 r (0 : Fin 1)) (fun b hb' => match b, hb' with
        | ⟨0, _⟩, _ => rfl
        | ⟨1, _⟩, h => absurd rfl h) rfl]
    exact hb _ rfl

/-! ## The dimension numbers: both operand axes inserted, both named by the index vector -/

section Diag
variable {w : Nat} (j : S8192.Idx) (idx : IVec S8192x2 w)

/-- The scatter's dimension numbers. -/
abbrev dg : ScatterDims S8192x8192 S8192x2 S8192 := scatter_S8192x8192_S8192x2_S8192_n_01_01_1

theorem diag_start0 : dg.start j idx 0 = (idx (ix2 (j 0) (0 : Fin 2))).toInt := by
  unfold ScatterDims.start
  rw [dif_pos (show (0 : Fin 2) ∈ dg.scatterDimsToOperandDims from (by decide : (0 : Fin 2) ∈ ([0, 1] : List (Fin 2))))]
  have hsi : dg.siIdx j ⟨List.idxOf (0 : Fin 2) dg.scatterDimsToOperandDims,
      List.idxOf_lt_length_iff.2 (by decide : (0 : Fin 2) ∈ ([0, 1] : List (Fin 2)))⟩ = ix2 (j 0) (0 : Fin 2) := by
    funext b; refine Fin.ext ?_
    match b with
    | ⟨0, _⟩ => rfl
    | ⟨1, _⟩ => rfl
  exact congrArg (fun t => (idx t).toInt) hsi

theorem diag_start1 : dg.start j idx 1 = (idx (ix2 (j 0) (1 : Fin 2))).toInt := by
  unfold ScatterDims.start
  rw [dif_pos (show (1 : Fin 2) ∈ dg.scatterDimsToOperandDims from (by decide : (1 : Fin 2) ∈ ([0, 1] : List (Fin 2))))]
  have hsi : dg.siIdx j ⟨List.idxOf (1 : Fin 2) dg.scatterDimsToOperandDims,
      List.idxOf_lt_length_iff.2 (by decide : (1 : Fin 2) ∈ ([0, 1] : List (Fin 2)))⟩ = ix2 (j 0) (1 : Fin 2) := by
    funext b; refine Fin.ext ?_
    match b with
    | ⟨0, _⟩ => rfl
    | ⟨1, _⟩ => rfl
  exact congrArg (fun t => (idx t).toInt) hsi

theorem diag_window0 : dg.window j 0 = 0 := by
  unfold ScatterDims.window
  rw [dif_neg (show ¬ (0 : Fin 2) ∈ dg.sKept from (by decide : ¬ (0 : Fin 2) ∈ ([] : List (Fin 2))))]

theorem diag_window1 : dg.window j 1 = 0 := by
  unfold ScatterDims.window
  rw [dif_neg (show ¬ (1 : Fin 2) ∈ dg.sKept from (by decide : ¬ (1 : Fin 2) ∈ ([] : List (Fin 2))))]

/-- An update lands on the element its two index words name; a word outside [0, 8192) lands nowhere. -/
theorem diag_resultIdx?_eq_some_iff (i : S8192x8192.Idx) :
    dg.resultIdx? j idx = some i
      ↔ (idx (ix2 (j 0) (0 : Fin 2))).toInt = ((i 0).val : ℤ) ∧ (idx (ix2 (j 0) (1 : Fin 2))).toInt = ((i 1).val : ℤ) := by
  have hs0 := diag_start0 j idx
  have hs1 := diag_start1 j idx
  have hw0 := diag_window0 j
  have hw1 := diag_window1 j
  have hi0 : (i 0).val < 8192 := idx2_lt0 i
  have hi1 : (i 1).val < 8192 := idx2_lt1 i
  unfold ScatterDims.resultIdx?
  split
  · rename_i h
    rw [Option.some.injEq]
    constructor
    · intro e
      have e0 : (dg.start j idx 0 + (dg.window j 0 : ℤ)).toNat = (i 0).val :=
        congrArg (fun f : S8192x8192.Idx => (f 0).val) e
      have e1 : (dg.start j idx 1 + (dg.window j 1 : ℤ)).toNat = (i 1).val :=
        congrArg (fun f : S8192x8192.Idx => (f 1).val) e
      have h0 := (h 0).1
      have h1 := (h 1).1
      rw [hs0, hw0] at e0 h0
      rw [hs1, hw1] at e1 h1
      constructor <;> omega
    · rintro ⟨e0, e1⟩
      funext a
      refine Fin.ext ?_
      match a with
      | ⟨0, _⟩ =>
        show (dg.start j idx 0 + (dg.window j 0 : ℤ)).toNat = (i 0).val
        rw [hs0, hw0]; omega
      | ⟨1, _⟩ =>
        show (dg.start j idx 1 + (dg.window j 1 : ℤ)).toNat = (i 1).val
        rw [hs1, hw1]; omega
  · rename_i h
    constructor
    · intro e; cases e
    · rintro ⟨e0, e1⟩
      exfalso; apply h
      intro a
      match a with
      | ⟨0, _⟩ =>
        show 0 ≤ dg.start j idx 0 + (dg.window j 0 : ℤ) ∧ dg.start j idx 0 + (dg.window j 0 : ℤ) < (8192 : ℤ)
        rw [hs0, hw0]; omega
      | ⟨1, _⟩ =>
        show 0 ≤ dg.start j idx 1 + (dg.window j 1 : ℤ) ∧ dg.start j idx 1 + (dg.window j 1 : ℤ) < (8192 : ℤ)
        rw [hs1, hw1]; omega

end Diag

/-- Update r lands on (p, q) exactly when r = p = q. -/
theorem diag_lands (r p q : Fin 8192) :
    dg.resultIdx? (ix1 r) idxK = some (ix2 p q) ↔ r.val = p.val ∧ r.val = q.val := by
  rw [diag_resultIdx?_eq_some_iff]
  show (idxK (ix2 r (0 : Fin 2))).toInt = (p.val : ℤ) ∧ (idxK (ix2 r (1 : Fin 2))).toInt = (q.val : ℤ) ↔ _
  rw [idxK_apply, idxK_apply, toInt_ofNat_small _ r.isLt]
  constructor
  · rintro ⟨a, b⟩; constructor <;> omega
  · rintro ⟨a, b⟩; constructor <;> omega

/-! ## The two arrays read at an index -/

/-- The doubly scaled matrix at (p, q) is (dₚ · Sₚq) · d_q. -/
theorem baseOf_apply (d : (⟨S8192, .f32⟩ : BufTy).Contents (Elt Ideal)) (S : (⟨S8192x8192, .f32⟩ : BufTy).Contents (Elt Ideal))
    (p q : Fin 8192) : baseOf d S (ix2 p q) = (d (ix1 p) * S (ix2 p q)) * d (ix1 q) := by
  show (broadcastInDim S8192x8192 ![0, 1] bcast_S8192x1_S8192x8192_0_1
          (broadcastInDim S8192x1 ![0] bcast_S8192_S8192x1_0 d) (ix2 p q) * S (ix2 p q))
        * broadcastInDim S8192x8192 ![0, 1] bcast_S1x8192_S8192x8192_0_1
          (broadcastInDim S1x8192 ![1] bcast_S8192_S1x8192_1 d) (ix2 p q) = _
  rw [broadcastInDim_apply _ bcast_S8192x1_S8192x8192_0_1 _ (ix2 p q) (ix2 p (0 : Fin 1)) (fun a => match a with
      | ⟨0, _⟩ => by show p.val = if (8192 : Nat) = 1 then 0 else p.val; rw [if_neg (by decide)]
      | ⟨1, _⟩ => by show 0 = if (1 : Nat) = 1 then 0 else q.val; rw [if_pos rfl]),
    broadcastInDim_apply _ bcast_S8192_S8192x1_0 d (ix2 p (0 : Fin 1)) (ix1 p) (fun a => match a with
      | ⟨0, _⟩ => by show p.val = if (8192 : Nat) = 1 then 0 else p.val; rw [if_neg (by decide)]),
    broadcastInDim_apply _ bcast_S1x8192_S8192x8192_0_1 _ (ix2 p q) (ix2 (0 : Fin 1) q) (fun a => match a with
      | ⟨0, _⟩ => by show 0 = if (1 : Nat) = 1 then 0 else p.val; rw [if_pos rfl]
      | ⟨1, _⟩ => by show q.val = if (8192 : Nat) = 1 then 0 else q.val; rw [if_neg (by decide)]),
    broadcastInDim_apply _ bcast_S8192_S1x8192_1 d (ix2 (0 : Fin 1) q) (ix1 q) (fun a => match a with
      | ⟨0, _⟩ => by show q.val = if (8192 : Nat) = 1 then 0 else q.val; rw [if_neg (by decide)])]

/-- The scatter-add at (p, q): the scaled matrix's element, plus dₚ · dₚ on the diagonal. -/
theorem adjOf_apply (d : (⟨S8192, .f32⟩ : BufTy).Contents (Elt Ideal)) (S : (⟨S8192x8192, .f32⟩ : BufTy).Contents (Elt Ideal))
    (p q : Fin 8192) :
    adjOf d S (ix2 p q) = baseOf d S (ix2 p q) + (if p = q then d (ix1 p) * d (ix1 p) else 0) := by
  show baseOf d S (ix2 p q)
      + ∑ j ∈ Finset.univ.filter (fun j => dg.resultIdx? j idxK = some (ix2 p q)), mulf (F := Ideal) (φ := .f32) d d j = _
  congr 1
  rw [Finset.sum_filter]
  by_cases hpq : p = q
  · subst hpq
    rw [if_pos rfl, Finset.sum_eq_single (ix1 p)]
    · rw [if_pos ((diag_lands p p p).2 ⟨rfl, rfl⟩)]; rfl
    · intro j _ hj
      rw [if_neg]
      intro h
      apply hj
      rw [eq_ix1 j] at h ⊢
      exact congrArg ix1 (Fin.ext ((diag_lands (j 0) p p).1 h).1)
    · intro h; exact absurd (Finset.mem_univ _) h
  · rw [if_neg hpq]
    refine Finset.sum_eq_zero fun j _ => ?_
    rw [if_neg]
    intro h
    rw [eq_ix1 j] at h
    have hh := (diag_lands (j 0) p q).1 h
    exact hpq (Fin.ext (by omega))

end Cert.Adjacency

end
-- ==== Proof.Adjacency.lean ====
/-
  The kernel's adjacency matrix is the reference's, for a real matrix argument.

  With S = (A + Aᵀ) · ½ and δ the identity matrix: the kernel's degree (0 + Σⱼ Sₚⱼ) + 1 and the reference's
  0 + Σⱼ (Sₚⱼ + δₚⱼ) are one real number, so the two scales d agree and are real; and
  (dₚ · (Sₚq + δₚq)) · d_q = (dₚ · Sₚq) · d_q + δₚq · (dₚ · dₚ) among reals, the right side being what the
  diagonal scatter-add leaves at (p, q).
-/
import proofs.«103546_j7430293422438_2_alg».proof.Proof.AdjacencyScatter
import proofs.«103546_j7430293422438_2_alg».proof.Proof.Gen.ReferenceIdeal.Read

noncomputable section

open scoped BigOperators

namespace Cert.Adjacency

open Idealize.ShloMosaic Idealize.ShloMosaic.ValueIdx Idealize.ShloMosaic.StableHlo
open Cert.KernelIdeal Cert.KernelIdeal.Gen
open Cert.ReferenceIdeal.Read

/-- Square matrices and columns of extended reals. -/
abbrev Mat : Type := (⟨S8192x8192, .f32⟩ : BufTy).Contents (Elt Ideal)
abbrev Col : Type := (⟨S8192, .f32⟩ : BufTy).Contents (Elt Ideal)

/-! ## The two programs over common pieces -/

/-- The row sums from zero. -/
def rowSum (y : Mat) : Col :=
  Host.reduceAdd (F := Ideal) (φ := .f32) y (constant (F := Ideal) S_ .f32 0x00000000#32) reducesTo_S8192x8192_S8192_d1 h_S_

/-- The scale of a row from its degree: deg > 0 ? deg ^ (−½) : 0. -/
def dinvFn (deg : Col) : Col :=
  dinvOf (cmpf (F := Ideal) (φ := .f32) .ogt deg (broadcastInDim S8192 ![] bcast_S_S8192 (constant (F := Ideal) S_ .f32 0x00000000#32)))
    (Host.powf (F := Ideal) (φ := .f32) deg (broadcastInDim S8192 ![] bcast_S_S8192 (constant (F := Ideal) S_ .f32 0xBF000000#32)))
    (constant (F := Ideal) S_ .f32 0x00000000#32)

/-- The reference's identity matrix. -/
abbrev eye : Mat := val_main_v9 (F := Ideal)

theorem degK_eq (A : Mat) : degK A = addf (F := Ideal) (φ := .f32) (rowSum (symK A))
    (broadcastInDim S8192 ![] bcast_S_S8192 (constant (F := Ideal) S_ .f32 0x3F800000#32)) := rfl
theorem dinvK_eq (A : Mat) : dinvK A = dinvFn (degK A) := rfl
theorem ref_v10 (A : Mat) : val_main_v10 (F := Ideal) A = addf (F := Ideal) (φ := .f32) (symK A) eye := rfl
theorem ref_v11 (A : Mat) : val_main_v11 (F := Ideal) A = rowSum (addf (F := Ideal) (φ := .f32) (symK A) eye) := rfl
theorem ref_v16 (A : Mat) : val_main_v16 (F := Ideal) A = dinvFn (val_main_v11 (F := Ideal) A) := rfl
theorem ref_v22 (A : Mat) :
    val_main_v22 (F := Ideal) A = baseOf (val_main_v16 (F := Ideal) A) (val_main_v10 (F := Ideal) A) := rfl

/-! ## The pieces read at an index -/

theorem rowSum_apply (y : Mat) (p : Fin 8192) :
    rowSum y (ix1 p) = Ideal.ofBits .f32 0x00000000#32 + ∑ k : Fin 8192, y (ix2 p k) := by
  unfold rowSum
  simp only [Host.reduceAdd, Ideal.hostReduceAdd_def]
  rw [Ideal.hostReduceAdd_single reducesTo_S8192x8192_S8192_d1 (by decide)]
  refine congrArg (_ + ·) (Finset.sum_congr rfl fun k _ => ?_)
  exact congrArg y (funext fun a => Fin.ext (by match a with | ⟨0, _⟩ => rfl | ⟨1, _⟩ => rfl))

theorem symK_apply (A : Mat) (p q : Fin 8192) :
    symK A (ix2 p q) = (A (ix2 p q) + A (ix2 q p)) * Ideal.ofBits .f32 0x3F000000#32 := by
  show (A (ix2 p q) + transpose S8192x8192 [1, 0] A transposes_S8192x8192_S8192x8192_1_0 (ix2 p q))
      * broadcastInDim S8192x8192 ![] bcast_S_S8192x8192 (constant (F := Ideal) S_ .f32 0x3F000000#32) (ix2 p q) = _
  rw [transpose_apply [1, 0] A transposes_S8192x8192_S8192x8192_1_0 (ix2 p q) (ix2 q p) (fun b => match b with
      | ⟨0, _⟩ => rfl
      | ⟨1, _⟩ => rfl),
    broadcastInDim_scalar_apply]
  rfl

theorem dinvFn_apply (deg : Col) (p : Fin 8192) :
    dinvFn deg (ix1 p) = Scalar.select (Ideal.cmp .ogt (deg (ix1 p)) (Ideal.ofBits .f32 0x00000000#32))
      (Ideal.pow (deg (ix1 p)) (Ideal.ofBits .f32 0xBF000000#32)) (Ideal.ofBits .f32 0x00000000#32) := by
  show Scalar.select
      (FloatOps.cmpf .ogt (deg (ix1 p))
        (broadcastInDim S8192 ![] bcast_S_S8192 (constant (F := Ideal) S_ .f32 0x00000000#32) (ix1 p)))
      (FloatOps.hostPowf (deg (ix1 p))
        (broadcastInDim S8192 ![] bcast_S_S8192 (constant (F := Ideal) S_ .f32 0xBF000000#32) (ix1 p)))
      (broadcastInDim S8192 ![] bcast_S_S8192 (id (constant (F := Ideal) S_ .f32 0x00000000#32)) (ix1 p)) = _
  simp only [broadcastInDim_scalar_apply]
  rfl

/-! ## The identity matrix -/

theorem ofNat_inj_small {a b : Nat} (ha : a < 8192) (hb : b < 8192) (h : BitVec.ofNat 32 a = BitVec.ofNat 32 b) : a = b := by
  have e := congrArg BitVec.toNat h
  rw [BitVec.toNat_ofNat, BitVec.toNat_ofNat, Nat.mod_eq_of_lt (by omega), Nat.mod_eq_of_lt (by omega)] at e
  exact e

/-- The reference's identity matrix is one on the diagonal and zero off it. -/
theorem eye_apply (p q : Fin 8192) : eye (ix2 p q) = if p = q then 1 else 0 := by
  show val_main_v9 (F := Ideal) (ix2 p q) = _
  rw [val_main_v9_apply, val_main_v8_apply, val_main_v7_apply, val_main_v4_apply, val_main_v5_apply, val_main_v6_apply,
    val_main_c_apply]
  show (((IntOp.cmpi .eq (IntOp.addi (BitVec.ofNat 32 p.val) 0#32) (BitVec.ofNat 32 q.val)).toNat : ℝ) : EReal) = _
  have h0 : IntOp.addi (BitVec.ofNat 32 p.val) 0#32 = BitVec.ofNat 32 p.val := BitVec.add_zero _
  rw [h0]
  by_cases hpq : p = q
  · subst hpq
    rw [if_pos rfl]
    have e : IntOp.cmpi .eq (BitVec.ofNat 32 p.val) (BitVec.ofNat 32 p.val) = 1#1 := by
      show BitVec.ofBool (BitVec.ofNat 32 p.val == BitVec.ofNat 32 p.val) = 1#1
      rw [beq_self_eq_true]; rfl
    rw [e]; simp
  · rw [if_neg hpq]
    have e : IntOp.cmpi .eq (BitVec.ofNat 32 p.val) (BitVec.ofNat 32 q.val) = 0#1 := by
      show BitVec.ofBool (BitVec.ofNat 32 p.val == BitVec.ofNat 32 q.val) = 0#1
      rw [beq_eq_false_iff_ne.mpr (fun h => hpq (Fin.ext (ofNat_inj_small p.isLt q.isLt h)))]; rfl
    rw [e]; simp

/-! ## Reals among the extended reals -/

/-- The coercion of a finite sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An f32 pattern whose exponent field is not all ones denotes a real. -/
theorem ofBits_real (b : BitVec 32) (h : (b.extractLsb' 23 8).toNat ≠ 255) :
    ∃ r : ℝ, Ideal.ofBits .f32 b = (r : EReal) := by
  show ∃ r : ℝ, Ideal.ieee 8 23 b = (r : EReal)
  unfold Ideal.ieee
  dsimp only
  split_ifs <;> first | exact ⟨_, rfl⟩ | (exfalso; omega)

/-- The scale of a row of real degree is real. -/
theorem dinv_real (x : ℝ) : ∃ e : ℝ, Scalar.select (Ideal.cmp .ogt (x : EReal) (Ideal.ofBits .f32 0x00000000#32))
      (Ideal.pow (x : EReal) (Ideal.ofBits .f32 0xBF000000#32)) (Ideal.ofBits .f32 0x00000000#32) = (e : EReal) := by
  obtain ⟨mh, hmh⟩ := ofBits_real 0xBF000000#32 (by decide)
  rw [hmh, Ideal.ofBits_zero_f32, Ideal.pow_coe_coe]
  unfold Scalar.select
  split_ifs
  · exact ⟨_, rfl⟩
  · exact ⟨0, rfl⟩

/-! ## The two adjacency matrices at an index -/

/-- At every index the kernel's and the reference's normalised adjacency are one real number. -/
theorem adj_point (A : Mat) (hA : ∀ i, ∃ r : ℝ, A i = (r : EReal)) (p q : Fin 8192) :
    ∃ r : ℝ, adjK A (ix2 p q) = (r : EReal) ∧ val_main_v22 (F := Ideal) A (ix2 p q) = (r : EReal) := by
  obtain ⟨h, hh⟩ := ofBits_real 0x3F000000#32 (by decide)
  -- the symmetrised matrix is real
  have hS : ∀ p q : Fin 8192, ∃ s : ℝ, symK A (ix2 p q) = (s : EReal) := by
    intro p q
    obtain ⟨a1, h1⟩ := hA (ix2 p q)
    obtain ⟨a2, h2⟩ := hA (ix2 q p)
    exact ⟨(a1 + a2) * h, by rw [symK_apply, h1, h2, hh, EReal.coe_mul, EReal.coe_add]⟩
  choose s hs using hS
  -- the identity matrix is real
  have hE : ∀ p q : Fin 8192, eye (ix2 p q) = (((if p = q then 1 else 0 : ℝ)) : EReal) := by
    intro p q
    rw [eye_apply]
    split_ifs <;> rfl
  -- the two degrees are one real
  have hdK : ∀ p : Fin 8192, degK A (ix1 p) = ((∑ k : Fin 8192, s p k + 1 : ℝ) : EReal) := by
    intro p
    rw [degK_eq]
    show rowSum (symK A) (ix1 p)
      + broadcastInDim S8192 ![] bcast_S_S8192 (constant (F := Ideal) S_ .f32 0x3F800000#32) (ix1 p) = _
    rw [broadcastInDim_scalar_apply, rowSum_apply]
    show (Ideal.ofBits .f32 0x00000000#32 + ∑ k : Fin 8192, symK A (ix2 p k)) + Ideal.ofBits .f32 0x3F800000#32 = _
    rw [Ideal.ofBits_zero_f32, Ideal.ofBits_one_f32, zero_add]
    simp only [hs]
    rw [EReal.coe_add, coe_sum, EReal.coe_one]
  have hdR : ∀ p : Fin 8192, val_main_v11 (F := Ideal) A (ix1 p) = ((∑ k : Fin 8192, s p k + 1 : ℝ) : EReal) := by
    intro p
    rw [ref_v11, rowSum_apply, Ideal.ofBits_zero_f32, zero_add]
    have e : ∀ k : Fin 8192, addf (F := Ideal) (φ := .f32) (symK A) eye (ix2 p k)
        = ((s p k + (if p = k then 1 else 0) : ℝ) : EReal) := by
      intro k
      show symK A (ix2 p k) + eye (ix2 p k) = _
      rw [hs, hE, EReal.coe_add]
    simp only [e]
    rw [← coe_sum, Finset.sum_add_distrib, Finset.sum_ite_eq Finset.univ p (fun _ => (1 : ℝ)), if_pos (Finset.mem_univ p)]
  have hdeg : val_main_v11 (F := Ideal) A = degK A := by
    funext i
    rw [eq_ix1 i]
    exact (hdR _).trans (hdK _).symm
  -- the scales agree and are real
  have hD : val_main_v16 (F := Ideal) A = dinvK A := by rw [ref_v16, hdeg, dinvK_eq]
  have hDr : ∀ p : Fin 8192, ∃ e : ℝ, dinvK A (ix1 p) = (e : EReal) := by
    intro p
    rw [dinvK_eq, dinvFn_apply, hdK]
    exact dinv_real _
  choose e he using hDr
  -- the two sides
  have hK : adjK A (ix2 p q) = (((e p * s p q) * e q + (if p = q then e p * e p else 0) : ℝ) : EReal) := by
    show adjOf (dinvK A) (symK A) (ix2 p q) = _
    rw [adjOf_apply, baseOf_apply, he, he, hs]
    split_ifs
    · simp only [EReal.coe_add, EReal.coe_mul]
    · simp only [add_zero, EReal.coe_mul]
  have hR : val_main_v22 (F := Ideal) A (ix2 p q) = (((e p * (s p q + (if p = q then 1 else 0))) * e q : ℝ) : EReal) := by
    rw [ref_v22, hD, ref_v10, baseOf_apply, he, he]
    show ((e p : EReal) * (symK A (ix2 p q) + eye (ix2 p q))) * (e q : EReal) = _
    rw [hs, hE]
    simp only [EReal.coe_add, EReal.coe_mul]
  refine ⟨(e p * s p q) * e q + (if p = q then e p * e p else 0), hK,
    hR.trans (congrArg (fun t : ℝ => (t : EReal)) ?_)⟩
  by_cases hpq : p = q
  · subst hpq
    rw [if_pos rfl, if_pos rfl]; ring
  · rw [if_neg hpq, if_neg hpq]; ring

/-! ## The statements -/

/-- For a real matrix argument the kernel's normalised adjacency matrix is the reference's. -/
theorem adjK_eq_ref (A : (⟨S8192x8192, .f32⟩ : BufTy).Contents (Elt Ideal)) (hA : ∀ i, ∃ r : ℝ, A i = (r : EReal)) :
    adjK A = Cert.ReferenceIdeal.Read.val_main_v22 (F := Ideal) A := by
  funext i
  rw [eq_ix2 i]
  obtain ⟨r, h1, h2⟩ := adj_point A hA (i 0) (i 1)
  exact h1.trans h2.symm

/-- For a real matrix argument the kernel's normalised adjacency matrix is real. -/
theorem adjK_real (A : (⟨S8192x8192, .f32⟩ : BufTy).Contents (Elt Ideal)) (hA : ∀ i, ∃ r : ℝ, A i = (r : EReal)) :
    ∀ i, ∃ r : ℝ, adjK A i = (r : EReal) := by
  intro i
  rw [eq_ix2 i]
  obtain ⟨r, h1, _⟩ := adj_point A hA (i 0) (i 1)
  exact ⟨r, h1⟩

end Cert.Adjacency

end
-- ==== Proof.KernelChain.lean ====
/-
  The kernel program's result as a formula. With the two blocked matrix products' values as hypotheses — each
  region leaves in its output array the matrix product of its two operand arrays —, the buffers the regions read
  are identified (the first product's operands are the kernel's adjacency matrix and the feature matrix, the
  second's the matrix C and the first product's result), and the result buffer at the end of the run is
  C · (adj · x): at the entry (i, l), the sum over j of C (i, j) times the sum over k of adj (j, k) · x (k, l).
-/
import proofs.«103546_j7430293422438_2_alg».proof.Proof.KernelIdeal.Frame
import proofs.«103546_j7430293422438_2_alg».proof.Proof.AdjacencyKernel
import proofs.«103546_j7430293422438_2_alg».proof.Proof.MatG

set_option maxRecDepth 16384

noncomputable section

open scoped BigOperators

namespace Cert.KernelChain

open Idealize.ShloMosaic Idealize.ShloMosaic.TcCoe Idealize.SL.Sem Idealize.ShloMosaic.ValueIdx
open Cert.KernelIdeal Cert.KernelIdeal.Hand
open Cert.MatG (matG)

variable (m : (ℓ : Loc nD τ sig) → Buf (Elt Ideal) ℓ) (ρ : Dev nD → PrngReg) (c : Dev nD)

/-! ## What the regions' operand buffers hold -/

/-- The first product's left operand is the kernel's adjacency matrix. -/
theorem V3_v34' : (V3 m ρ c main_v34 : S8192x8192.Idx → EReal) = Cert.Adjacency.adjK (m ((c : Thread nD τ).loc main_arg2)) :=
  Cert.Adjacency.V3_v34 m c
/-- The first product's right operand is the feature matrix as launched. -/
theorem V3_v35' : (V3 m ρ c main_v35 : S8192x1024.Idx → EReal) = m ((c : Thread nD τ).loc main_arg0) :=
  Cert.Adjacency.V3_v35 m c
/-- The second product's left operand is the matrix C as launched. -/
theorem V5_v36 : (V5 m ρ c main_v36 : S8192x8192.Idx → EReal) = m ((c : Thread nD τ).loc main_arg1) :=
  (W5_v36 m ρ c).trans (Cert.Adjacency.V3_v36 m c)
/-- The second product's right operand is what the first product left in its output array: the conversion between the
    regions is the identity on extended reals. -/
theorem V5_v38 : (V5 m ρ c main_v38 : S8192x1024.Idx → EReal) = ((dat0 (V3 m ρ) c).arrAt 2 cfg0.N : S8192x1024.Idx → EReal) :=
  (W5_v38 m ρ c).trans ((Cert.Adjacency.truncf_ideal (s := S8192x1024) (φ := .f32) (ψ := .bf16) Gen.bitsLt_bf16_f32
    (W4 m ρ c (Proc.devRef .tc main_v37))).trans (W4_v37 m ρ c))

/-! ## The proof data's array fields are those buffers -/

theorem A0_0 : ((dat0 (V3 m ρ) c).A 0 : S8192x8192.Idx → EReal) = (V3 m ρ c main_v34 : S8192x8192.Idx → EReal) := A_eq0 (V3 m ρ) c 0
theorem A0_1 : ((dat0 (V3 m ρ) c).A 1 : S8192x1024.Idx → EReal) = (V3 m ρ c main_v35 : S8192x1024.Idx → EReal) := A_eq0 (V3 m ρ) c 1
theorem A1_0 : ((dat1 (V5 m ρ) c).A 0 : S8192x8192.Idx → EReal) = (V5 m ρ c main_v36 : S8192x8192.Idx → EReal) := A_eq1 (V5 m ρ) c 0
theorem A1_1 : ((dat1 (V5 m ρ) c).A 1 : S8192x1024.Idx → EReal) = (V5 m ρ c main_v38 : S8192x1024.Idx → EReal) := A_eq1 (V5 m ρ) c 1

/-! ## The result -/

/-- The result buffer at the end of the run is C · (adj · x), given that each region leaves the product of its operand
    arrays in its output array. -/
theorem kernel_mat
    (h0 : ((dat0 (V3 m ρ) c).arrAt 2 cfg0.N : S8192x1024.Idx → EReal) = matG ((dat0 (V3 m ρ) c).A 0) ((dat0 (V3 m ρ) c).A 1))
    (h1 : ((dat1 (V5 m ρ) c).arrAt 2 cfg1.N : S8192x1024.Idx → EReal) = matG ((dat1 (V5 m ρ) c).A 0) ((dat1 (V5 m ρ) c).A 1)) :
    (W6 m ρ c (Proc.devRef .tc main_v39) : S8192x1024.Idx → EReal)
      = matG (m ((c : Thread nD τ).loc main_arg1))
          (matG (Cert.Adjacency.adjK (m ((c : Thread nD τ).loc main_arg2))) (m ((c : Thread nD τ).loc main_arg0))) :=
  (W6_main_v39 m ρ c).trans <| h1.trans <| Cert.MatG.matG_congr ((A1_0 m ρ c).trans (V5_v36 m ρ c)) <|
    (A1_1 m ρ c).trans <| (V5_v38 m ρ c).trans <| h0.trans <|
      Cert.MatG.matG_congr ((A0_0 m ρ c).trans (V3_v34' m ρ c)) ((A0_1 m ρ c).trans (V3_v35' m ρ c))

/-- The result buffer at the entry (i, l): with the three argument arrays named x0 (features), x1 (the matrix C) and
    x2 (the matrix whose normalised adjacency is taken) and the result buffer named y, y (i, l) is the sum over j of
    x1 (i, j) times the sum over k of adj (j, k) · x0 (k, l). -/
theorem kernel_val
    (h0 : ((dat0 (V3 m ρ) c).arrAt 2 cfg0.N : S8192x1024.Idx → EReal) = matG ((dat0 (V3 m ρ) c).A 0) ((dat0 (V3 m ρ) c).A 1))
    (h1 : ((dat1 (V5 m ρ) c).arrAt 2 cfg1.N : S8192x1024.Idx → EReal) = matG ((dat1 (V5 m ρ) c).A 0) ((dat1 (V5 m ρ) c).A 1))
    (x0 : (⟨S8192x1024, .f32⟩ : BufTy).Contents (Elt Ideal)) (x1 x2 : (⟨S8192x8192, .f32⟩ : BufTy).Contents (Elt Ideal))
    (e0 : m ((c : Thread nD τ).loc main_arg0) = x0) (e1 : m ((c : Thread nD τ).loc main_arg1) = x1)
    (e2 : m ((c : Thread nD τ).loc main_arg2) = x2)
    (y : (⟨S8192x1024, .f32⟩ : BufTy).Contents (Elt Ideal)) (ey : W6 m ρ c (Proc.devRef .tc main_v39) = y)
    (i : Fin 8192) (l : Fin 1024) :
    y (ix2 i l) = ∑ j : Fin 8192, x1 (ix2 i j) * ∑ k : Fin 8192, Cert.Adjacency.adjK x2 (ix2 j k) * x0 (ix2 k l) := by
  subst e0 e1 e2 ey
  exact (congrFun (kernel_mat m ρ c h0 h1) (ix2 i l)).trans (Cert.MatG.matG_matG_ix2 _ _ _ i l)

end Cert.KernelChain

end
-- ==== Proof.KernelIdeal.Pieces0.lean ====
/-
  What each control case of the first blocked matrix product leaves, by name: the accumulator after a
  reduction step is the step's payload — the accumulator before it plus the product of the two input blocks — and
  the output block at the last step is the accumulator's copy.
-/
import proofs.«103546_j7430293422438_2_alg».proof.Proof.KernelIdeal.Region0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz0 : (![0, 0] : Fin 2 → Nat) = fun _ => 0 := funext fun a => by fin_cases a <;> rfl

/-- The first reduction step leaves, in the accumulator, the zero block plus the product of the two input blocks. -/
theorem accA0_eq (c : Dev nD) (t : Fin cfg0.N) (h0 : t.val % 8 = 0) (x0 x1 : Vec F S1024x1024 .bf16) :
    accA0 (F := F) c t h0 x0 x1 = k0_pay2 (k0_pay1 (F := F)) x0 x1 := by
  unfold accA0
  rw [View.read_writes_eq_canon _ _ _ (scoverA0 c t h0 x0 x1)]
  unfold runA0 kernelRun0_A
  dsimp only
  try sl_unfold_words
  rw [View.canon_cons_unit_zero (S := S1024x1024) hz0, View.readCov_unit_zero (S := S1024x1024) _ hz0]
  simp only [View.readAt_eq_ld, Memref.IsWhole.read_unread, View.ld_unit_zero (S := S1024x1024) hz0]

/-- A middle step leaves the accumulator it found plus the product of the two input blocks. -/
theorem accB0_eq (c : Dev nD) (t : Fin cfg0.N) (h0 : ¬t.val % 8 = 0) (h1 : ¬t.val % 8 = 7) (x0 x1 : Vec F S1024x1024 .bf16) (xs0 : Vec F S1024x1024 .f32) :
    accB0 (F := F) c t h0 h1 x0 x1 xs0 = k0_pay2 xs0 x0 x1 := by
  unfold accB0
  rw [View.read_writes_eq_canon _ _ _ (scoverB0 c t h0 h1 x0 x1 xs0)]
  unfold runB0 kernelRun0_B
  dsimp only
  try sl_unfold_words
  rw [View.canon_unit_zero hz0]
  simp only [View.readAt_eq_ld, Memref.IsWhole.read_unread, View.ld_unit_zero (S := S1024x1024) hz0]
  exact congrArg (fun z => k0_pay2 (F := F) z x0 x1) (Memref.IsWhole.read_unread (m := scM0_0) (Memref.isWhole_whole _) xs0)

/-- So does the last step, -/
theorem accC0_eq (c : Dev nD) (t : Fin cfg0.N) (h0 : ¬t.val % 8 = 0) (h1 : t.val % 8 = 7) (x0 x1 : Vec F S1024x1024 .bf16) (xs0 : Vec F S1024x1024 .f32) :
    accC0 (F := F) c t h0 h1 x0 x1 xs0 = k0_pay2 xs0 x0 x1 := by
  unfold accC0
  rw [View.read_writes_eq_canon _ _ _ (scoverC0 c t h0 h1 x0 x1 xs0)]
  unfold runC0 kernelRun0_C
  dsimp only
  try sl_unfold_words
  rw [View.canon_unit_zero hz0]
  simp only [View.readAt_eq_ld, Memref.IsWhole.read_unread, View.ld_unit_zero (S := S1024x1024) hz0]
  exact congrArg (fun z => k0_pay2 (F := F) z x0 x1) (Memref.IsWhole.read_unread (m := scM0_0) (Memref.isWhole_whole _) xs0)

/-- and it copies that accumulator into the output block. -/
theorem outC0_eq (c : Dev nD) (t : Fin cfg0.N) (h0 : ¬t.val % 8 = 0) (h1 : t.val % 8 = 7) (x0 x1 : Vec F S1024x1024 .bf16) (xs0 : Vec F S1024x1024 .f32) :
    outC0 (F := F) c t h0 h1 x0 x1 xs0 = k0_pay2 xs0 x0 x1 := by
  unfold outC0
  rw [View.read_writes_eq_canon _ _ _ (coverC0 c t h0 h1 x0 x1 xs0)]
  unfold runC0 kernelRun0_C
  dsimp only
  try sl_unfold_words
  rw [View.canon_unit_zero hz0, View.readCov_unit_zero (S := S1024x1024) _ hz0]
  simp only [View.readAt_eq_ld, Memref.IsWhole.read_unread, View.ld_unit_zero (S := S1024x1024) hz0]
  exact congrArg (fun z => k0_pay2 (F := F) z x0 x1) (Memref.IsWhole.read_unread (m := scM0_0) (Memref.isWhole_whole _) xs0)

variable (V : (c : Dev nD) → (b : Ref sig .tc) → Buf (Elt F) ((c : Thread nD τ).loc b))

/-- The two input blocks at point `t`, as vectors. -/
abbrev blkL0 (c : Dev nD) (t : Fin cfg0.N) : Vec F S1024x1024 .bf16 := iblk0 V c 0 t
abbrev blkR0 (c : Dev nD) (t : Fin cfg0.N) : Vec F S1024x1024 .bf16 := iblk0 V c 1 t

/-- The accumulator after each point, as a recursion over the points: cleared-and-fed at the first reduction step of
    a row block, fed at the others. -/
theorem acc0_first (c : Dev nD) (t : Fin cfg0.N) (h0 : t.val % 8 = 0) :
    @Eq (Vec F S1024x1024 .f32) (outsAt0 V c t.val t.isLt).2 (k0_pay2 (F := F) (k0_pay1 (F := F)) (blkL0 V c t) (blkR0 V c t)) := by
  rw [outsAt0_A V c t h0]; dsimp only
  exact accA0_eq (F := F) c t h0 (iblk0 V c 0 t) (iblk0 V c 1 t)

theorem acc0_next (c : Dev nD) (t : Fin cfg0.N) (h0 : t.val % 8 ≠ 0) :
    @Eq (Vec F S1024x1024 .f32) (outsAt0 V c t.val t.isLt).2 (k0_pay2 (F := F) (outsAt0 V c (t.val - 1) (Nat.lt_of_le_of_lt (Nat.sub_le _ _) t.isLt)).2 (blkL0 V c t) (blkR0 V c t)) := by
  by_cases h1 : t.val % 8 = 7
  · rw [outsAt0_C V c t h0 h1]; dsimp only
    exact accC0_eq (F := F) c t h0 h1 (iblk0 V c 0 t) (iblk0 V c 1 t) (outsAt0 V c (t.val - 1) (Nat.lt_of_le_of_lt (Nat.sub_le _ _) t.isLt)).2
  · rw [outsAt0_B V c t h0 h1]; dsimp only
    exact accB0_eq (F := F) c t h0 h1 (iblk0 V c 0 t) (iblk0 V c 1 t) (outsAt0 V c (t.val - 1) (Nat.lt_of_le_of_lt (Nat.sub_le _ _) t.isLt)).2

/-- At the last reduction step the output block holds the accumulator. -/
theorem out0_last (c : Dev nD) (t : Fin cfg0.N) (h1 : t.val % 8 = 7) :
    @Eq (Vec F S1024x1024 .f32) (outsAt0 V c t.val t.isLt).1 (outsAt0 V c t.val t.isLt).2 := by
  have h0 : ¬t.val % 8 = 0 := by omega
  rw [outsAt0_C V c t h0 h1]; dsimp only
  exact (outC0_eq (F := F) c t h0 h1 (iblk0 V c 0 t) (iblk0 V c 1 t) (outsAt0 V c (t.val - 1) (Nat.lt_of_le_of_lt (Nat.sub_le _ _) t.isLt)).2).trans (accC0_eq (F := F) c t h0 h1 (iblk0 V c 0 t) (iblk0 V c 1 t) (outsAt0 V c (t.val - 1) (Nat.lt_of_le_of_lt (Nat.sub_le _ _) t.isLt)).2).symm

end Cert.KernelIdeal.Hand

end
-- ==== Proof.KernelIdeal.Pieces1.lean ====
/-
  What each control case of the second blocked matrix product leaves, by name: the accumulator after a
  reduction step is the step's payload — the accumulator before it plus the product of the two input blocks — and
  the output block at the last step is the accumulator's copy.
-/
import proofs.«103546_j7430293422438_2_alg».proof.Proof.KernelIdeal.Region1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0, 0] : Fin 2 → Nat) = fun _ => 0 := funext fun a => by fin_cases a <;> rfl

/-- The first reduction step leaves, in the accumulator, the zero block plus the product of the two input blocks. -/
theorem accA1_eq (c : Dev nD) (t : Fin cfg1.N) (h0 : t.val % 8 = 0) (x0 x1 : Vec F S1024x1024 .bf16) :
    accA1 (F := F) c t h0 x0 x1 = k1_pay2 (k1_pay1 (F := F)) x0 x1 := by
  unfold accA1
  rw [View.read_writes_eq_canon _ _ _ (scoverA1 c t h0 x0 x1)]
  unfold runA1 kernelRun1_A
  dsimp only
  try sl_unfold_words
  rw [View.canon_cons_unit_zero (S := S1024x1024) hz1, View.readCov_unit_zero (S := S1024x1024) _ hz1]
  simp only [View.readAt_eq_ld, Memref.IsWhole.read_unread, View.ld_unit_zero (S := S1024x1024) hz1]

/-- A middle step leaves the accumulator it found plus the product of the two input blocks. -/
theorem accB1_eq (c : Dev nD) (t : Fin cfg1.N) (h0 : ¬t.val % 8 = 0) (h1 : ¬t.val % 8 = 7) (x0 x1 : Vec F S1024x1024 .bf16) (xs0 : Vec F S1024x1024 .f32) :
    accB1 (F := F) c t h0 h1 x0 x1 xs0 = k1_pay2 xs0 x0 x1 := by
  unfold accB1
  rw [View.read_writes_eq_canon _ _ _ (scoverB1 c t h0 h1 x0 x1 xs0)]
  unfold runB1 kernelRun1_B
  dsimp only
  try sl_unfold_words
  rw [View.canon_unit_zero hz1]
  simp only [View.readAt_eq_ld, Memref.IsWhole.read_unread, View.ld_unit_zero (S := S1024x1024) hz1]
  exact congrArg (fun z => k1_pay2 (F := F) z x0 x1) (Memref.IsWhole.read_unread (m := scM1_0) (Memref.isWhole_whole _) xs0)

/-- So does the last step, -/
theorem accC1_eq (c : Dev nD) (t : Fin cfg1.N) (h0 : ¬t.val % 8 = 0) (h1 : t.val % 8 = 7) (x0 x1 : Vec F S1024x1024 .bf16) (xs0 : Vec F S1024x1024 .f32) :
    accC1 (F := F) c t h0 h1 x0 x1 xs0 = k1_pay2 xs0 x0 x1 := by
  unfold accC1
  rw [View.read_writes_eq_canon _ _ _ (scoverC1 c t h0 h1 x0 x1 xs0)]
  unfold runC1 kernelRun1_C
  dsimp only
  try sl_unfold_words
  rw [View.canon_unit_zero hz1]
  simp only [View.readAt_eq_ld, Memref.IsWhole.read_unread, View.ld_unit_zero (S := S1024x1024) hz1]
  exact congrArg (fun z => k1_pay2 (F := F) z x0 x1) (Memref.IsWhole.read_unread (m := scM1_0) (Memref.isWhole_whole _) xs0)

/-- and it copies that accumulator into the output block. -/
theorem outC1_eq (c : Dev nD) (t : Fin cfg1.N) (h0 : ¬t.val % 8 = 0) (h1 : t.val % 8 = 7) (x0 x1 : Vec F S1024x1024 .bf16) (xs0 : Vec F S1024x1024 .f32) :
    outC1 (F := F) c t h0 h1 x0 x1 xs0 = k1_pay2 xs0 x0 x1 := by
  unfold outC1
  rw [View.read_writes_eq_canon _ _ _ (coverC1 c t h0 h1 x0 x1 xs0)]
  unfold runC1 kernelRun1_C
  dsimp only
  try sl_unfold_words
  rw [View.canon_unit_zero hz1, View.readCov_unit_zero (S := S1024x1024) _ hz1]
  simp only [View.readAt_eq_ld, Memref.IsWhole.read_unread, View.ld_unit_zero (S := S1024x1024) hz1]
  exact congrArg (fun z => k1_pay2 (F := F) z x0 x1) (Memref.IsWhole.read_unread (m := scM1_0) (Memref.isWhole_whole _) xs0)

variable (V : (c : Dev nD) → (b : Ref sig .tc) → Buf (Elt F) ((c : Thread nD τ).loc b))

/-- The two input blocks at point `t`, as vectors. -/
abbrev blkL1 (c : Dev nD) (t : Fin cfg1.N) : Vec F S1024x1024 .bf16 := iblk1 V c 0 t
abbrev blkR1 (c : Dev nD) (t : Fin cfg1.N) : Vec F S1024x1024 .bf16 := iblk1 V c 1 t

/-- The accumulator after each point, as a recursion over the points: cleared-and-fed at the first reduction step of
    a row block, fed at the others. -/
theorem acc1_first (c : Dev nD) (t : Fin cfg1.N) (h0 : t.val % 8 = 0) :
    @Eq (Vec F S1024x1024 .f32) (outsAt1 V c t.val t.isLt).2 (k1_pay2 (F := F) (k1_pay1 (F := F)) (blkL1 V c t) (blkR1 V c t)) := by
  rw [outsAt1_A V c t h0]; dsimp only
  exact accA1_eq (F := F) c t h0 (iblk1 V c 0 t) (iblk1 V c 1 t)

theorem acc1_next (c : Dev nD) (t : Fin cfg1.N) (h0 : t.val % 8 ≠ 0) :
    @Eq (Vec F S1024x1024 .f32) (outsAt1 V c t.val t.isLt).2 (k1_pay2 (F := F) (outsAt1 V c (t.val - 1) (Nat.lt_of_le_of_lt (Nat.sub_le _ _) t.isLt)).2 (blkL1 V c t) (blkR1 V c t)) := by
  by_cases h1 : t.val % 8 = 7
  · rw [outsAt1_C V c t h0 h1]; dsimp only
    exact accC1_eq (F := F) c t h0 h1 (iblk1 V c 0 t) (iblk1 V c 1 t) (outsAt1 V c (t.val - 1) (Nat.lt_of_le_of_lt (Nat.sub_le _ _) t.isLt)).2
  · rw [outsAt1_B V c t h0 h1]; dsimp only
    exact accB1_eq (F := F) c t h0 h1 (iblk1 V c 0 t) (iblk1 V c 1 t) (outsAt1 V c (t.val - 1) (Nat.lt_of_le_of_lt (Nat.sub_le _ _) t.isLt)).2

/-- At the last reduction step the output block holds the accumulator. -/
theorem out1_last (c : Dev nD) (t : Fin cfg1.N) (h1 : t.val % 8 = 7) :
    @Eq (Vec F S1024x1024 .f32) (outsAt1 V c t.val t.isLt).1 (outsAt1 V c t.val t.isLt).2 := by
  have h0 : ¬t.val % 8 = 0 := by omega
  rw [outsAt1_C V c t h0 h1]; dsimp only
  exact (outC1_eq (F := F) c t h0 h1 (iblk1 V c 0 t) (iblk1 V c 1 t) (outsAt1 V c (t.val - 1) (Nat.lt_of_le_of_lt (Nat.sub_le _ _) t.isLt)).2).trans (accC1_eq (F := F) c t h0 h1 (iblk1 V c 0 t) (iblk1 V c 1 t) (outsAt1 V c (t.val - 1) (Nat.lt_of_le_of_lt (Nat.sub_le _ _) t.isLt)).2).symm

end Cert.KernelIdeal.Hand

end
-- ==== Proof.AccPayload.lean ====
/-
  The arithmetic of one grid step of the blocked matrix product, read at an index.  A step adds to the
  accumulator block `v3` the product of a 1024×1024 block `v4` of the left operand and a 1024×1024 block
  `v6` of the right operand: at entry `(p, q)` the new value is `v3 (p, q) + Σ_kk v4 (p, kk) * v6 (kk, q)`.
  The first step of a row block starts from the zero block.
-/
import proofs.«103546_j7430293422438_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.AccValue

open Cert.KernelIdeal Cert.KernelIdeal.Gen
open Idealize.ShloMosaic Idealize.ShloMosaic.TcCoe Idealize.SL.Sem
open Idealize.ShloMosaic.ValueIdx (ix2)
open scoped BigOperators

/-- The left operand's row coordinate at an output index is the output's row. -/
theorem dot_lhs_0 (i : S1024x1024.Idx) (k : dot_S1024x1024_S1024x1024_S1024x1024_1_0_0_1_n_n.contr.Idx) :
    (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

/-- The left operand's column coordinate is the contraction position. -/
theorem dot_lhs_1 (i : S1024x1024.Idx) (k : dot_S1024x1024_S1024x1024_S1024x1024_1_0_0_1_n_n.contr.Idx) :
    (dot_S1024x1024_S1024x1024_S1024x1024_1_0_0_1_n_n.lhsIdx i k 1).val = (k ⟨0, by decide⟩).val :=
  dot_S1024x1024_S1024x1024_S1024x1024_1_0_0_1_n_n.lhsIdx_val_of_single rfl i k

/-- The right operand's row coordinate is the contraction position. -/
theorem dot_rhs_0 (i : S1024x1024.Idx) (k : dot_S1024x1024_S1024x1024_S1024x1024_1_0_0_1_n_n.contr.Idx) :
    (dot_S1024x1024_S1024x1024_S1024x1024_1_0_0_1_n_n.rhsIdx i k 0).val = (k ⟨0, by decide⟩).val :=
  dot_S1024x1024_S1024x1024_S1024x1024_1_0_0_1_n_n.rhsIdx_val_of_single rfl i k

/-- The right operand's column coordinate at an output index is the output's column. -/
theorem dot_rhs_1 (i : S1024x1024.Idx) (k : dot_S1024x1024_S1024x1024_S1024x1024_1_0_0_1_n_n.contr.Idx) :
    (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The block product from the zero accumulator, at entry `(p, q)`: `Σ_kk a (p, kk) * b (kk, q)`. -/
theorem matmul_zero_apply (a b : FVec Ideal S1024x1024 .bf16) (p q : Fin 1024) :
    FloatOps.matmul dot_S1024x1024_S1024x1024_S1024x1024_1_0_0_1_n_n none a b
        (constant (F := Ideal) S1024x1024 .f32 0x00000000#32) (ix2 p q)
      = ∑ kk : Fin 1024, a (ix2 p kk) * b (ix2 kk q) := by
  rw [Ideal.matmul_constant_zero_apply,
    ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q)
      ((ValueIdx.contrEquiv1 dot_S1024x1024_S1024x1024_S1024x1024_1_0_0_1_n_n 1024 rfl rfl).symm k) = ix2 p k :=
    funext fun d => Fin.ext (by
      match d with
      | ⟨0, _⟩ => exact dot_lhs_0 _ _
      | ⟨1, _⟩ => exact (dot_lhs_1 _ _).trans hk)
  have er : dot_S1024x1024_S1024x1024_S1024x1024_1_0_0_1_n_n.rhsIdx (ix2 p q)
      ((ValueIdx.contrEquiv1 dot_S1024x1024_S1024x1024_S1024x1024_1_0_0_1_n_n 1024 rfl rfl).symm k) = ix2 k q :=
    funext fun d => Fin.ext (by
      match d with
      | ⟨0, _⟩ => exact (dot_rhs_0 _ _).trans hk
      | ⟨1, _⟩ => exact dot_rhs_1 _ _)
  rw [el, er]

/-- The first region's accumulating step, as a function of its three blocks. -/
theorem pay2_eq0 (v3 : Vec Ideal S1024x1024 .f32) (v4 v6 : Vec Ideal S1024x1024 .bf16) :
    k0_pay2 (F := Ideal) v3 v4 v6
      = addf v3 (matmul (φ₁ := .bf16) (φ₂ := .bf16) dot_S1024x1024_S1024x1024_S1024x1024_1_0_0_1_n_n none v4 v6
          (constant (F := Ideal) S1024x1024 .f32 0x00000000#32)) := by
  unfold k0_pay2
  simp only [shapeCast_self]

/-- The first region's accumulating step at entry `(p, q)`. -/
theorem pay2_apply0 (v3 : Vec Ideal S1024x1024 .f32) (v4 v6 : Vec Ideal S1024x1024 .bf16) (p q : Fin 1024) :
    k0_pay2 (F := Ideal) v3 v4 v6 (ix2 p q)
      = v3 (ix2 p q) + ∑ kk : Fin 1024, v4 (ix2 p kk) * v6 (ix2 kk q) := by
  rw [pay2_eq0]
  exact congrArg (v3 (ix2 p q) + ·) (matmul_zero_apply v4 v6 p q)

/-- The first region's initial accumulator is the zero block. -/
theorem pay1_apply0 (p q : Fin 1024) : k0_pay1 (F := Ideal) (ix2 p q) = 0 := by
  unfold k0_pay1
  simp only [shapeCast_self]
  exact Ideal.ofBits_zero_f32

/-- The second region's accumulating step, as a function of its three blocks. -/
theorem pay2_eq1 (v3 : Vec Ideal S1024x1024 .f32) (v4 v6 : Vec Ideal S1024x1024 .bf16) :
    k1_pay2 (F := Ideal) v3 v4 v6
      = addf v3 (matmul (φ₁ := .bf16) (φ₂ := .bf16) dot_S1024x1024_S1024x1024_S1024x1024_1_0_0_1_n_n none v4 v6
          (constant (F := Ideal) S1024x1024 .f32 0x00000000#32)) := by
  unfold k1_pay2
  simp only [shapeCast_self]

/-- The second region's accumulating step at entry `(p, q)`. -/
theorem pay2_apply1 (v3 : Vec Ideal S1024x1024 .f32) (v4 v6 : Vec Ideal S1024x1024 .bf16) (p q : Fin 1024) :
    k1_pay2 (F := Ideal) v3 v4 v6 (ix2 p q)
      = v3 (ix2 p q) + ∑ kk : Fin 1024, v4 (ix2 p kk) * v6 (ix2 kk q) := by
  rw [pay2_eq1]
  exact congrArg (v3 (ix2 p q) + ·) (matmul_zero_apply v4 v6 p q)

/-- The second region's initial accumulator is the zero block. -/
theorem pay1_apply1 (p q : Fin 1024) : k1_pay1 (F := Ideal) (ix2 p q) = 0 := by
  unfold k1_pay1
  simp only [shapeCast_self]
  exact Ideal.ofBits_zero_f32

end Cert.AccValue
-- ==== Proof.AccBlocks.lean ====
/-
  Where a block's entry sits in its array.  Both regions run a blocked matrix product on an 8 × 1 × 8 grid of
  64 points; point `t` works on row block `t / 8` at reduction step `t % 8`.  A window's block at a point is
  the rectangle of the array starting at (block index) × 1024 on each axis, so entry `(p, kk)` of the left
  operand's block is the array's entry `(1024 (t / 8) + p, 1024 (t % 8) + kk)`, and similarly for the right
  operand's and the result's blocks.
-/
import proofs.«103546_j7430293422438_2_alg».proof.Proof.Gen.KernelIdeal.Points
import proofs.«103546_j7430293422438_2_alg».proof.Proof.Gen.KernelIdeal.Launch
import Idealize.ShloMosaic.Lib.ValueIdx
import Idealize.ShloMosaic.Lib.Pipeline.Value

noncomputable section

namespace Cert.AccValue

open Cert.KernelIdeal Cert.KernelIdeal.Gen
open Idealize.ShloMosaic Idealize.ShloMosaic.TcCoe Idealize.SL.Sem
open Idealize.ShloMosaic.ValueIdx (ix2)

/-! ## Region 0 -/

/-- The block index maps of region 0, decided over the 64 grid points: at point `t` the left operand's block is
    `(t / 8, t % 8)`, the right operand's `(t % 8, 0)`, the result's `(t / 8, 0)`. -/
theorem idx_facts0 : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

theorem lt_pts0 (t : Fin cfg0.N) : t.val < 64 := lt_of_lt_of_eq t.isLt N_0

/-- Row `p` of row block `t / 8` is a row of the array. -/
theorem lt_row0 (t : Fin cfg0.N) (p : Fin 1024) : 1024 * (t.val / 8) + p.val < 8192 := by
  have := lt_pts0 t; have := p.isLt; omega

/-- Position `kk` of reduction block `t % 8` is a position of the contracted axis. -/
theorem lt_red0 (t : Fin cfg0.N) (kk : Fin 1024) : 1024 * (t.val % 8) + kk.val < 8192 := by
  have := kk.isLt; omega

/-- The left operand's block at point `t`, read at `(p, kk)`: the array at row `1024 (t / 8) + p`, column `1024 (t % 8) + kk`. -/
theorem read0_0 (c : Dev nD) (X : Buf (Elt Ideal) ((cfg0.win 0).arr.view.loc (c.tc : Thread nD τ)))
    (t : Fin cfg0.N) (p kk : Fin 1024) :
    ((cfg0.win 0).blk t).view.read (Elt Ideal) X (ix2 p kk)
      = X (ix2 (⟨1024 * (t.val / 8) + p.val, lt_row0 t p⟩ : Fin 8192) (⟨1024 * (t.val % 8) + kk.val, lt_red0 t kk⟩ : Fin 8192)) := by
  obtain ⟨e0, e1, -⟩ := idx_facts0 t
  show X (((cfg0.win 0).blk t).view.emb (ix2 p kk)) = _
  refine congrArg X (funext fun a => Fin.ext ?_)
  match a with
  | ⟨0, _⟩ => show win0_0.index t (0 : Fin 2) * 1024 + 1 * p.val = 1024 * (t.val / 8) + p.val; omega
  | ⟨1, _⟩ => show win0_0.index t (1 : Fin 2) * 1024 + 1 * kk.val = 1024 * (t.val % 8) + kk.val; omega

/-- The right operand's block at point `t`, read at `(kk, q)`: the array at row `1024 (t % 8) + kk`, column `q`. -/
theorem read0_1 (c : Dev nD) (Y : Buf (Elt Ideal) ((cfg0.win 1).arr.view.loc (c.tc : Thread nD τ)))
    (t : Fin cfg0.N) (kk q : Fin 1024) :
    ((cfg0.win 1).blk t).view.read (Elt Ideal) Y (ix2 kk q)
      = Y (ix2 (⟨1024 * (t.val % 8) + kk.val, lt_red0 t kk⟩ : Fin 8192) (⟨q.val, q.isLt⟩ : Fin 1024)) := by
  obtain ⟨-, -, e2, e3, -⟩ := idx_facts0 t
  show Y (((cfg0.win 1).blk t).view.emb (ix2 kk q)) = _
  refine congrArg Y (funext fun a => Fin.ext ?_)
  match a with
  | ⟨0, _⟩ => show win0_1.index t (0 : Fin 2) * 1024 + 1 * kk.val = 1024 * (t.val % 8) + kk.val; omega
  | ⟨1, _⟩ => show win0_1.index t (1 : Fin 2) * 1024 + 1 * q.val = q.val; omega

/-- The result's block at point `t`, read at `(p, q)`: the array at row `1024 (t / 8) + p`, column `q`. -/
theorem read0_2 (c : Dev nD) (G : Buf (Elt Ideal) ((cfg0.win 2).arr.view.loc (c.tc : Thread nD τ)))
    (t : Fin cfg0.N) (p q : Fin 1024) :
    ((cfg0.win 2).blk t).view.read (Elt Ideal) G (ix2 p q)
      = G (ix2 (⟨1024 * (t.val / 8) + p.val, lt_row0 t p⟩ : Fin 8192) (⟨q.val, q.isLt⟩ : Fin 1024)) := by
  obtain ⟨-, -, -, -, e4, e5⟩ := idx_facts0 t
  show G (((cfg0.win 2).blk t).view.emb (ix2 p q)) = _
  refine congrArg G (funext fun a => Fin.ext ?_)
  match a with
  | ⟨0, _⟩ => show win0_2.index t (0 : Fin 2) * 1024 + 1 * p.val = 1024 * (t.val / 8) + p.val; omega
  | ⟨1, _⟩ => show win0_2.index t (1 : Fin 2) * 1024 + 1 * q.val = q.val; omega

/-! ## Region 1 -/

/-- The block index maps of region 1, decided over the 64 grid points: at point `t` the left operand's block is
    `(t / 8, t % 8)`, the right operand's `(t % 8, 0)`, the result's `(t / 8, 0)`. -/
theorem idx_facts1 : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

theorem lt_pts1 (t : Fin cfg1.N) : t.val < 64 := lt_of_lt_of_eq t.isLt N_1

/-- Row `p` of row block `t / 8` is a row of the array. -/
theorem lt_row1 (t : Fin cfg1.N) (p : Fin 1024) : 1024 * (t.val / 8) + p.val < 8192 := by
  have := lt_pts1 t; have := p.isLt; omega

/-- Position `kk` of reduction block `t % 8` is a position of the contracted axis. -/
theorem lt_red1 (t : Fin cfg1.N) (kk : Fin 1024) : 1024 * (t.val % 8) + kk.val < 8192 := by
  have := kk.isLt; omega

/-- The left operand's block at point `t`, read at `(p, kk)`: the array at row `1024 (t / 8) + p`, column `1024 (t % 8) + kk`. -/
theorem read1_0 (c : Dev nD) (X : Buf (Elt Ideal) ((cfg1.win 0).arr.view.loc (c.tc : Thread nD τ)))
    (t : Fin cfg1.N) (p kk : Fin 1024) :
    ((cfg1.win 0).blk t).view.read (Elt Ideal) X (ix2 p kk)
      = X (ix2 (⟨1024 * (t.val / 8) + p.val, lt_row1 t p⟩ : Fin 8192) (⟨1024 * (t.val % 8) + kk.val, lt_red1 t kk⟩ : Fin 8192)) := by
  obtain ⟨e0, e1, -⟩ := idx_facts1 t
  show X (((cfg1.win 0).blk t).view.emb (ix2 p kk)) = _
  refine congrArg X (funext fun a => Fin.ext ?_)
  match a with
  | ⟨0, _⟩ => show win1_0.index t (0 : Fin 2) * 1024 + 1 * p.val = 1024 * (t.val / 8) + p.val; omega
  | ⟨1, _⟩ => show win1_0.index t (1 : Fin 2) * 1024 + 1 * kk.val = 1024 * (t.val % 8) + kk.val; omega

/-- The right operand's block at point `t`, read at `(kk, q)`: the array at row `1024 (t % 8) + kk`, column `q`. -/
theorem read1_1 (c : Dev nD) (Y : Buf (Elt Ideal) ((cfg1.win 1).arr.view.loc (c.tc : Thread nD τ)))
    (t : Fin cfg1.N) (kk q : Fin 1024) :
    ((cfg1.win 1).blk t).view.read (Elt Ideal) Y (ix2 kk q)
      = Y (ix2 (⟨1024 * (t.val % 8) + kk.val, lt_red1 t kk⟩ : Fin 8192) (⟨q.val, q.isLt⟩ : Fin 1024)) := by
  obtain ⟨-, -, e2, e3, -⟩ := idx_facts1 t
  show Y (((cfg1.win 1).blk t).view.emb (ix2 kk q)) = _
  refine congrArg Y (funext fun a => Fin.ext ?_)
  match a with
  | ⟨0, _⟩ => show win1_1.index t (0 : Fin 2) * 1024 + 1 * kk.val = 1024 * (t.val % 8) + kk.val; omega
  | ⟨1, _⟩ => show win1_1.index t (1 : Fin 2) * 1024 + 1 * q.val = q.val; omega

/-- The result's block at point `t`, read at `(p, q)`: the array at row `1024 (t / 8) + p`, column `q`. -/
theorem read1_2 (c : Dev nD) (G : Buf (Elt Ideal) ((cfg1.win 2).arr.view.loc (c.tc : Thread nD τ)))
    (t : Fin cfg1.N) (p q : Fin 1024) :
    ((cfg1.win 2).blk t).view.read (Elt Ideal) G (ix2 p q)
      = G (ix2 (⟨1024 * (t.val / 8) + p.val, lt_row1 t p⟩ : Fin 8192) (⟨q.val, q.isLt⟩ : Fin 1024)) := by
  obtain ⟨-, -, -, -, e4, e5⟩ := idx_facts1 t
  show G (((cfg1.win 2).blk t).view.emb (ix2 p q)) = _
  refine congrArg G (funext fun a => Fin.ext ?_)
  match a with
  | ⟨0, _⟩ => show win1_2.index t (0 : Fin 2) * 1024 + 1 * p.val = 1024 * (t.val / 8) + p.val; omega
  | ⟨1, _⟩ => show win1_2.index t (1 : Fin 2) * 1024 + 1 * q.val = q.val; omega

end Cert.AccValue
-- ==== Proof.LibSumBlocks.lean ====
/-
  Two facts about sums cut into consecutive blocks.

  * A sum over `range (J * K)` is the sum over `J` consecutive blocks of length `K`.
  * An accumulator that is restarted at every multiple of 8 and otherwise adds one term per step holds, after
    step `n`, the sum of the terms of the steps `8 (n / 8), …, n` of its group of 8.
-/
import Mathlib.Algebra.BigOperators.Group.Finset.Basic
import Mathlib.Algebra.BigOperators.Fin

namespace Cert.Lib.SumBlocks

open scoped BigOperators

/-- A sum over `J` consecutive blocks of length `K` is the sum over `range (J * K)`. -/
theorem sum_range_blocks {M : Type*} [AddCommMonoid M] (K : ℕ) (g : ℕ → M) :
    ∀ J : ℕ, ∑ s ∈ Finset.range J, ∑ kk ∈ Finset.range K, g (K * s + kk) = ∑ k ∈ Finset.range (J * K), g k
  | 0 => by simp
  | J + 1 => by
    rw [Finset.sum_range_succ, sum_range_blocks K g J, add_mul, one_mul, Finset.sum_range_add, Nat.mul_comm K J]

/-- An accumulator `a` that at each step `n` with `n % 8 = 0` is set to `0 + f (n / 8) (n % 8)` and at every other
    step adds `f (n / 8) (n % 8)` to its previous value holds `Σ_{s ≤ n % 8} f (n / 8) s` after step `n`. -/
theorem acc_steps {M : Type*} [AddCommMonoid M] (N : ℕ) (a : ℕ → M) (f : ℕ → ℕ → M)
    (h0 : ∀ n, n < N → n % 8 = 0 → a n = 0 + f (n / 8) (n % 8))
    (hs : ∀ n, n < N → n % 8 ≠ 0 → a n = a (n - 1) + f (n / 8) (n % 8)) :
    ∀ n, n < N → a n = ∑ s ∈ Finset.range (n % 8 + 1), f (n / 8) s := by
  intro n
  induction n with
  | zero =>
    intro h
    rw [h0 0 h rfl, zero_add]
    exact (Finset.sum_range_one _).symm
  | succ n ih =>
    intro h
    by_cases hm : (n + 1) % 8 = 0
    · rw [h0 _ h hm, zero_add, hm]
      exact (Finset.sum_range_one _).symm
    · have hn : n < N := by omega
      have e1 : n / 8 = (n + 1) / 8 := by omega
      have e2 : n % 8 + 1 = (n + 1) % 8 := by omega
      rw [hs _ h hm, Nat.add_sub_cancel, ih hn, e1, e2, Finset.sum_range_succ]

/-- After the last step of a group of 8, with each step's term a block of length `K` of `g (n / 8)`, the
    accumulator holds the whole sum of `g (n / 8)` over `range T`, `T = 8 * K`. -/
theorem acc_last {M : Type*} [AddCommMonoid M] (N K T : ℕ) (hT : 8 * K = T) (a : ℕ → M) (g : ℕ → ℕ → M)
    (h0 : ∀ n, n < N → n % 8 = 0 → a n = 0 + ∑ kk ∈ Finset.range K, g (n / 8) (K * (n % 8) + kk))
    (hs : ∀ n, n < N → n % 8 ≠ 0 → a n = a (n - 1) + ∑ kk ∈ Finset.range K, g (n / 8) (K * (n % 8) + kk))
    (n : ℕ) (hn : n < N) (h7 : n % 8 = 7) : a n = ∑ k ∈ Finset.range T, g (n / 8) k := by
  rw [acc_steps N a (fun i s => ∑ kk ∈ Finset.range K, g i (K * s + kk)) h0 hs n hn, h7,
    sum_range_blocks K (g (n / 8)) 8, hT]

end Cert.Lib.SumBlocks
-- ==== Proof.AccRun.lean ====
/-
  The accumulation over a row block.  Within row block `i` the eight grid points `8 i, …, 8 i + 7` add, one
  after the other, the products of the eight 1024-wide blocks of the contracted axis; the first starts from the
  zero block.  After the last point the accumulator's entry `(p, q)` is therefore the whole sum over the 8192
  positions of the contracted axis: `Σ_k X (1024 i + p, k) * Y (k, q)`.  Only `0 + x = x` and the splitting of a
  sum into consecutive blocks are used.
-/
import proofs.«103546_j7430293422438_2_alg».proof.Proof.AccPayload
import proofs.«103546_j7430293422438_2_alg».proof.Proof.AccBlocks
import proofs.«103546_j7430293422438_2_alg».proof.Proof.LibSumBlocks

noncomputable section

namespace Cert.AccValue

open Cert.KernelIdeal Cert.KernelIdeal.Gen
open Idealize.ShloMosaic Idealize.ShloMosaic.TcCoe Idealize.SL.Sem
open Idealize.ShloMosaic.ValueIdx (ix2)
open scoped BigOperators

/-- A matrix's entry as a total function of natural-number coordinates (0 outside the matrix). -/
def entry2 {n0 n1 : ℕ} (X : (⟨2, ![n0, n1]⟩ : Shape).Idx → EReal) (r k : ℕ) : EReal :=
  if h : r < n0 ∧ k < n1 then X (ix2 ⟨r, h.1⟩ ⟨k, h.2⟩) else 0

theorem entry2_eq {n0 n1 : ℕ} (X : (⟨2, ![n0, n1]⟩ : Shape).Idx → EReal) (r k : ℕ) (hr : r < n0) (hk : k < n1) :
    entry2 X r k = X (ix2 ⟨r, hr⟩ ⟨k, hk⟩) := by
  unfold entry2
  rw [dif_pos ⟨hr, hk⟩]

/-- The accumulation, over plain functions: `A n` is the accumulator block after point `n`, `L n` and `R n` the
    blocks of the two operands read at point `n` (block `(n / 8, n % 8)` of `Xf`, block `(n % 8, 0)` of `Yf`). -/
theorem acc_last_core (N : ℕ) (Xf : (⟨2, ![8192, 8192]⟩ : Shape).Idx → EReal)
    (Yf : (⟨2, ![8192, 1024]⟩ : Shape).Idx → EReal)
    (A L R : ℕ → (⟨2, ![1024, 1024]⟩ : Shape).Idx → EReal)
    (hL : ∀ n, n < N → ∀ p kk : Fin 1024,
      L n (ix2 p kk) = entry2 Xf (1024 * (n / 8) + p.val) (1024 * (n % 8) + kk.val))
    (hR : ∀ n, n < N → ∀ kk q : Fin 1024, R n (ix2 kk q) = entry2 Yf (1024 * (n % 8) + kk.val) q.val)
    (h0 : ∀ n, n < N → n % 8 = 0 → ∀ p q : Fin 1024,
      A n (ix2 p q) = 0 + ∑ kk : Fin 1024, L n (ix2 p kk) * R n (ix2 kk q))
    (hs : ∀ n, n < N → n % 8 ≠ 0 → ∀ p q : Fin 1024,
      A n (ix2 p q) = A (n - 1) (ix2 p q) + ∑ kk : Fin 1024, L n (ix2 p kk) * R n (ix2 kk q))
    (n : ℕ) (hn : n < N) (h7 : n % 8 = 7) (hrow : n / 8 < 8) (p q : Fin 1024) :
    A n (ix2 p q)
      = ∑ k : Fin 8192, Xf (ix2 (⟨1024 * (n / 8) + p.val, by have := p.isLt; omega⟩ : Fin 8192) k) * Yf (ix2 k q) := by
  have blk : ∀ m, m < N → ∑ kk : Fin 1024, L m (ix2 p kk) * R m (ix2 kk q)
      = ∑ kk ∈ Finset.range 1024, entry2 Xf (1024 * (m / 8) + p.val) (1024 * (m % 8) + kk)
          * entry2 Yf (1024 * (m % 8) + kk) q.val := by
    intro m hm
    rw [Finset.sum_range]
    exact Finset.sum_congr rfl fun kk _ => by rw [hL m hm, hR m hm]
  have key : A n (ix2 p q)
      = ∑ k ∈ Finset.range 8192, entry2 Xf (1024 * (n / 8) + p.val) k * entry2 Yf k q.val :=
    Cert.Lib.SumBlocks.acc_last N 1024 8192 (by norm_num) (fun m => A m (ix2 p q))
      (fun i k => entry2 Xf (1024 * i + p.val) k * entry2 Yf k q.val)
      (fun m hm h => by beta_reduce; rw [h0 m hm h p q, blk m hm])
      (fun m hm h => by beta_reduce; rw [hs m hm h p q, blk m hm]) n hn h7
  rw [key, Finset.sum_range]
  refine Finset.sum_congr rfl fun k _ => ?_
  rw [entry2_eq Xf _ _ (by have := p.isLt; omega) k.isLt, entry2_eq Yf _ _ k.isLt q.isLt]

/-- Region 0: a sequence of accumulator blocks that starts each row block from the zero block and adds one block
    product per reduction step holds, after the last step of the row block, the full products of the row block's rows of
    the left array with the right array. -/
theorem acc_last0 (c : Dev nD)
    (X : S8192x8192.Idx → EReal) (Y : S8192x1024.Idx → EReal)
    (S : (n : ℕ) → n < cfg0.N → Vec Ideal S1024x1024 .f32)
    (hA : ∀ t : Fin cfg0.N, t.val % 8 = 0 → S t.val t.isLt
        = k0_pay2 (F := Ideal) (k0_pay1 (F := Ideal)) (((cfg0.win 0).blk t).view.read (Elt Ideal) X)
            (((cfg0.win 1).blk t).view.read (Elt Ideal) Y))
    (hB : ∀ (t : Fin cfg0.N) (h : t.val % 8 ≠ 0), S t.val t.isLt
        = k0_pay2 (F := Ideal) (S (t.val - 1) (Nat.lt_of_le_of_lt (Nat.sub_le _ _) t.isLt))
            (((cfg0.win 0).blk t).view.read (Elt Ideal) X) (((cfg0.win 1).blk t).view.read (Elt Ideal) Y))
    (t : Fin cfg0.N) (ht : t.val % 8 = 7) (p q : Fin 1024) :
    S t.val t.isLt (ix2 p q)
      = ∑ k : Fin 8192, X (ix2 (⟨1024 * (t.val / 8) + p.val, lt_row0 t p⟩ : Fin 8192) k)
          * Y (ix2 k (⟨q.val, q.isLt⟩ : Fin 1024)) := by
  have h := acc_last_core cfg0.N X Y
    (fun n => if h : n < cfg0.N then S n h else fun _ => 0)
    (fun n => if h : n < cfg0.N then ((cfg0.win 0).blk ⟨n, h⟩).view.read (Elt Ideal) X else fun _ => 0)
    (fun n => if h : n < cfg0.N then ((cfg0.win 1).blk ⟨n, h⟩).view.read (Elt Ideal) Y else fun _ => 0)
    (fun n hn p kk => by
      beta_reduce
      rw [dif_pos hn]
      exact (read0_0 c X ⟨n, hn⟩ p kk).trans (entry2_eq X _ _ _ _).symm)
    (fun n hn kk q => by
      beta_reduce
      rw [dif_pos hn]
      exact (read0_1 c Y ⟨n, hn⟩ kk q).trans (entry2_eq Y _ _ _ _).symm)
    (fun n hn h0 p q => by
      simp only [dif_pos hn]
      refine (congrFun (hA ⟨n, hn⟩ h0) (ix2 p q)).trans ((pay2_apply0 _ _ _ p q).trans ?_)
      rw [pay1_apply0])
    (fun n hn h0 p q => by
      have hn1 : n - 1 < cfg0.N := Nat.lt_of_le_of_lt (Nat.sub_le _ _) hn
      simp only [dif_pos hn, dif_pos hn1]
      exact (congrFun (hB ⟨n, hn⟩ h0) (ix2 p q)).trans (pay2_apply0 _ _ _ p q))
    t.val t.isLt ht (by have := lt_pts0 t; omega) p q
  simp only [dif_pos t.isLt] at h
  exact h

/-- Region 1: a sequence of accumulator blocks that starts each row block from the zero block and adds one block
    product per reduction step holds, after the last step of the row block, the full products of the row block's rows of
    the left array with the right array. -/
theorem acc_last1 (c : Dev nD)
    (X : S8192x8192.Idx → EReal) (Y : S8192x1024.Idx → EReal)
    (S : (n : ℕ) → n < cfg1.N → Vec Ideal S1024x1024 .f32)
    (hA : ∀ t : Fin cfg1.N, t.val % 8 = 0 → S t.val t.isLt
        = k1_pay2 (F := Ideal) (k1_pay1 (F := Ideal)) (((cfg1.win 0).blk t).view.read (Elt Ideal) X)
            (((cfg1.win 1).blk t).view.read (Elt Ideal) Y))
    (hB : ∀ (t : Fin cfg1.N) (h : t.val % 8 ≠ 0), S t.val t.isLt
        = k1_pay2 (F := Ideal) (S (t.val - 1) (Nat.lt_of_le_of_lt (Nat.sub_le _ _) t.isLt))
            (((cfg1.win 0).blk t).view.read (Elt Ideal) X) (((cfg1.win 1).blk t).view.read (Elt Ideal) Y))
    (t : Fin cfg1.N) (ht : t.val % 8 = 7) (p q : Fin 1024) :
    S t.val t.isLt (ix2 p q)
      = ∑ k : Fin 8192, X (ix2 (⟨1024 * (t.val / 8) + p.val, lt_row1 t p⟩ : Fin 8192) k)
          * Y (ix2 k (⟨q.val, q.isLt⟩ : Fin 1024)) := by
  have h := acc_last_core cfg1.N X Y
    (fun n => if h : n < cfg1.N then S n h else fun _ => 0)
    (fun n => if h : n < cfg1.N then ((cfg1.win 0).blk ⟨n, h⟩).view.read (Elt Ideal) X else fun _ => 0)
    (fun n => if h : n < cfg1.N then ((cfg1.win 1).blk ⟨n, h⟩).view.read (Elt Ideal) Y else fun _ => 0)
    (fun n hn p kk => by
      beta_reduce
      rw [dif_pos hn]
      exact (read1_0 c X ⟨n, hn⟩ p kk).trans (entry2_eq X _ _ _ _).symm)
    (fun n hn kk q => by
      beta_reduce
      rw [dif_pos hn]
      exact (read1_1 c Y ⟨n, hn⟩ kk q).trans (entry2_eq Y _ _ _ _).symm)
    (fun n hn h0 p q => by
      simp only [dif_pos hn]
      refine (congrFun (hA ⟨n, hn⟩ h0) (ix2 p q)).trans ((pay2_apply1 _ _ _ p q).trans ?_)
      rw [pay1_apply1])
    (fun n hn h0 p q => by
      have hn1 : n - 1 < cfg1.N := Nat.lt_of_le_of_lt (Nat.sub_le _ _) hn
      simp only [dif_pos hn, dif_pos hn1]
      exact (congrFun (hB ⟨n, hn⟩ h0) (ix2 p q)).trans (pay2_apply1 _ _ _ p q))
    t.val t.isLt ht (by have := lt_pts1 t; omega) p q
  simp only [dif_pos t.isLt] at h
  exact h

end Cert.AccValue
-- ==== Proof.AccArray.lean ====
/-
  From blocks to the array.  The result window's block at point `t` is the rectangle of rows
  `1024 (t / 8), …, 1024 (t / 8) + 1023` and all 1024 columns; it is written back at the last reduction step of
  each row block (`t % 8 = 7`).  The eight written blocks tile the 8192 × 1024 result, so if each is the
  corresponding block of one function `G`, the array ends holding `G`.
-/
import proofs.«103546_j7430293422438_2_alg».proof.Proof.AccBlocks

noncomputable section

namespace Cert.AccValue

open Cert.KernelIdeal Cert.KernelIdeal.Gen
open Idealize.ShloMosaic Idealize.ShloMosaic.TcCoe
open Idealize.SL Idealize.SL.RA Idealize.SL.Sem
open Idealize.ShloMosaic.Pipeline (Dat)

/-! ## Region 0 -/

/-- An index of the result array is in point `t`'s block iff each coordinate is in the block's range on its axis. -/
theorem mem_blk0_2 (t : Fin cfg0.N) (i : S8192x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v37).slice (win0_2.rect t)).set ↔ _
  rw [View.set_slice_whole, Rect.mem_set_unit]
  exact Iff.rfl

/-- Every index of the result array lies in the block written back at the last point of its row block:
    row `r` is covered by point `8 (r / 1024) + 7`. -/
theorem cover0 (i : S8192x1024.Idx) :
    ∃ t : Fin cfg0.N, (cfg0.win 2).flush t = true ∧ i ∈ ((cfg0.win 2).blk t).view.set := by
  have hi0 : (i 0).val < 8192 := (i 0).isLt
  have hi1 : (i 1).val < 1024 := (i 1).isLt
  have hN : 8 * ((i 0).val / 1024) + 7 < cfg0.N := lt_of_lt_of_eq (show _ < 64 by omega) N_0.symm
  have tv : (⟨8 * ((i 0).val / 1024) + 7, hN⟩ : Fin cfg0.N).val = 8 * ((i 0).val / 1024) + 7 := rfl
  obtain ⟨-, -, -, -, e4, e5⟩ := idx_facts0 ⟨8 * ((i 0).val / 1024) + 7, hN⟩
  refine ⟨⟨8 * ((i 0).val / 1024) + 7, hN⟩, (flush0_2 _).2 (by omega), ?_⟩
  rw [mem_blk0_2]
  intro a
  match a with
  | ⟨0, _⟩ =>
    show win0_2.index ⟨8 * ((i 0).val / 1024) + 7, hN⟩ (0 : Fin 2) * 1024 ≤ (i 0).val
      ∧ (i 0).val < win0_2.index ⟨8 * ((i 0).val / 1024) + 7, hN⟩ (0 : Fin 2) * 1024 + 1024
    omega
  | ⟨1, _⟩ =>
    show win0_2.index ⟨8 * ((i 0).val / 1024) + 7, hN⟩ (1 : Fin 2) * 1024 ≤ (i 1).val
      ∧ (i 1).val < win0_2.index ⟨8 * ((i 0).val / 1024) + 7, hN⟩ (1 : Fin 2) * 1024 + 1024
    omega

/-- From blocks to the array: if every point that writes back (`t % 8 = 7`) writes back block `t` of `G`, the
    result array ends holding `G`. -/
theorem arr_of_blocks0 {Ix : Type} [DecidableEq Ix] {U : Type} [URA U] {Lvl : Type} [Preorder Lvl]
    (c : Dev nD) (dat : Dat τ (Elt Ideal) Ix ℕ U Lvl cfg0 c)
    (G : Buf (Elt Ideal) ((cfg0.win 2).arr.view.loc (c.tc : Thread nD τ)))
    (hfl : ∀ t : Fin cfg0.N, t.val % 8 = 7 →
      (cfg0.win 2).cut (grid0.coords t) (dat.after 2 t) = ((cfg0.win 2).blk t).view.read (Elt Ideal) G) :
    dat.arrAt 2 cfg0.N = G :=
  dat.arrAt_eq_of_cover 2 G (fun t hf => hfl t ((flush0_2 t).1 hf)) cover0

/-! ## Region 1 -/

/-- An index of the result array is in point `t`'s block iff each coordinate is in the block's range on its axis. -/
theorem mem_blk1_2 (t : Fin cfg1.N) (i : S8192x1024.Idx) :
    i ∈ ((cfg1.win 2).blk t).view.set ↔ ∀ a : Fin 2, win1_2.index t a * S1024x1024.size a ≤ (i a).val
      ∧ (i a).val < win1_2.index t a * S1024x1024.size a + S1024x1024.size a := by
  show i ∈ ((View.whole main_v39).slice (win1_2.rect t)).set ↔ _
  rw [View.set_slice_whole, Rect.mem_set_unit]
  exact Iff.rfl

/-- Every index of the result array lies in the block written back at the last point of its row block:
    row `r` is covered by point `8 (r / 1024) + 7`. -/
theorem cover1 (i : S8192x1024.Idx) :
    ∃ t : Fin cfg1.N, (cfg1.win 2).flush t = true ∧ i ∈ ((cfg1.win 2).blk t).view.set := by
  have hi0 : (i 0).val < 8192 := (i 0).isLt
  have hi1 : (i 1).val < 1024 := (i 1).isLt
  have hN : 8 * ((i 0).val / 1024) + 7 < cfg1.N := lt_of_lt_of_eq (show _ < 64 by omega) N_1.symm
  have tv : (⟨8 * ((i 0).val / 1024) + 7, hN⟩ : Fin cfg1.N).val = 8 * ((i 0).val / 1024) + 7 := rfl
  obtain ⟨-, -, -, -, e4, e5⟩ := idx_facts1 ⟨8 * ((i 0).val / 1024) + 7, hN⟩
  refine ⟨⟨8 * ((i 0).val / 1024) + 7, hN⟩, (flush1_2 _).2 (by omega), ?_⟩
  rw [mem_blk1_2]
  intro a
  match a with
  | ⟨0, _⟩ =>
    show win1_2.index ⟨8 * ((i 0).val / 1024) + 7, hN⟩ (0 : Fin 2) * 1024 ≤ (i 0).val
      ∧ (i 0).val < win1_2.index ⟨8 * ((i 0).val / 1024) + 7, hN⟩ (0 : Fin 2) * 1024 + 1024
    omega
  | ⟨1, _⟩ =>
    show win1_2.index ⟨8 * ((i 0).val / 1024) + 7, hN⟩ (1 : Fin 2) * 1024 ≤ (i 1).val
      ∧ (i 1).val < win1_2.index ⟨8 * ((i 0).val / 1024) + 7, hN⟩ (1 : Fin 2) * 1024 + 1024
    omega

/-- From blocks to the array: if every point that writes back (`t % 8 = 7`) writes back block `t` of `G`, the
    result array ends holding `G`. -/
theorem arr_of_blocks1 {Ix : Type} [DecidableEq Ix] {U : Type} [URA U] {Lvl : Type} [Preorder Lvl]
    (c : Dev nD) (dat : Dat τ (Elt Ideal) Ix ℕ U Lvl cfg1 c)
    (G : Buf (Elt Ideal) ((cfg1.win 2).arr.view.loc (c.tc : Thread nD τ)))
    (hfl : ∀ t : Fin cfg1.N, t.val % 8 = 7 →
      (cfg1.win 2).cut (grid1.coords t) (dat.after 2 t) = ((cfg1.win 2).blk t).view.read (Elt Ideal) G) :
    dat.arrAt 2 cfg1.N = G :=
  dat.arrAt_eq_of_cover 2 G (fun t hf => hfl t ((flush1_2 t).1 hf)) cover1

end Cert.AccValue
-- ==== Proof.KernelValue.lean ====
/-
  The value of each of the kernel's two blocked matrix products.  A region accumulates, row block by row block,
  the products of the 1024-wide blocks of the contracted axis and writes each finished row block back; the
  written row blocks tile the result.  So the result array ends holding the plain matrix product of the two
  operand arrays, entry `(r, q)` being `Σ_k X (r, k) * Y (k, q)`.
-/
import proofs.«103546_j7430293422438_2_alg».proof.Proof.KernelIdeal.Pieces0
import proofs.«103546_j7430293422438_2_alg».proof.Proof.KernelIdeal.Pieces1
import proofs.«103546_j7430293422438_2_alg».proof.Proof.AccRun
import proofs.«103546_j7430293422438_2_alg».proof.Proof.AccArray
import proofs.«103546_j7430293422438_2_alg».proof.Proof.MatG

noncomputable section

namespace Cert.KernelValue

open Cert.KernelIdeal Cert.KernelIdeal.Gen Cert.KernelIdeal.Hand Cert.AccValue Cert.MatG
open Idealize.ShloMosaic Idealize.ShloMosaic.TcCoe
open Idealize.SL Idealize.SL.RA Idealize.SL.Sem
open Idealize.ShloMosaic.Pipeline (Dat)
open Idealize.ShloMosaic.ValueIdx (ix2 eq_ix2)
open scoped BigOperators

/-- Region 0: after the run of the pipeline the result array holds the matrix product of the two operand arrays. -/
theorem region0_val (V : (c : Dev nD) → (b : Ref sig .tc) → Buf (Elt Ideal) ((c : Thread nD τ).loc b)) (c : Dev nD) :
    ((dat0 V c).arrAt 2 cfg0.N : S8192x1024.Idx → EReal) = matG ((dat0 V c).A 0) ((dat0 V c).A 1) := by
  refine arr_of_blocks0 c (dat0 V c) (matG ((dat0 V c).A 0) ((dat0 V c).A 1)) (fun t ht => ?_)
  rw [after0_2, out0_last V c t ht]
  funext y
  obtain ⟨p, q, rfl⟩ : ∃ (p q : Fin 1024), y = ix2 p q := ⟨y 0, y 1, eq_ix2 y⟩
  refine Eq.trans ?_ (read0_2 c (matG ((dat0 V c).A 0) ((dat0 V c).A 1)) t p q).symm
  rw [matG_mk, A_eq0, A_eq0]
  show (outsAt0 V c t.val t.isLt).2 (ix2 p q) = _
  exact acc_last0 c (V c (Pipeline.arrRef spec0 0)) (V c (Pipeline.arrRef spec0 1))
    (fun n hn => (outsAt0 V c n hn).2) (fun t h0 => acc0_first V c t h0) (fun t h => acc0_next V c t h) t ht p q

/-- Region 1: after the run of the pipeline the result array holds the matrix product of the two operand arrays. -/
theorem region1_val (V : (c : Dev nD) → (b : Ref sig .tc) → Buf (Elt Ideal) ((c : Thread nD τ).loc b)) (c : Dev nD) :
    ((dat1 V c).arrAt 2 cfg1.N : S8192x1024.Idx → EReal) = matG ((dat1 V c).A 0) ((dat1 V c).A 1) := by
  refine arr_of_blocks1 c (dat1 V c) (matG ((dat1 V c).A 0) ((dat1 V c).A 1)) (fun t ht => ?_)
  rw [after1_2, out1_last V c t ht]
  funext y
  obtain ⟨p, q, rfl⟩ : ∃ (p q : Fin 1024), y = ix2 p q := ⟨y 0, y 1, eq_ix2 y⟩
  refine Eq.trans ?_ (read1_2 c (matG ((dat1 V c).A 0) ((dat1 V c).A 1)) t p q).symm
  rw [matG_mk, A_eq1, A_eq1]
  show (outsAt1 V c t.val t.isLt).2 (ix2 p q) = _
  exact acc_last1 c (V c (Pipeline.arrRef spec1 0)) (V c (Pipeline.arrRef spec1 1))
    (fun n hn => (outsAt1 V c n hn).2) (fun t h0 => acc1_first V c t h0) (fun t h => acc1_next V c t h) t ht p q

end Cert.KernelValue
-- ==== Proof.Bridge.lean ====
/-
  The algebraic claim, assembled. Both programs run; the kernel's result buffer ends holding C · (adj · x) with adj
  the kernel's normalised adjacency matrix, the reference's result is (C · adjʳ) · x with adjʳ the reference's; for
  finite arguments the two adjacency matrices are one real matrix and the two products reassociate entry by entry.
-/
import proofs.«103546_j7430293422438_2_alg».proof.Defs
import proofs.«103546_j7430293422438_2_alg».proof.Proof.Gen.KernelIdeal
import proofs.«103546_j7430293422438_2_alg».proof.Proof.Gen.ReferenceIdeal
import proofs.«103546_j7430293422438_2_alg».proof.Proof.Gen.Pre_finite_inputs
import proofs.«103546_j7430293422438_2_alg».proof.Proof.Gen.ReferenceIdeal.Run
import proofs.«103546_j7430293422438_2_alg».proof.Proof.Gen.ReferenceIdeal.Read
import proofs.«103546_j7430293422438_2_alg».proof.Proof.KernelIdeal.Frame
import proofs.«103546_j7430293422438_2_alg».proof.Proof.MatG
import proofs.«103546_j7430293422438_2_alg».proof.Proof.Chain
import proofs.«103546_j7430293422438_2_alg».proof.Proof.Finite
import proofs.«103546_j7430293422438_2_alg».proof.Proof.Adjacency
import proofs.«103546_j7430293422438_2_alg».proof.Proof.KernelChain
import proofs.«103546_j7430293422438_2_alg».proof.Proof.KernelValue

set_option maxRecDepth 16384

noncomputable section

open scoped BigOperators

namespace Cert.Bridge

open Idealize.ShloMosaic Idealize.ShloMosaic.TcCoe Idealize.SL.Sem Idealize.ShloMosaic.ValueIdx
open Cert.KernelIdeal Cert.KernelIdeal.Hand

/-- At the ideal values, from memories that agree on finite arguments, the kernel and the reference both run, end
    with equal results, and leave the arguments unchanged. -/
theorem algebraic : Cert.algebraic_KernelIdeal_ReferenceIdeal := by
  intro m ρ m' ρ' hpre hagree
  refine ⟨fun c => W6 m ρ c (Proc.devRef .tc main_v39), ?_, ?_⟩
  · exact (θ_run Cert.KernelIdeal.defs _ _).mono (fun r h c => ⟨h c _ (mem_uc main_v39 (by decide)),
        (h c _ (mem_uc main_arg0 (by decide))).trans (W6_main_arg0 m ρ c),
        (h c _ (mem_uc main_arg1 (by decide))).trans (W6_main_arg1 m ρ c),
        (h c _ (mem_uc main_arg2 (by decide))).trans (W6_main_arg2 m ρ c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v24_eq, (hagree c).1, (hagree c).2.1, (hagree c).2.2]
    obtain ⟨hA0, hA1, hA2⟩ := Cert.Finite.real_of_pre _ _ _ (hpre c)
    show (Cert.ReferenceIdeal.Read.val_main_v24 (F := Ideal) _ _ _ : S8192x1024.Idx → EReal)
      = (W6 m ρ c (Proc.devRef .tc main_v39) : S8192x1024.Idx → EReal)
    funext idx
    rw [eq_ix2 idx]
    exact (Cert.Chain.ref_eq_chain _ _ _ _ (Cert.Adjacency.adjK_eq_ref _ hA2).symm hA0 hA1
        (Cert.Adjacency.adjK_real _ hA2) (idx 0) (idx 1)).trans
      ((congrFun (Cert.KernelChain.kernel_mat m ρ c (Cert.KernelValue.region0_val _ c) (Cert.KernelValue.region1_val _ c)) (ix2 (idx 0) (idx 1))).trans
        (Cert.MatG.matG_matG_ix2 _ _ _ (idx 0) (idx 1))).symm

end Cert.Bridge

end
-- ==== Proof.lean ====
/-
  The kernel computes y = C · (adj · x) and the reference y = (C · adjn) · x, for x : [8192, 1024], C, A : [8192, 8192],
  where, with S = (A + Aᵀ) · ½, the reference normalizes S + I by the inverse square roots of its row sums,
  adjn = (dinv_i · (S + I)_ij) · dinv_j, and the kernel builds the same matrix without forming I: the row sums are
  those of S plus one, the scaled matrix is (dinv_i · S_ij) · dinv_j, and dinv_i · dinv_i is added on the diagonal.
  Both matrix products of the kernel are accumulated over eight column blocks of 1024 into a scratch block that is
  cleared at the first block and copied out at the last.

  On the extended reals the two results agree when every input entry is a real number: the row sums, hence the
  scaling factors, are then real, so the diagonal term distributes (dinv_i · (S_ii + 1)) · dinv_i = (dinv_i · S_ii) ·
  dinv_i + dinv_i · dinv_i, the blocked sums are the whole sums (associativity alone), and the two orders of the
  matrix chain are one double sum of reals.

  The modules: Kernel/ and KernelIdeal/ (Body, Region, Frame: each region's body run in its three control cases, the
  invariant carrying the accumulator between grid points, and the program's run from its two regions), Pieces and
  AccPayload / AccBlocks / AccRun / AccArray / KernelValue (each region's result array is the plain matrix product
  of the arrays it finds), AdjacencyKernel / AdjacencyScatter / Adjacency (the two adjacency chains are one real
  matrix), Chain / LibMatChain / Finite (the reference's double sum, reassociated over the reals; the
  precondition gives real entries), KernelChain / MatG and Bridge (the claim).
-/
import proofs.«103546_j7430293422438_2_alg».proof.Defs
import proofs.«103546_j7430293422438_2_alg».proof.Proof.Gen.Kernel
import proofs.«103546_j7430293422438_2_alg».proof.Proof.Gen.KernelIdeal
import proofs.«103546_j7430293422438_2_alg».proof.Proof.Gen.ReferenceIdeal
import proofs.«103546_j7430293422438_2_alg».proof.Proof.Gen.Pre_finite_inputs
import proofs.«103546_j7430293422438_2_alg».proof.Proof.Gen.ReferenceIdeal.Run
import proofs.«103546_j7430293422438_2_alg».proof.Proof.Gen.ReferenceIdeal.Read
import proofs.«103546_j7430293422438_2_alg».proof.Proof.Kernel.Frame
import proofs.«103546_j7430293422438_2_alg».proof.Proof.KernelIdeal.Frame
import proofs.«103546_j7430293422438_2_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Hand.frame m ρ

/-- So does the idealized kernel program. -/
theorem frame_kernelIdeal : Cert.frame_KernelIdeal := fun m ρ _ => Cert.KernelIdeal.Hand.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Bridge.algebraic⟩

end Cert.Proof

end
